-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128000 : Shape := ⟨2, ![1, 128000]⟩
abbrev S200x128000 : Shape := ⟨2, ![200, 128000]⟩
abbrev S256x128000 : Shape := ⟨2, ![256, 128000]⟩
abbrev S128000x256 : Shape := ⟨2, ![128000, 256]⟩
abbrev S200x256 : Shape := ⟨2, ![200, 256]⟩
abbrev S_ : Shape := ⟨0, ![]⟩

class Facts : Prop where
  bcast_S_S1x128000 : S_.BroadcastsInDim S1x128000 (![] : Fin 0 → Fin S1x128000.rank)
  reducesTo_S1x128000_S_d0_1 : S1x128000.ReducesTo [0, 1] S_
  h_S_ : 0 < S_.numel
  bcast_S_S200x128000 : S_.BroadcastsInDim S200x128000 (![] : Fin 0 → Fin S200x128000.rank)
  reducesTo_S200x128000_S_d0_1 : S200x128000.ReducesTo [0, 1] S_
  bcast_S_S256x128000 : S_.BroadcastsInDim S256x128000 (![] : Fin 0 → Fin S256x128000.rank)
  reducesTo_S256x128000_S_d0_1 : S256x128000.ReducesTo [0, 1] S_
  bcast_S_S128000x256 : S_.BroadcastsInDim S128000x256 (![] : Fin 0 → Fin S128000x256.rank)
  reducesTo_S128000x256_S_d0_1 : S128000x256.ReducesTo [0, 1] S_
  bcast_S_S200x256 : S_.BroadcastsInDim S200x256 (![] : Fin 0 → Fin S200x256.rank)
  reducesTo_S200x256_S_d0_1 : S200x256.ReducesTo [0, 1] S_

variable [Facts]

def fn_part2 {F : FTy → Type} [FloatOps F] (main_arg7 : FVec F S200x256 .f32) (main_v33 : IVec S_ 1) : IVec S_ 1 :=
  let main_v34 : FVec F S200x256 .f32 := Host.absf main_arg7
  let main_cst_12 : FVec F S_ .f32 := constant S_ .f32 0x7F800000#32
  let main_v35 : FVec F S200x256 .f32 := broadcastInDim S200x256 ![] bcast_S_S200x256 main_cst_12
  let main_v36 : IVec S200x256 1 := cmpf .olt main_v34 main_v35
  let main_c_13 : IVec S_ 1 := constantI S_ 1 1#1
  let main_v37 : IVec S_ 1 := (fun x v => Host.reduce IntOp.andi x v reducesTo_S200x256_S_d0_1 h_S_) main_v36 main_c_13
  let main_v38 : IVec S_ 1 := andi main_v33 main_v37
  main_v38

def fn_part1 {F : FTy → Type} [FloatOps F] (main_arg4 : FVec F S256x128000 .f32) (main_arg5 : FVec F S128000x256 .f32) (main_arg6 : FVec F S200x256 .f32) (main_arg7 : FVec F S200x256 .f32) (main_v13 : IVec S_ 1) (main_v16 : IVec S256x128000 1) : IVec S_ 1 :=
  let main_c_5 : IVec S_ 1 := constantI S_ 1 1#1
  let main_v17 : IVec S_ 1 := (fun x v => Host.reduce IntOp.andi x v reducesTo_S256x128000_S_d0_1 h_S_) main_v16 main_c_5
  let main_v18 : IVec S_ 1 := andi main_v13 main_v17
  let main_v19 : FVec F S256x128000 .f32 := Host.absf main_arg4
  let main_cst_6 : FVec F S_ .f32 := constant S_ .f32 0x7F800000#32
  let main_v20 : FVec F S256x128000 .f32 := broadcastInDim S256x128000 ![] bcast_S_S256x128000 main_cst_6
  let main_v21 : IVec S256x128000 1 := cmpf .olt main_v19 main_v20
  let main_c_7 : IVec S_ 1 := constantI S_ 1 1#1
  let main_v22 : IVec S_ 1 := (fun x v => Host.reduce IntOp.andi x v reducesTo_S256x128000_S_d0_1 h_S_) main_v21 main_c_7
  let main_v23 : IVec S_ 1 := andi main_v18 main_v22
  let main_v24 : FVec F S128000x256 .f32 := Host.absf main_arg5
  let main_cst_8 : FVec F S_ .f32 := constant S_ .f32 0x7F800000#32
  let main_v25 : FVec F S128000x256 .f32 := broadcastInDim S128000x256 ![] bcast_S_S128000x256 main_cst_8
  let main_v26 : IVec S128000x256 1 := cmpf .olt main_v24 main_v25
  let main_c_9 : IVec S_ 1 := constantI S_ 1 1#1
  let main_v27 : IVec S_ 1 := (fun x v => Host.reduce IntOp.andi x v reducesTo_S128000x256_S_d0_1 h_S_) main_v26 main_c_9
  let main_v28 : IVec S_ 1 := andi main_v23 main_v27
  let main_v29 : FVec F S200x256 .f32 := Host.absf main_arg6
  let main_cst_10 : FVec F S_ .f32 := constant S_ .f32 0x7F800000#32
  let main_v30 : FVec F S200x256 .f32 := broadcastInDim S200x256 ![] bcast_S_S200x256 main_cst_10
  let main_v31 : IVec S200x256 1 := cmpf .olt main_v29 main_v30
  let main_c_11 : IVec S_ 1 := constantI S_ 1 1#1
  let main_v32 : IVec S_ 1 := (fun x v => Host.reduce IntOp.andi x v reducesTo_S200x256_S_d0_1 h_S_) main_v31 main_c_11
  let main_v33 : IVec S_ 1 := andi main_v28 main_v32
  fn_part2 (F := F) main_arg7 main_v33

def fn {F : FTy → Type} [FloatOps F] (main_arg0 : FVec F S1x128000 .f32) (main_arg1 : FVec F S200x128000 .f32) (main_arg2 : FVec F S256x128000 .f32) (main_arg3 : FVec F S256x128000 .f32) (main_arg4 : FVec F S256x128000 .f32) (main_arg5 : FVec F S128000x256 .f32) (main_arg6 : FVec F S200x256 .f32) (main_arg7 : FVec F S200x256 .f32) : IVec S_ 1 :=
  let main_v0 : FVec F S1x128000 .f32 := Host.absf main_arg0
  let main_cst : FVec F S_ .f32 := constant S_ .f32 0x7F800000#32
  let main_v1 : FVec F S1x128000 .f32 := broadcastInDim S1x128000 ![] bcast_S_S1x128000 main_cst
  let main_v2 : IVec S1x128000 1 := cmpf .olt main_v0 main_v1
  let main_c : IVec S_ 1 := constantI S_ 1 1#1
  let main_v3 : IVec S_ 1 := (fun x v => Host.reduce IntOp.andi x v reducesTo_S1x128000_S_d0_1 h_S_) main_v2 main_c
  let main_v4 : FVec F S200x128000 .f32 := Host.absf main_arg1
  let main_cst_0 : FVec F S_ .f32 := constant S_ .f32 0x7F800000#32
  let main_v5 : FVec F S200x128000 .f32 := broadcastInDim S200x128000 ![] bcast_S_S200x128000 main_cst_0
  let main_v6 : IVec S200x128000 1 := cmpf .olt main_v4 main_v5
  let main_c_1 : IVec S_ 1 := constantI S_ 1 1#1
  let main_v7 : IVec S_ 1 := (fun x v => Host.reduce IntOp.andi x v reducesTo_S200x128000_S_d0_1 h_S_) main_v6 main_c_1
  let main_v8 : IVec S_ 1 := andi main_v3 main_v7
  let main_v9 : FVec F S256x128000 .f32 := Host.absf main_arg2
  let main_cst_2 : FVec F S_ .f32 := constant S_ .f32 0x7F800000#32
  let main_v10 : FVec F S256x128000 .f32 := broadcastInDim S256x128000 ![] bcast_S_S256x128000 main_cst_2
  let main_v11 : IVec S256x128000 1 := cmpf .olt main_v9 main_v10
  let main_c_3 : IVec S_ 1 := constantI S_ 1 1#1
  let main_v12 : IVec S_ 1 := (fun x v => Host.reduce IntOp.andi x v reducesTo_S256x128000_S_d0_1 h_S_) main_v11 main_c_3
  let main_v13 : IVec S_ 1 := andi main_v8 main_v12
  let main_v14 : FVec F S256x128000 .f32 := Host.absf main_arg3
  let main_cst_4 : FVec F S_ .f32 := constant S_ .f32 0x7F800000#32
  let main_v15 : FVec F S256x128000 .f32 := broadcastInDim S256x128000 ![] bcast_S_S256x128000 main_cst_4
  let main_v16 : IVec S256x128000 1 := cmpf .olt main_v14 main_v15
  fn_part1 (F := F) main_arg4 main_arg5 main_arg6 main_arg7 main_v13 main_v16
-- ==== Kernel.lean ====
abbrev S1x128000 : Shape := ⟨2, ![1, 128000]⟩
abbrev S200x128000 : Shape := ⟨2, ![200, 128000]⟩
abbrev S256x128000 : Shape := ⟨2, ![256, 128000]⟩
abbrev S128000x256 : Shape := ⟨2, ![128000, 256]⟩
abbrev S200x256 : Shape := ⟨2, ![200, 256]⟩
abbrev S2x200x256 : Shape := ⟨3, ![2, 200, 256]⟩
abbrev S2x1x256 : Shape := ⟨3, ![2, 1, 256]⟩
abbrev S1x3200 : Shape := ⟨2, ![1, 3200]⟩
abbrev S200x3200 : Shape := ⟨2, ![200, 3200]⟩
abbrev S256x3200 : Shape := ⟨2, ![256, 3200]⟩
abbrev S1x200x256 : Shape := ⟨3, ![1, 200, 256]⟩
abbrev S1x1x256 : Shape := ⟨3, ![1, 1, 256]⟩
abbrev S1x256 : Shape := ⟨2, ![1, 256]⟩
abbrev S256x200 : Shape := ⟨2, ![256, 200]⟩
abbrev S1x200 : Shape := ⟨2, ![1, 200]⟩
abbrev S_ : Shape := ⟨0, ![]⟩
abbrev S1 : Shape := ⟨1, ![1]⟩
abbrev S1x1 : Shape := ⟨2, ![1, 1]⟩
abbrev S12800x256 : Shape := ⟨2, ![12800, 256]⟩
abbrev S1x12800 : Shape := ⟨2, ![1, 12800]⟩

abbrev nBuf : Space → Nat
  | .hbm => 83
  | .vmem => 24
  | .smem => 0
  | _ => 0

abbrev bufTy : (tb : Table) → Fin (tcTables nBuf tb) → BufTy
  | .hbm, ⟨0, _⟩ => ⟨S1x128000, .f32⟩
  | .hbm, ⟨1, _⟩ => ⟨S200x128000, .f32⟩
  | .hbm, ⟨2, _⟩ => ⟨S256x128000, .f32⟩
  | .hbm, ⟨3, _⟩ => ⟨S256x128000, .f32⟩
  | .hbm, ⟨4, _⟩ => ⟨S256x128000, .f32⟩
  | .hbm, ⟨5, _⟩ => ⟨S128000x256, .f32⟩
  | .hbm, ⟨6, _⟩ => ⟨S200x256, .f32⟩
  | .hbm, ⟨7, _⟩ => ⟨S200x256, .f32⟩
  | .hbm, ⟨8, _⟩ => ⟨S2x200x256, .f32⟩
  | .hbm, ⟨9, _⟩ => ⟨S2x200x256, .f32⟩
  | .hbm, ⟨10, _⟩ => ⟨S2x1x256, .f32⟩
  | .hbm, ⟨11, _⟩ => ⟨S1x200x256, .f32⟩
  | .hbm, ⟨12, _⟩ => ⟨S200x256, .f32⟩
  | .hbm, ⟨13, _⟩ => ⟨S1x200x256, .f32⟩
  | .hbm, ⟨14, _⟩ => ⟨S200x256, .f32⟩
  | .hbm, ⟨15, _⟩ => ⟨S200x256, .f32⟩
  | .hbm, ⟨16, _⟩ => ⟨S200x256, .f32⟩
  | .hbm, ⟨17, _⟩ => ⟨S1x200x256, .f32⟩
  | .hbm, ⟨18, _⟩ => ⟨S200x256, .f32⟩
  | .hbm, ⟨19, _⟩ => ⟨S1x200x256, .f32⟩
  | .hbm, ⟨20, _⟩ => ⟨S200x256, .f32⟩
  | .hbm, ⟨21, _⟩ => ⟨S200x256, .f32⟩
  | .hbm, ⟨22, _⟩ => ⟨S200x256, .f32⟩
  | .hbm, ⟨23, _⟩ => ⟨S1x1x256, .f32⟩
  | .hbm, ⟨24, _⟩ => ⟨S1x256, .f32⟩
  | .hbm, ⟨25, _⟩ => ⟨S1x1x256, .f32⟩
  | .hbm, ⟨26, _⟩ => ⟨S1x256, .f32⟩
  | .hbm, ⟨27, _⟩ => ⟨S1x256, .f32⟩
  | .hbm, ⟨28, _⟩ => ⟨S256x200, .f32⟩
  | .hbm, ⟨29, _⟩ => ⟨S1x200, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S1x200, .f32⟩
  | .hbm, ⟨37, _⟩ => ⟨S1x200, .f32⟩
  | .hbm, ⟨38, _⟩ => ⟨S1x200, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S1x200, .f32⟩
  | .hbm, ⟨43, _⟩ => ⟨S1x200, .f32⟩
  | .hbm, ⟨44, _⟩ => ⟨S1x256, .f32⟩
  | .hbm, ⟨45, _⟩ => ⟨S1x256, .f32⟩
  | .hbm, ⟨46, _⟩ => ⟨S256x200, .f32⟩
  | .hbm, ⟨47, _⟩ => ⟨S1x200, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1x1, .f32⟩
  | .hbm, ⟨54, _⟩ => ⟨S1x200, .f32⟩
  | .hbm, ⟨55, _⟩ => ⟨S1x200, .f32⟩
  | .hbm, ⟨56, _⟩ => ⟨S1x200, .f32⟩
  | .hbm, ⟨57, _⟩ => ⟨S_, .f32⟩
  | .hbm, ⟨58, _⟩ => ⟨S1, .f32⟩
  | .hbm, ⟨59, _⟩ => ⟨S1x1, .f32⟩
  | .hbm, ⟨60, _⟩ => ⟨S1x200, .f32⟩
  | .hbm, ⟨61, _⟩ => ⟨S1x200, .f32⟩
  | .hbm, ⟨62, _⟩ => ⟨S1x256, .f32⟩
  | .hbm, ⟨63, _⟩ => ⟨S1x256, .f32⟩
  | .hbm, ⟨64, _⟩ => ⟨S256x200, .f32⟩
  | .hbm, ⟨65, _⟩ => ⟨S1x200, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S1, .f32⟩
  | .hbm, ⟨70, _⟩ => ⟨S1, .f32⟩
  | .hbm, ⟨71, _⟩ => ⟨S1x1, .f32⟩
  | .hbm, ⟨72, _⟩ => ⟨S1x200, .f32⟩
  | .hbm, ⟨73, _⟩ => ⟨S1x200, .f32⟩
  | .hbm, ⟨74, _⟩ => ⟨S1x200, .f32⟩
  | .hbm, ⟨75, _⟩ => ⟨S_, .f32⟩
  | .hbm, ⟨76, _⟩ => ⟨S1, .f32⟩
  | .hbm, ⟨77, _⟩ => ⟨S1x1, .f32⟩
  | .hbm, ⟨78, _⟩ => ⟨S1x200, .f32⟩
  | .hbm, ⟨79, _⟩ => ⟨S1x200, .f32⟩
  | .hbm, ⟨80, _⟩ => ⟨S1x256, .f32⟩
  | .hbm, ⟨81, _⟩ => ⟨S1x256, .f32⟩
  | .hbm, ⟨82, _⟩ => ⟨S1x128000, .f32⟩
  | .local _ .vmem, ⟨0, _⟩ => ⟨S1x3200, .f32⟩
  | .local _ .vmem, ⟨1, _⟩ => ⟨S1x3200, .f32⟩
  | .local _ .vmem, ⟨2, _⟩ => ⟨S200x3200, .f32⟩
  | .local _ .vmem, ⟨3, _⟩ => ⟨S200x3200, .f32⟩
  | .local _ .vmem, ⟨4, _⟩ => ⟨S256x3200, .f32⟩
  | .local _ .vmem, ⟨5, _⟩ => ⟨S256x3200, .f32⟩
  | .local _ .vmem, ⟨6, _⟩ => ⟨S256x3200, .f32⟩
  | .local _ .vmem, ⟨7, _⟩ => ⟨S256x3200, .f32⟩
  | .local _ .vmem, ⟨8, _⟩ => ⟨S256x3200, .f32⟩
  | .local _ .vmem, ⟨9, _⟩ => ⟨S256x3200, .f32⟩
  | .local _ .vmem, ⟨10, _⟩ => ⟨S1x200x256, .f32⟩
  | .local _ .vmem, ⟨11, _⟩ => ⟨S1x200x256, .f32⟩
  | .local _ .vmem, ⟨12, _⟩ => ⟨S1x200x256, .f32⟩
  | .local _ .vmem, ⟨13, _⟩ => ⟨S1x200x256, .f32⟩
  | .local _ .vmem, ⟨14, _⟩ => ⟨S1x1x256, .f32⟩
  | .local _ .vmem, ⟨15, _⟩ => ⟨S1x1x256, .f32⟩
  | .local _ .vmem, ⟨16, _⟩ => ⟨S200x256, .f32⟩
  | .local _ .vmem, ⟨17, _⟩ => ⟨S200x256, .f32⟩
  | .local _ .vmem, ⟨18, _⟩ => ⟨S1x256, .f32⟩
  | .local _ .vmem, ⟨19, _⟩ => ⟨S1x256, .f32⟩
  | .local _ .vmem, ⟨20, _⟩ => ⟨S12800x256, .f32⟩
  | .local _ .vmem, ⟨21, _⟩ => ⟨S12800x256, .f32⟩
  | .local _ .vmem, ⟨22, _⟩ => ⟨S1x12800, .f32⟩
  | .local _ .vmem, ⟨23, _⟩ => ⟨S1x12800, .f32⟩
  | _, _ => ⟨S1x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v31 : BitVec 1 := Scalar.cmpi .eq arg1 c19_i32
  let v32 : BitVec 32 := Scalar.extui v31
  let c0_i32_24 : BitVec 32 := 0#32
  let v33 : BitVec 1 := Scalar.cmpi .ne v32 c0_i32_24
  v33

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x200x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x200x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S12800x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12800 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S200x256_S200x256_0_0 : ∀ a, (![0, 0] : Fin 2 → Nat) a + S200x256.size a ≤ S200x256.size a
  h_S200x256 : 0 < S200x256.numel
  shapeCasts_S200x256_S200x256 : S200x256.ShapeCasts S200x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S200x3200_S200x3200_0_0 : ∀ a, (![0, 0] : Fin 2 → Nat) a + S200x3200.size a ≤ S200x3200.size a
  h_S200x3200 : 0 < S200x3200.numel
  bitsLt_bf16_f32 : FTy.bits .bf16 < FTy.bits .f32
  inb_S1x3200_S1x3200_0_0 : ∀ a, (![0, 0] : Fin 2 → Nat) a + S1x3200.size a ≤ S1x3200.size a
  h_S1x3200 : 0 < S1x3200.numel
  inb_S256x3200_S256x3200_0_0 : ∀ a, (![0, 0] : Fin 2 → Nat) a + S256x3200.size a ≤ S256x3200.size a
  h_S256x3200 : 0 < S256x3200.numel
  inb_S1x200x256_S1x200x256_0_0_0 : ∀ a, (![0, 0, 0] : Fin 3 → Nat) a + S1x200x256.size a ≤ S1x200x256.size a
  h_S1x200x256 : 0 < S1x200x256.numel
  shapeCasts_S1x200x256_S200x256 : S1x200x256.ShapeCasts S200x256
  shapeCasts_S200x256_S1x200x256 : S200x256.ShapeCasts S1x200x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  slices_S2x200x256_S1x200x256_0_0_0 : S2x200x256.Slices ![0, 0, 0] S1x200x256
  slices_S2x200x256_S1x200x256_1_0_0 : S2x200x256.Slices ![1, 0, 0] S1x200x256
  slices_S2x1x256_S1x1x256_0_0_0 : S2x1x256.Slices ![0, 0, 0] S1x1x256
  slices_S2x1x256_S1x1x256_1_0_0 : S2x1x256.Slices ![1, 0, 0] S1x1x256
  transposes_S200x256_S256x200_1_0 : S200x256.Transposes [1, 0] S256x200
  reducesTo_S1x200_S1_d1 : S1x200.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x200_0_1 : S1x1.BroadcastsInDim S1x200 (![0, 1] : Fin 2 → Fin S1x200.rank)
  inb_S12800x256_S12800x256_0_0 : ∀ a, (![0, 0] : Fin 2 → Nat) a + S12800x256.size a ≤ S12800x256.size a
  h_S12800x256 : 0 < S12800x256.numel
  inb_S1x12800_S1x12800_0_0 : ∀ a, (![0, 0] : Fin 2 → Nat) a + S1x12800.size a ≤ S1x12800.size a
  h_S1x12800 : 0 < S1x12800.numel
  dot_S200x3200_S256x3200_S200x256_1_1_0_0_n_n_wf : DotDims.WF S200x3200 S256x3200 S200x256 [1] [1] [0] [0] [] []
  dot_S1x3200_S256x3200_S1x256_1_1_0_0_n_n_wf : DotDims.WF S1x3200 S256x3200 S1x256 [1] [1] [0] [0] [] []
  dot_S1x256_S256x200_S1x200_1_0_0_1_n_n_wf : DotDims.WF S1x256 S256x200 S1x200 [1] [0] [0] [1] [] []
  dot_S1x200_S200x256_S1x256_1_0_0_1_n_n_wf : DotDims.WF S1x200 S200x256 S1x256 [1] [0] [0] [1] [] []
  dot_S1x256_S12800x256_S1x12800_1_1_0_0_n_n_wf : DotDims.WF S1x256 S12800x256 S1x12800 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x128000.size a
  hwx0_0 : ∀ i : grid0.Coords, EltTy.bits .f32 = 32 ∨ (Rect.block (s := S1x128000) S1x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x3200.size a ≤ S200x128000.size a
  hwx0_1 : ∀ i : grid0.Coords, EltTy.bits .f32 = 32 ∨ (Rect.block (s := S200x128000) S200x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3200.size a ≤ S256x128000.size a
  hwx0_2 : ∀ i : grid0.Coords, EltTy.bits .f32 = 32 ∨ (Rect.block (s := S256x128000) S256x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3200.size a ≤ S256x128000.size a
  hwx0_3 : ∀ i : grid0.Coords, EltTy.bits .f32 = 32 ∨ (Rect.block (s := S256x128000) S256x3200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x3200.size a ≤ S256x128000.size a
  hwx0_4 : ∀ i : grid0.Coords, EltTy.bits .f32 = 32 ∨ (Rect.block (s := S256x128000) S256x3200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x200x256.size a ≤ S2x200x256.size a
  hwx0_5 : ∀ i : grid0.Coords, EltTy.bits .f32 = 32 ∨ (Rect.block (s := S2x200x256) S1x200x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x200x256.size a ≤ S2x200x256.size a
  hwx0_6 : ∀ i : grid0.Coords, EltTy.bits .f32 = 32 ∨ (Rect.block (s := S2x200x256) S1x200x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S2x1x256.size a
  hwx0_7 : ∀ i : grid0.Coords, EltTy.bits .f32 = 32 ∨ (Rect.block (s := S2x1x256) S1x1x256.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x256.size a
  hwx1_0 : ∀ i : grid1.Coords, EltTy.bits .f32 = 32 ∨ (Rect.block (s := S1x256) S1x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x256.size a ≤ S128000x256.size a
  hwx1_1 : ∀ i : grid1.Coords, EltTy.bits .f32 = 32 ∨ (Rect.block (s := S128000x256) S12800x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x12800.size a ≤ S1x128000.size a
  hwx1_2 : ∀ i : grid1.Coords, EltTy.bits .f32 = 32 ∨ (Rect.block (s := S1x128000) S1x12800.size (cc1_transform_2 i) (hinb1_2 i)).WholeWords (EltTy.packing .f32)

variable [Facts₀]

def dot_S200x3200_S256x3200_S200x256_1_1_0_0_n_n : DotDims S200x3200 S256x3200 S200x256 where
  lhsContracting := [1]
  rhsContracting := [1]
  lhsNonContracting := [0]
  rhsNonContracting := [0]
  lhsBatch := []
  rhsBatch := []
  wf := dot_S200x3200_S256x3200_S200x256_1_1_0_0_n_n_wf
def dot_S1x3200_S256x3200_S1x256_1_1_0_0_n_n : DotDims S1x3200 S256x3200 S1x256 where
  lhsContracting := [1]
  rhsContracting := [1]
  lhsNonContracting := [0]
  rhsNonContracting := [0]
  lhsBatch := []
  rhsBatch := []
  wf := dot_S1x3200_S256x3200_S1x256_1_1_0_0_n_n_wf
def dot_S1x256_S256x200_S1x200_1_0_0_1_n_n : DotDims S1x256 S256x200 S1x200 where
  lhsContracting := [1]
  rhsContracting := [0]
  lhsNonContracting := [0]
  rhsNonContracting := [1]
  lhsBatch := []
  rhsBatch := []
  wf := dot_S1x256_S256x200_S1x200_1_0_0_1_n_n_wf
def dot_S1x200_S200x256_S1x256_1_0_0_1_n_n : DotDims S1x200 S200x256 S1x256 where
  lhsContracting := [1]
  rhsContracting := [0]
  lhsNonContracting := [0]
  rhsNonContracting := [1]
  lhsBatch := []
  rhsBatch := []
  wf := dot_S1x200_S200x256_S1x256_1_0_0_1_n_n_wf
def dot_S1x256_S12800x256_S1x12800_1_1_0_0_n_n : DotDims S1x256 S12800x256 S1x12800 where
  lhsContracting := [1]
  rhsContracting := [1]
  lhsNonContracting := [0]
  rhsNonContracting := [0]
  lhsBatch := []
  rhsBatch := []
  wf := dot_S1x256_S12800x256_S1x12800_1_1_0_0_n_n_wf

abbrev win0_0 : Pipeline.Window sig grid0 :=
  Pipeline.Window.ofSpec (Memref.whole main_arg0) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x3200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x3200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x200x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x200x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v62) S1x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S12800x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x12800.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x128000 : Shape := ⟨2, ![1, 128000]⟩
abbrev S200x128000 : Shape := ⟨2, ![200, 128000]⟩
abbrev S256x128000 : Shape := ⟨2, ![256, 128000]⟩
abbrev S128000x256 : Shape := ⟨2, ![128000, 256]⟩
abbrev S200x256 : Shape := ⟨2, ![200, 256]⟩
abbrev S1x256 : Shape := ⟨2, ![1, 256]⟩
abbrev S256x200 : Shape := ⟨2, ![256, 200]⟩
abbrev S1x200 : Shape := ⟨2, ![1, 200]⟩
abbrev S_ : Shape := ⟨0, ![]⟩
abbrev S1 : Shape := ⟨1, ![1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S1x128000, .f32⟩
  | .hbm, ⟨1, _⟩ => ⟨S200x128000, .f32⟩
  | .hbm, ⟨2, _⟩ => ⟨S256x128000, .f32⟩
  | .hbm, ⟨3, _⟩ => ⟨S256x128000, .f32⟩
  | .hbm, ⟨4, _⟩ => ⟨S256x128000, .f32⟩
  | .hbm, ⟨5, _⟩ => ⟨S128000x256, .f32⟩
  | .hbm, ⟨6, _⟩ => ⟨S200x256, .f32⟩
  | .hbm, ⟨7, _⟩ => ⟨S200x256, .f32⟩
  | .hbm, ⟨8, _⟩ => ⟨S128000x256, .f32⟩
  | .hbm, ⟨9, _⟩ => ⟨S1x256, .f32⟩
  | .hbm, ⟨10, _⟩ => ⟨S128000x256, .f32⟩
  | .hbm, ⟨11, _⟩ => ⟨S200x256, .f32⟩
  | .hbm, ⟨12, _⟩ => ⟨S200x256, .f32⟩
  | .hbm, ⟨13, _⟩ => ⟨S128000x256, .f32⟩
  | .hbm, ⟨14, _⟩ => ⟨S200x256, .f32⟩
  | .hbm, ⟨15, _⟩ => ⟨S200x256, .f32⟩
  | .hbm, ⟨16, _⟩ => ⟨S256x200, .f32⟩
  | .hbm, ⟨17, _⟩ => ⟨S1x200, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1x1, .f32⟩
  | .hbm, ⟨24, _⟩ => ⟨S1x200, .f32⟩
  | .hbm, ⟨25, _⟩ => ⟨S1x200, .f32⟩
  | .hbm, ⟨26, _⟩ => ⟨S1x200, .f32⟩
  | .hbm, ⟨27, _⟩ => ⟨S_, .f32⟩
  | .hbm, ⟨28, _⟩ => ⟨S1, .f32⟩
  | .hbm, ⟨29, _⟩ => ⟨S1x1, .f32⟩
  | .hbm, ⟨30, _⟩ => ⟨S1x200, .f32⟩
  | .hbm, ⟨31, _⟩ => ⟨S1x200, .f32⟩
  | .hbm, ⟨32, _⟩ => ⟨S1x256, .f32⟩
  | .hbm, ⟨33, _⟩ => ⟨S1x256, .f32⟩
  | .hbm, ⟨34, _⟩ => ⟨S256x200, .f32⟩
  | .hbm, ⟨35, _⟩ => ⟨S1x200, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1x1, .f32⟩
  | .hbm, ⟨42, _⟩ => ⟨S1x200, .f32⟩
  | .hbm, ⟨43, _⟩ => ⟨S1x200, .f32⟩
  | .hbm, ⟨44, _⟩ => ⟨S1x200, .f32⟩
  | .hbm, ⟨45, _⟩ => ⟨S_, .f32⟩
  | .hbm, ⟨46, _⟩ => ⟨S1, .f32⟩
  | .hbm, ⟨47, _⟩ => ⟨S1x1, .f32⟩
  | .hbm, ⟨48, _⟩ => ⟨S1x200, .f32⟩
  | .hbm, ⟨49, _⟩ => ⟨S1x200, .f32⟩
  | .hbm, ⟨50, _⟩ => ⟨S1x256, .f32⟩
  | .hbm, ⟨51, _⟩ => ⟨S1x256, .f32⟩
  | .hbm, ⟨52, _⟩ => ⟨S256x200, .f32⟩
  | .hbm, ⟨53, _⟩ => ⟨S1x200, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1x1, .f32⟩
  | .hbm, ⟨60, _⟩ => ⟨S1x200, .f32⟩
  | .hbm, ⟨61, _⟩ => ⟨S1x200, .f32⟩
  | .hbm, ⟨62, _⟩ => ⟨S1x200, .f32⟩
  | .hbm, ⟨63, _⟩ => ⟨S_, .f32⟩
  | .hbm, ⟨64, _⟩ => ⟨S1, .f32⟩
  | .hbm, ⟨65, _⟩ => ⟨S1x1, .f32⟩
  | .hbm, ⟨66, _⟩ => ⟨S1x200, .f32⟩
  | .hbm, ⟨67, _⟩ => ⟨S1x200, .f32⟩
  | .hbm, ⟨68, _⟩ => ⟨S1x256, .f32⟩
  | .hbm, ⟨69, _⟩ => ⟨S1x256, .f32⟩
  | .hbm, ⟨70, _⟩ => ⟨S256x128000, .f32⟩
  | .hbm, ⟨71, _⟩ => ⟨S1x128000, .f32⟩
  | _, _ => ⟨S1x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  transposes_S256x128000_S128000x256_1_0 : S256x128000.Transposes [1, 0] S128000x256
  transposes_S200x256_S256x200_1_0 : S200x256.Transposes [1, 0] S256x200
  reducesTo_S1x200_S1_d1 : S1x200.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x200_0_1 : S1x1.BroadcastsInDim S1x200 (![0, 1] : Fin 2 → Fin S1x200.rank)
  transposes_S128000x256_S256x128000_1_0 : S128000x256.Transposes [1, 0] S256x128000
  dot_S1x128000_S128000x256_S1x256_1_0_0_1_n_n_wf : DotDims.WF S1x128000 S128000x256 S1x256 [1] [0] [0] [1] [] []
  dot_S200x128000_S128000x256_S200x256_1_0_0_1_n_n_wf : DotDims.WF S200x128000 S128000x256 S200x256 [1] [0] [0] [1] [] []
  dot_S1x256_S256x200_S1x200_1_0_0_1_n_n_wf : DotDims.WF S1x256 S256x200 S1x200 [1] [0] [0] [1] [] []
  dot_S1x200_S200x256_S1x256_1_0_0_1_n_n_wf : DotDims.WF S1x200 S200x256 S1x256 [1] [0] [0] [1] [] []
  dot_S1x256_S256x128000_S1x128000_1_0_0_1_n_n_wf : DotDims.WF S1x256 S256x128000 S1x128000 [1] [0] [0] [1] [] []

variable [Facts₀]

def dot_S1x128000_S128000x256_S1x256_1_0_0_1_n_n : DotDims S1x128000 S128000x256 S1x256 where
  lhsContracting := [1]
  rhsContracting := [0]
  lhsNonContracting := [0]
  rhsNonContracting := [1]
  lhsBatch := []
  rhsBatch := []
  wf := dot_S1x128000_S128000x256_S1x256_1_0_0_1_n_n_wf
def dot_S200x128000_S128000x256_S200x256_1_0_0_1_n_n : DotDims S200x128000 S128000x256 S200x256 where
  lhsContracting := [1]
  rhsContracting := [0]
  lhsNonContracting := [0]
  rhsNonContracting := [1]
  lhsBatch := []
  rhsBatch := []
  wf := dot_S200x128000_S128000x256_S200x256_1_0_0_1_n_n_wf
def dot_S1x256_S256x200_S1x200_1_0_0_1_n_n : DotDims S1x256 S256x200 S1x200 where
  lhsContracting := [1]
  rhsContracting := [0]
  lhsNonContracting := [0]
  rhsNonContracting := [1]
  lhsBatch := []
  rhsBatch := []
  wf := dot_S1x256_S256x200_S1x200_1_0_0_1_n_n_wf
def dot_S1x200_S200x256_S1x256_1_0_0_1_n_n : DotDims S1x200 S200x256 S1x256 where
  lhsContracting := [1]
  rhsContracting := [0]
  lhsNonContracting := [0]
  rhsNonContracting := [1]
  lhsBatch := []
  rhsBatch := []
  wf := dot_S1x200_S200x256_S1x256_1_0_0_1_n_n_wf
def dot_S1x256_S256x128000_S1x128000_1_0_0_1_n_n : DotDims S1x256 S256x128000 S1x128000 where
  lhsContracting := [1]
  rhsContracting := [0]
  lhsNonContracting := [0]
  rhsNonContracting := [1]
  lhsBatch := []
  rhsBatch := []
  wf := dot_S1x256_S256x128000_S1x128000_1_0_0_1_n_n_wf

class Facts : Prop extends Facts₀ where

variable [Facts]
-- ==== Proof.K.EncBase.lean ====
import proofs.«142703_j28621662061019_2_alg».proof.Proof.Gen.Kernel.Launch
import proofs.«142703_j28621662061019_2_alg».proof.Proof.Gen.Kernel.Skeleton
import proofs.«142703_j28621662061019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditionals of the body, in closed form

The body zeroes its three accumulators when the inner coordinate is 0 and copies them to the
output blocks when it is 19; every point adds the three products of the current column tile. -/

/-- The guard of the zeroing block: the inner coordinate is 0. -/
abbrev atFirst (i : grid0.Coords) : Prop :=
  (Scalar.cmpi .ne (Scalar.extui (Scalar.cmpi .eq (BitVec.ofNat 32 (i 1).val) 0#32)) 0#32) = 1#1

/-- The guard of the copying block: the inner coordinate is 19. -/
abbrev atLast (i : grid0.Coords) : Prop := k0_cond2 i = 1#1

/-- Over the 40 points, in row-major order: the zeroing block runs at the points 0 and 20. -/
theorem atFirst_iff : ∀ t : Fin cfg0.N, atFirst (grid0.coords t) ↔ t.val % 20 = 0 :=
  (by decide +kernel : ∀ t : Fin grid0.N, atFirst (grid0.coords t) ↔ t.val % 20 = 0)

/-- The copying block runs at the points 19 and 39. -/
theorem atLast_iff : ∀ t : Fin cfg0.N, atLast (grid0.coords t) ↔ t.val % 20 = 19 :=
  (by decide +kernel : ∀ t : Fin grid0.N, atLast (grid0.coords t) ↔ t.val % 20 = 19)

/-! ## Which windows the body leaves alone -/

/-- The five input windows are stored into nowhere, hence never idle in the table's sense. -/
theorem in_live (w : Fin cfg0.W) (hw : w.val < 5) (i : grid0.Coords) : cfg0.idle w i = false := by
  obtain ⟨w, hW⟩ := w
  match w, hW, hw with
  | 0, _, _ => rfl
  | 1, _, _ => rfl
  | 2, _, _ => rfl
  | 3, _, _ => rfl
  | 4, _, _ => rfl

/-- Away from the copying block the three output windows are idle. -/
theorem out_idle (i : grid0.Coords) (h : ¬atLast i) :
    cfg0.idle 5 i = true ∧ cfg0.idle 6 i = true ∧ cfg0.idle 7 i = true := by
  have e : (k0_cond2 i == 1#1) = false := by
    rw [beq_eq_false_iff_ne]; exact h
  refine ⟨?_, ?_, ?_⟩ <;> show (!(k0_cond2 i == 1#1)) = true <;> rw [e] <;> rfl

/-- Under it they are live. -/
theorem out_live (i : grid0.Coords) (h : atLast i) :
    cfg0.idle 5 i = false ∧ cfg0.idle 6 i = false ∧ cfg0.idle 7 i = false := by
  have e : (k0_cond2 i == 1#1) = true := by
    rw [beq_iff_eq]; exact h
  refine ⟨?_, ?_, ?_⟩ <;> show (!(k0_cond2 i == 1#1)) = false <;> rw [e] <;> rfl

/-- Away from the points 19 and 39 no output block is written back. -/
theorem out_kept (t : Fin cfg0.N) (h : ¬t.val % 20 = 19) :
    (cfg0.win 5).flush t = false ∧ (cfg0.win 6).flush t = false ∧ (cfg0.win 7).flush t = false :=
  ⟨Bool.eq_false_iff.mpr fun e => h ((flush0_5 t).mp e),
   Bool.eq_false_iff.mpr fun e => h ((flush0_6 t).mp e),
   Bool.eq_false_iff.mpr fun e => h ((flush0_7 t).mp e)⟩

/-! ## The accumulators and the buffers that only ride along -/

/-- The three accumulators: whole scoped buffers of the kernel's own. -/
abbrev accA : Memref sig .tc .vmem S200x256 .f32 := Memref.whole cc0_scratch0
abbrev accC : Memref sig .tc .vmem S200x256 .f32 := Memref.whole cc0_scratch1
abbrev accQ : Memref sig .tc .vmem S1x256 .f32 := Memref.whole cc0_scratch2

/-- The later call's five staging buffers: scoped, untouched here, each at some contents. -/
def riders (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's entry invariant, opened: the three accumulators at some contents, the riders, the generator register. -/
theorem entry_open (c : Dev nD) :
    (Pipeline.ΦA spec0 c : sProp 𝕄)
      = iprop(iprop((∃ d, owns (c : Thread nD τ) accA fullShare d) ∗ (∃ d, owns (c : Thread nD τ) accC fullShare d)
          ∗ (∃ d, owns (c : Thread nD τ) accQ fullShare d) ∗ riders (F := F) c) ∗ (∃ r, prngReg c r)) := by
  unfold Pipeline.ΦA riders; rw [scopedRest0_eq]; simp only [accA, accC, accQ, owns_whole]; try rfl

/-- The five column tiles a point reads. -/
structure Tiles (F : FTy → Type) where
  q : Vec F S1x3200 .f32
  m : Vec F S200x3200 .f32
  wa : Vec F S256x3200 .f32
  wb : Vec F S256x3200 .f32
  wc : Vec F S256x3200 .f32

/-- What the three accumulators hold. -/
structure Sums (F : FTy → Type) where
  a : Vec F S200x256 .f32
  c : Vec F S200x256 .f32
  q : Vec F S1x256 .f32

end Cert.Kernel.Enc

end
-- ==== Proof.K.EncB.lean ====
import proofs.«142703_j28621662061019_2_alg».proof.Proof.K.EncBase

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords)
  (mq : Memref sig .tc .vmem S1x3200 .f32) (hq : mq.IsWhole)
  (mm : Memref sig .tc .vmem S200x3200 .f32) (hm : mm.IsWhole)
  (ma : Memref sig .tc .vmem S256x3200 .f32) (ha : ma.IsWhole)
  (mb : Memref sig .tc .vmem S256x3200 .f32) (hb : mb.IsWhole)
  (mc : Memref sig .tc .vmem S256x3200 .f32) (hc : mc.IsWhole)
  (oa : Memref sig .tc .vmem S1x200x256 .f32) (hoa : oa.IsWhole)
  (oc : Memref sig .tc .vmem S1x200x256 .f32) (hoc : oc.IsWhole)
  (oq : Memref sig .tc .vmem S1x1x256 .f32) (hoq : oq.IsWhole)
  (sa : Memref sig .tc .vmem S200x256 .f32) (hsa : sa.IsWhole)
  (sc : Memref sig .tc .vmem S200x256 .f32) (hsc : sc.IsWhole)
  (sq : Memref sig .tc .vmem S1x256 .f32) (hsq : sq.IsWhole)

set_option maxHeartbeats 4000000 in
/-- A point strictly inside a half (neither conditional taken): on whole buffers, the inputs at the tiles `x`, the
    outputs at any contents `y·` (given back as found), the accumulators at `s`, the body runs to the inputs and
    outputs as they were and each accumulator overwritten by the pieces found here. -/
def runMid (hA : ¬atFirst i) (hC : ¬atLast i) (x : Tiles F) (s : Sums F) :
    Σ' (P0 : List (View.Piece (Elt F) S200x256 .f32)), Σ' (P1 : List (View.Piece (Elt F) S200x256 .f32)),
      { P2 : List (View.Piece (Elt F) S1x256 .f32) //
      ∀ (y5 y6 : Vec F S1x200x256 .f32) (y7 : Vec F S1x1x256 .f32) (E : Set ℕ) (K : PUnit → sProp 𝕄),
        iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
            ∗ owns (c : Thread nD τ) oa fullShare y5 ∗ owns (c : Thread nD τ) oc fullShare y6 ∗ owns (c : Thread nD τ) oq fullShare y7
            ∗ owns (c : Thread nD τ) sa fullShare s.a ∗ owns (c : Thread nD τ) sc fullShare s.c ∗ owns (c : Thread nD τ) sq fullShare s.q
            ∗ (iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
                ∗ owns (c : Thread nD τ) oa fullShare y5 ∗ owns (c : Thread nD τ) oc fullShare y6 ∗ owns (c : Thread nD τ) oq fullShare y7
                ∗ (∃ f, sa.view.loc (c : Thread nD τ) ↦[sa.view.set]{fullShare} sa.view.writes (Elt F) f P0) ∗ (∃ f, sc.view.loc (c : Thread nD τ) ↦[sc.view.set]{fullShare} sc.view.writes (Elt F) f P1) ∗ (∃ f, sq.view.loc (c : Thread nD τ) ↦[sq.view.set]{fullShare} sq.view.writes (Elt F) f P2)) -∗ K ⟨⟩))
          ⊢ wp frame (wpE (defs₀ (F := F)) Variants.none c none) E (cc0__encode_kernel i mq hq mm hm ma ha mb hb mc hc oa hoa oc hoc oq hoq sa hsa sc hsc sq hsq) K } := by
  refine ⟨?_, ?_, ?_, fun y5 y6 y7 E K => ?run⟩
  case run =>
    simp only [cc0__encode_kernel_eq_skeleton]; unfold cc0__encode_kernel_skel
    simp only [k0_part1_eq_skeleton]; unfold k0_part1_skel
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%g0, %d0, S0⟩, ⟨%g1, %d1, S1⟩, ⟨%g2, %d2, S2⟩, Hk⟩
    obtain rfl := hq.eq_unread e0; obtain rfl := hm.eq_unread e1; obtain rfl := ha.eq_unread e2
    obtain rfl := hb.eq_unread e3; obtain rfl := hc.eq_unread e4
    obtain rfl := hoa.eq_unread e5; obtain rfl := hoc.eq_unread e6; obtain rfl := hoq.eq_unread e7
    obtain rfl := hsa.eq_unread d0; obtain rfl := hsc.eq_unread d1; obtain rfl := hsq.eq_unread d2
    sl_exec (disch := first | exact hA | exact hC)
    sl_step
    iapply Hk
    isplitl [H0]
    · iexists _; isplitr; · ipureintro; exact hq.read_unread _
      iexact H0
    isplitl [H1]
    · iexists _; isplitr; · ipureintro; exact hm.read_unread _
      iexact H1
    isplitl [H2]
    · iexists _; isplitr; · ipureintro; exact ha.read_unread _
      iexact H2
    isplitl [H3]
    · iexists _; isplitr; · ipureintro; exact hb.read_unread _
      iexact H3
    isplitl [H4]
    · iexists _; isplitr; · ipureintro; exact hc.read_unread _
      iexact H4
    isplitl [H5]
    · iexists _; isplitr; · ipureintro; exact hoa.read_unread _
      iexact H5
    isplitl [H6]
    · iexists _; isplitr; · ipureintro; exact hoc.read_unread _
      iexact H6
    isplitl [H7]
    · iexists _; isplitr; · ipureintro; exact hoq.read_unread _
      iexact H7
    isplitl [S0]; · iexists _; iexact S0
    isplitl [S1]; · iexists _; iexact S1
    iexists _; iexact S2

end Cert.Kernel.Enc

end
-- ==== Proof.K.EncA.lean ====
import proofs.«142703_j28621662061019_2_alg».proof.Proof.K.EncB

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords)
  (mq : Memref sig .tc .vmem S1x3200 .f32) (hq : mq.IsWhole)
  (mm : Memref sig .tc .vmem S200x3200 .f32) (hm : mm.IsWhole)
  (ma : Memref sig .tc .vmem S256x3200 .f32) (ha : ma.IsWhole)
  (mb : Memref sig .tc .vmem S256x3200 .f32) (hb : mb.IsWhole)
  (mc : Memref sig .tc .vmem S256x3200 .f32) (hc : mc.IsWhole)
  (oa : Memref sig .tc .vmem S1x200x256 .f32) (hoa : oa.IsWhole)
  (oc : Memref sig .tc .vmem S1x200x256 .f32) (hoc : oc.IsWhole)
  (oq : Memref sig .tc .vmem S1x1x256 .f32) (hoq : oq.IsWhole)
  (sa : Memref sig .tc .vmem S200x256 .f32) (hsa : sa.IsWhole)
  (sc : Memref sig .tc .vmem S200x256 .f32) (hsc : sc.IsWhole)
  (sq : Memref sig .tc .vmem S1x256 .f32) (hsq : sq.IsWhole)

set_option maxHeartbeats 4000000 in
/-- The first point of a half (the zeroing block runs, the copying block does not): on whole buffers, the inputs at
    the tiles `x`, the outputs at any contents `y·` (given back as found), the accumulators at anything, the body runs
    to the inputs and outputs as they were and each accumulator overwritten by the pieces found here (the zeros first,
    then the sum over them). -/
def runFirst (hA : atFirst i) (hC : ¬atLast i) (x : Tiles F) :
    Σ' (P0 : List (View.Piece (Elt F) S200x256 .f32)), Σ' (P1 : List (View.Piece (Elt F) S200x256 .f32)),
      { P2 : List (View.Piece (Elt F) S1x256 .f32) //
      ∀ (y5 y6 : Vec F S1x200x256 .f32) (y7 : Vec F S1x1x256 .f32) (E : Set ℕ) (K : PUnit → sProp 𝕄),
        iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
            ∗ owns (c : Thread nD τ) oa fullShare y5 ∗ owns (c : Thread nD τ) oc fullShare y6 ∗ owns (c : Thread nD τ) oq fullShare y7
            ∗ (∃ d, owns (c : Thread nD τ) sa fullShare d) ∗ (∃ d, owns (c : Thread nD τ) sc fullShare d) ∗ (∃ d, owns (c : Thread nD τ) sq fullShare d)
            ∗ (iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
                ∗ owns (c : Thread nD τ) oa fullShare y5 ∗ owns (c : Thread nD τ) oc fullShare y6 ∗ owns (c : Thread nD τ) oq fullShare y7
                ∗ (∃ f, sa.view.loc (c : Thread nD τ) ↦[sa.view.set]{fullShare} sa.view.writes (Elt F) f P0) ∗ (∃ f, sc.view.loc (c : Thread nD τ) ↦[sc.view.set]{fullShare} sc.view.writes (Elt F) f P1) ∗ (∃ f, sq.view.loc (c : Thread nD τ) ↦[sq.view.set]{fullShare} sq.view.writes (Elt F) f P2)) -∗ K ⟨⟩))
          ⊢ wp frame (wpE (defs₀ (F := F)) Variants.none c none) E (cc0__encode_kernel i mq hq mm hm ma ha mb hb mc hc oa hoa oc hoc oq hoq sa hsa sc hsc sq hsq) K } := by
  refine ⟨?_, ?_, ?_, fun y5 y6 y7 E K => ?run⟩
  case run =>
    simp only [cc0__encode_kernel_eq_skeleton]; unfold cc0__encode_kernel_skel
    simp only [k0_part1_eq_skeleton]; unfold k0_part1_skel
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%z0, %g0, -, S0⟩, ⟨%z1, %g1, -, S1⟩, ⟨%z2, %g2, -, S2⟩, Hk⟩
    obtain rfl := hq.eq_unread e0; obtain rfl := hm.eq_unread e1; obtain rfl := ha.eq_unread e2
    obtain rfl := hb.eq_unread e3; obtain rfl := hc.eq_unread e4
    obtain rfl := hoa.eq_unread e5; obtain rfl := hoc.eq_unread e6; obtain rfl := hoq.eq_unread e7
    sl_exec (disch := first | exact hA | exact hC)
    sl_step
    iapply Hk
    isplitl [H0]
    · iexists _; isplitr; · ipureintro; exact hq.read_unread _
      iexact H0
    isplitl [H1]
    · iexists _; isplitr; · ipureintro; exact hm.read_unread _
      iexact H1
    isplitl [H2]
    · iexists _; isplitr; · ipureintro; exact ha.read_unread _
      iexact H2
    isplitl [H3]
    · iexists _; isplitr; · ipureintro; exact hb.read_unread _
      iexact H3
    isplitl [H4]
    · iexists _; isplitr; · ipureintro; exact hc.read_unread _
      iexact H4
    isplitl [H5]
    · iexists _; isplitr; · ipureintro; exact hoa.read_unread _
      iexact H5
    isplitl [H6]
    · iexists _; isplitr; · ipureintro; exact hoc.read_unread _
      iexact H6
    isplitl [H7]
    · iexists _; isplitr; · ipureintro; exact hoq.read_unread _
      iexact H7
    isplitl [S0]; · iexists _; iexact S0
    isplitl [S1]; · iexists _; iexact S1
    iexists _; iexact S2

end Cert.Kernel.Enc

end
-- ==== Proof.K.EncC.lean ====
import proofs.«142703_j28621662061019_2_alg».proof.Proof.K.EncA

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords)
  (mq : Memref sig .tc .vmem S1x3200 .f32) (hq : mq.IsWhole)
  (mm : Memref sig .tc .vmem S200x3200 .f32) (hm : mm.IsWhole)
  (ma : Memref sig .tc .vmem S256x3200 .f32) (ha : ma.IsWhole)
  (mb : Memref sig .tc .vmem S256x3200 .f32) (hb : mb.IsWhole)
  (mc : Memref sig .tc .vmem S256x3200 .f32) (hc : mc.IsWhole)
  (oa : Memref sig .tc .vmem S1x200x256 .f32) (hoa : oa.IsWhole)
  (oc : Memref sig .tc .vmem S1x200x256 .f32) (hoc : oc.IsWhole)
  (oq : Memref sig .tc .vmem S1x1x256 .f32) (hoq : oq.IsWhole)
  (sa : Memref sig .tc .vmem S200x256 .f32) (hsa : sa.IsWhole)
  (sc : Memref sig .tc .vmem S200x256 .f32) (hsc : sc.IsWhole)
  (sq : Memref sig .tc .vmem S1x256 .f32) (hsq : sq.IsWhole)

set_option maxHeartbeats 4000000 in
/-- The last point of a half (the copying block runs, the zeroing block does not): on whole buffers, the inputs at the
    tiles `x`, the outputs at anything, the accumulators at `s`, the body runs to the inputs as they were, each
    accumulator overwritten by the pieces found here and each output block overwritten by its own pieces (the
    accumulator just written, recast to the block's shape). -/
def runLast (hA : ¬atFirst i) (hC : atLast i) (x : Tiles F) (s : Sums F) :
    Σ' (Q5 : List (View.Piece (Elt F) S1x200x256 .f32)), Σ' (Q6 : List (View.Piece (Elt F) S1x200x256 .f32)),
    Σ' (Q7 : List (View.Piece (Elt F) S1x1x256 .f32)),
    Σ' (P0 : List (View.Piece (Elt F) S200x256 .f32)), Σ' (P1 : List (View.Piece (Elt F) S200x256 .f32)),
      { P2 : List (View.Piece (Elt F) S1x256 .f32) //
      ∀ (E : Set ℕ) (K : PUnit → sProp 𝕄),
        iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
            ∗ (∃ d, owns (c : Thread nD τ) oa fullShare d) ∗ (∃ d, owns (c : Thread nD τ) oc fullShare d) ∗ (∃ d, owns (c : Thread nD τ) oq fullShare d)
            ∗ owns (c : Thread nD τ) sa fullShare s.a ∗ owns (c : Thread nD τ) sc fullShare s.c ∗ owns (c : Thread nD τ) sq fullShare s.q
            ∗ (iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
                ∗ (∃ f, oa.view.loc (c : Thread nD τ) ↦[oa.view.set]{fullShare} oa.view.writes (Elt F) f Q5) ∗ (∃ f, oc.view.loc (c : Thread nD τ) ↦[oc.view.set]{fullShare} oc.view.writes (Elt F) f Q6) ∗ (∃ f, oq.view.loc (c : Thread nD τ) ↦[oq.view.set]{fullShare} oq.view.writes (Elt F) f Q7)
                ∗ (∃ f, sa.view.loc (c : Thread nD τ) ↦[sa.view.set]{fullShare} sa.view.writes (Elt F) f P0) ∗ (∃ f, sc.view.loc (c : Thread nD τ) ↦[sc.view.set]{fullShare} sc.view.writes (Elt F) f P1) ∗ (∃ f, sq.view.loc (c : Thread nD τ) ↦[sq.view.set]{fullShare} sq.view.writes (Elt F) f P2)) -∗ K ⟨⟩))
          ⊢ wp frame (wpE (defs₀ (F := F)) Variants.none c none) E (cc0__encode_kernel i mq hq mm hm ma ha mb hb mc hc oa hoa oc hoc oq hoq sa hsa sc hsc sq hsq) K } := by
  refine ⟨?_, ?_, ?_, ?_, ?_, ?_, fun E K => ?run⟩
  case run =>
    simp only [cc0__encode_kernel_eq_skeleton]; unfold cc0__encode_kernel_skel
    simp only [k0_part1_eq_skeleton]; unfold k0_part1_skel
    unfold owns
    iintro ⟨⟨%f0, %e0, H0⟩, ⟨%f1, %e1, H1⟩, ⟨%f2, %e2, H2⟩, ⟨%f3, %e3, H3⟩, ⟨%f4, %e4, H4⟩, ⟨%z5, %f5, -, H5⟩, ⟨%z6, %f6, -, H6⟩, ⟨%z7, %f7, -, H7⟩, ⟨%g0, %d0, S0⟩, ⟨%g1, %d1, S1⟩, ⟨%g2, %d2, S2⟩, Hk⟩
    obtain rfl := hq.eq_unread e0; obtain rfl := hm.eq_unread e1; obtain rfl := ha.eq_unread e2
    obtain rfl := hb.eq_unread e3; obtain rfl := hc.eq_unread e4
    obtain rfl := hsa.eq_unread d0; obtain rfl := hsc.eq_unread d1; obtain rfl := hsq.eq_unread d2
    sl_exec (disch := first | exact hA | exact hC)
    sl_step
    iapply Hk
    isplitl [H0]
    · iexists _; isplitr; · ipureintro; exact hq.read_unread _
      iexact H0
    isplitl [H1]
    · iexists _; isplitr; · ipureintro; exact hm.read_unread _
      iexact H1
    isplitl [H2]
    · iexists _; isplitr; · ipureintro; exact ha.read_unread _
      iexact H2
    isplitl [H3]
    · iexists _; isplitr; · ipureintro; exact hb.read_unread _
      iexact H3
    isplitl [H4]
    · iexists _; isplitr; · ipureintro; exact hc.read_unread _
      iexact H4
    isplitl [H5]; · iexists _; iexact H5
    isplitl [H6]; · iexists _; iexact H6
    isplitl [H7]; · iexists _; iexact H7
    isplitl [S0]; · iexists _; iexact S0
    isplitl [S1]; · iexists _; iexact S1
    iexists _; iexact S2

end Cert.Kernel.Enc

end
-- ==== Proof.K.Enc.lean ====
import proofs.«142703_j28621662061019_2_alg».proof.Proof.K.EncC

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## A point's operands -/

/-- The five column tiles of point `t`. -/
def tilesAt (c : Dev nD) (t : Fin cfg0.N) : Tiles F :=
  ⟨iblk0 V c 0 t, iblk0 V c 1 t, iblk0 V c 2 t, iblk0 V c 3 t, iblk0 V c 4 t⟩

/-- Each window's current staging memref at point `t`, and its wholeness. -/
abbrev st_q (t : Fin cfg0.N) : Memref sig .tc .vmem S1x3200 .f32 := win0_0.stage (cfg0.slots t 0)
abbrev wh_q (t : Fin cfg0.N) : (st_q t).IsWhole := hstage0_0 ((cfg0.slots t 0).cast nbuf0_0)
abbrev st_m (t : Fin cfg0.N) : Memref sig .tc .vmem S200x3200 .f32 := win0_1.stage (cfg0.slots t 1)
abbrev wh_m (t : Fin cfg0.N) : (st_m t).IsWhole := hstage0_1 ((cfg0.slots t 1).cast nbuf0_1)
abbrev st_a (t : Fin cfg0.N) : Memref sig .tc .vmem S256x3200 .f32 := win0_2.stage (cfg0.slots t 2)
abbrev wh_a (t : Fin cfg0.N) : (st_a t).IsWhole := hstage0_2 ((cfg0.slots t 2).cast nbuf0_2)
abbrev st_b (t : Fin cfg0.N) : Memref sig .tc .vmem S256x3200 .f32 := win0_3.stage (cfg0.slots t 3)
abbrev wh_b (t : Fin cfg0.N) : (st_b t).IsWhole := hstage0_3 ((cfg0.slots t 3).cast nbuf0_3)
abbrev st_c (t : Fin cfg0.N) : Memref sig .tc .vmem S256x3200 .f32 := win0_4.stage (cfg0.slots t 4)
abbrev wh_c (t : Fin cfg0.N) : (st_c t).IsWhole := hstage0_4 ((cfg0.slots t 4).cast nbuf0_4)
abbrev st_oa (t : Fin cfg0.N) : Memref sig .tc .vmem S1x200x256 .f32 := win0_5.stage (cfg0.slots t 5)
abbrev wh_oa (t : Fin cfg0.N) : (st_oa t).IsWhole := hstage0_5 ((cfg0.slots t 5).cast nbuf0_5)
abbrev st_oc (t : Fin cfg0.N) : Memref sig .tc .vmem S1x200x256 .f32 := win0_6.stage (cfg0.slots t 6)
abbrev wh_oc (t : Fin cfg0.N) : (st_oc t).IsWhole := hstage0_6 ((cfg0.slots t 6).cast nbuf0_6)
abbrev st_oq (t : Fin cfg0.N) : Memref sig .tc .vmem S1x1x256 .f32 := win0_7.stage (cfg0.slots t 7)
abbrev wh_oq (t : Fin cfg0.N) : (st_oq t).IsWhole := hstage0_7 ((cfg0.slots t 7).cast nbuf0_7)

theorem first_not_last (t : Fin cfg0.N) (h0 : t.val % 20 = 0) : ¬atLast (grid0.coords t) :=
  fun h => by have := (atLast_iff t).mp h; omega
theorem last_not_first (t : Fin cfg0.N) (h1 : t.val % 20 = 19) : ¬atFirst (grid0.coords t) :=
  fun h => by have := (atFirst_iff t).mp h; omega

/-- The three runs at the operands of point `t`. -/
abbrev firstAt (c : Dev nD) (t : Fin cfg0.N) (h0 : t.val % 20 = 0) :=
  runFirst (F := F) c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) ((atFirst_iff t).mpr h0) (first_not_last t h0) (tilesAt V c t)
abbrev midAt (c : Dev nD) (t : Fin cfg0.N) (h0 : ¬t.val % 20 = 0) (h1 : ¬t.val % 20 = 19) (s : Sums F) :=
  runMid (F := F) c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (fun h => h0 ((atFirst_iff t).mp h)) (fun h => h1 ((atLast_iff t).mp h)) (tilesAt V c t) s
abbrev lastAt (c : Dev nD) (t : Fin cfg0.N) (h1 : t.val % 20 = 19) (s : Sums F) :=
  runLast (F := F) c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (last_not_first t h1) ((atLast_iff t).mpr h1) (tilesAt V c t) s

/-! ## Each run's pieces tile the buffer they go to -/

theorem first_cov_a (c : Dev nD) (t : Fin cfg0.N) (h0 : t.val % 20 = 0) (y : S200x256.Idx) : ∃ p ∈ (firstAt V c t h0).1, y ∈ p.1.set :=
  View.cover_of_tiledL (firstAt V c t h0).1 S200x256.size (by unfold firstAt; sl_kernel_rfl) y
theorem first_cov_c (c : Dev nD) (t : Fin cfg0.N) (h0 : t.val % 20 = 0) (y : S200x256.Idx) : ∃ p ∈ (firstAt V c t h0).2.1, y ∈ p.1.set :=
  View.cover_of_tiledL (firstAt V c t h0).2.1 S200x256.size (by unfold firstAt; sl_kernel_rfl) y
theorem first_cov_q (c : Dev nD) (t : Fin cfg0.N) (h0 : t.val % 20 = 0) (y : S1x256.Idx) : ∃ p ∈ (firstAt V c t h0).2.2.1, y ∈ p.1.set :=
  View.cover_of_tiledL (firstAt V c t h0).2.2.1 S1x256.size (by unfold firstAt; sl_kernel_rfl) y

theorem mid_cov_a (c : Dev nD) (t : Fin cfg0.N) (h0 : ¬t.val % 20 = 0) (h1 : ¬t.val % 20 = 19) (s : Sums F) (y : S200x256.Idx) : ∃ p ∈ (midAt V c t h0 h1 s).1, y ∈ p.1.set :=
  View.cover_of_tiledL (midAt V c t h0 h1 s).1 S200x256.size (by unfold midAt; sl_kernel_rfl) y
theorem mid_cov_c (c : Dev nD) (t : Fin cfg0.N) (h0 : ¬t.val % 20 = 0) (h1 : ¬t.val % 20 = 19) (s : Sums F) (y : S200x256.Idx) : ∃ p ∈ (midAt V c t h0 h1 s).2.1, y ∈ p.1.set :=
  View.cover_of_tiledL (midAt V c t h0 h1 s).2.1 S200x256.size (by unfold midAt; sl_kernel_rfl) y
theorem mid_cov_q (c : Dev nD) (t : Fin cfg0.N) (h0 : ¬t.val % 20 = 0) (h1 : ¬t.val % 20 = 19) (s : Sums F) (y : S1x256.Idx) : ∃ p ∈ (midAt V c t h0 h1 s).2.2.1, y ∈ p.1.set :=
  View.cover_of_tiledL (midAt V c t h0 h1 s).2.2.1 S1x256.size (by unfold midAt; sl_kernel_rfl) y

theorem last_cov_oa (c : Dev nD) (t : Fin cfg0.N) (h1 : t.val % 20 = 19) (s : Sums F) (y : S1x200x256.Idx) : ∃ p ∈ (lastAt V c t h1 s).1, y ∈ p.1.set :=
  View.cover_of_tiledL (lastAt V c t h1 s).1 S1x200x256.size (by unfold lastAt; sl_kernel_rfl) y
theorem last_cov_oc (c : Dev nD) (t : Fin cfg0.N) (h1 : t.val % 20 = 19) (s : Sums F) (y : S1x200x256.Idx) : ∃ p ∈ (lastAt V c t h1 s).2.1, y ∈ p.1.set :=
  View.cover_of_tiledL (lastAt V c t h1 s).2.1 S1x200x256.size (by unfold lastAt; sl_kernel_rfl) y
theorem last_cov_oq (c : Dev nD) (t : Fin cfg0.N) (h1 : t.val % 20 = 19) (s : Sums F) (y : S1x1x256.Idx) : ∃ p ∈ (lastAt V c t h1 s).2.2.1, y ∈ p.1.set :=
  View.cover_of_tiledL (lastAt V c t h1 s).2.2.1 S1x1x256.size (by unfold lastAt; sl_kernel_rfl) y
theorem last_cov_a (c : Dev nD) (t : Fin cfg0.N) (h1 : t.val % 20 = 19) (s : Sums F) (y : S200x256.Idx) : ∃ p ∈ (lastAt V c t h1 s).2.2.2.1, y ∈ p.1.set :=
  View.cover_of_tiledL (lastAt V c t h1 s).2.2.2.1 S200x256.size (by unfold lastAt; sl_kernel_rfl) y
theorem last_cov_c (c : Dev nD) (t : Fin cfg0.N) (h1 : t.val % 20 = 19) (s : Sums F) (y : S200x256.Idx) : ∃ p ∈ (lastAt V c t h1 s).2.2.2.2.1, y ∈ p.1.set :=
  View.cover_of_tiledL (lastAt V c t h1 s).2.2.2.2.1 S200x256.size (by unfold lastAt; sl_kernel_rfl) y
theorem last_cov_q (c : Dev nD) (t : Fin cfg0.N) (h1 : t.val % 20 = 19) (s : Sums F) (y : S1x256.Idx) : ∃ p ∈ (lastAt V c t h1 s).2.2.2.2.2.1, y ∈ p.1.set :=
  View.cover_of_tiledL (lastAt V c t h1 s).2.2.2.2.2.1 S1x256.size (by unfold lastAt; sl_kernel_rfl) y

/-! ## What the accumulators hold after each point, and what a half's last point leaves in the output blocks -/

/-- The accumulators after each kind of point: the canonical reading of that run's pieces. -/
def firstSums (c : Dev nD) (t : Fin cfg0.N) (h0 : t.val % 20 = 0) : Sums F :=
  ⟨View.canon (firstAt V c t h0).1, View.canon (firstAt V c t h0).2.1, View.canon (firstAt V c t h0).2.2.1⟩
def midSums (c : Dev nD) (t : Fin cfg0.N) (h0 : ¬t.val % 20 = 0) (h1 : ¬t.val % 20 = 19) (s : Sums F) : Sums F :=
  ⟨View.canon (midAt V c t h0 h1 s).1, View.canon (midAt V c t h0 h1 s).2.1, View.canon (midAt V c t h0 h1 s).2.2.1⟩
def lastSums (c : Dev nD) (t : Fin cfg0.N) (h1 : t.val % 20 = 19) (s : Sums F) : Sums F :=
  ⟨View.canon (lastAt V c t h1 s).2.2.2.1, View.canon (lastAt V c t h1 s).2.2.2.2.1, View.canon (lastAt V c t h1 s).2.2.2.2.2.1⟩

/-- THE ACCUMULATION: the accumulators after the body at position `n`, by recursion on the position — restarted at a
    half's first point, otherwise over what the point before left. -/
def sumsAt (c : Dev nD) : (n : ℕ) → n < cfg0.N → Sums F
  | 0, hn => firstSums V c ⟨0, hn⟩ (Nat.zero_mod _)
  | n + 1, hn =>
    if h0 : (n + 1) % 20 = 0 then firstSums V c ⟨n + 1, hn⟩ h0
    else if h1 : (n + 1) % 20 = 19 then lastSums V c ⟨n + 1, hn⟩ h1 (sumsAt c n (Nat.lt_of_succ_lt hn))
    else midSums V c ⟨n + 1, hn⟩ h0 h1 (sumsAt c n (Nat.lt_of_succ_lt hn))

/-- The position before `t` is a position. -/
theorem pred_lt (t : Fin cfg0.N) : t.val - 1 < cfg0.N := Nat.lt_of_le_of_lt (Nat.sub_le _ _) t.isLt

theorem sumsAt_first (c : Dev nD) (t : Fin cfg0.N) (h0 : t.val % 20 = 0) :
    sumsAt V c t.val t.isLt = firstSums V c t h0 := by
  obtain ⟨n, hn⟩ := t
  cases n with
  | zero => exact rfl
  | succ n => exact (dif_pos h0).trans rfl

theorem sumsAt_mid (c : Dev nD) (t : Fin cfg0.N) (h0 : ¬t.val % 20 = 0) (h1 : ¬t.val % 20 = 19) :
    sumsAt V c t.val t.isLt = midSums V c t h0 h1 (sumsAt V c (t.val - 1) (pred_lt t)) := by
  obtain ⟨n, hn⟩ := t
  cases n with
  | zero => exact absurd (Nat.zero_mod _) h0
  | succ n => exact (dif_neg h0).trans ((dif_neg h1).trans rfl)

theorem sumsAt_last (c : Dev nD) (t : Fin cfg0.N) (h1 : t.val % 20 = 19) :
    sumsAt V c t.val t.isLt = lastSums V c t h1 (sumsAt V c (t.val - 1) (pred_lt t)) := by
  obtain ⟨n, hn⟩ := t
  cases n with
  | zero => exact absurd (show 0 % 20 = 19 from h1) (by decide)
  | succ n => exact (dif_neg (fun h : (n + 1) % 20 = 0 => by have h1' : (n + 1) % 20 = 19 := h1; omega)).trans ((dif_pos h1).trans rfl)

/-- The three output blocks. -/
structure Blocks (F : FTy → Type) where
  a : Vec F S1x200x256 .f32
  c : Vec F S1x200x256 .f32
  q : Vec F S1x1x256 .f32

/-- What the body leaves in the output windows' buffers at point `t`: at a half's last point the copies of the
    accumulators; elsewhere nothing is stored and nothing is written back, and the value is never consulted. -/
def outsAt (c : Dev nD) (t : Fin cfg0.N) : Blocks F :=
  if h1 : t.val % 20 = 19 then
    ⟨View.canon (lastAt V c t h1 (sumsAt V c (t.val - 1) (pred_lt t))).1,
     View.canon (lastAt V c t h1 (sumsAt V c (t.val - 1) (pred_lt t))).2.1,
     View.canon (lastAt V c t h1 (sumsAt V c (t.val - 1) (pred_lt t))).2.2.1⟩
  else ⟨View.canon [], View.canon [], View.canon []⟩

theorem outsAt_last (c : Dev nD) (t : Fin cfg0.N) (h1 : t.val % 20 = 19) :
    outsAt V c t = ⟨View.canon (lastAt V c t h1 (sumsAt V c (t.val - 1) (pred_lt t))).1,
     View.canon (lastAt V c t h1 (sumsAt V c (t.val - 1) (pred_lt t))).2.1,
     View.canon (lastAt V c t h1 (sumsAt V c (t.val - 1) (pred_lt t))).2.2.1⟩ := dif_pos h1

/-! ## The invariant and the proof data -/

/-- Before position `n`: at the region's entry the entry invariant; afterwards the accumulators at what the point
    before left, the riders, and the generator register at some state. -/
def invAt (c : Dev nD) : (n : ℕ) → n ≤ cfg0.N → sProp 𝕄
  | 0, _ => Pipeline.ΦA spec0 c
  | n + 1, hn => iprop(iprop(owns (c : Thread nD τ) accA fullShare (sumsAt V c n hn).a ∗ owns (c : Thread nD τ) accC fullShare (sumsAt V c n hn).c
      ∗ owns (c : Thread nD τ) accQ fullShare (sumsAt V c n hn).q ∗ riders (F := F) c) ∗ (∃ r, prngReg c r))

theorem invAt_zero (c : Dev nD) (n : ℕ) (h : n ≤ cfg0.N) (hz : n = 0) : invAt V c n h = Pipeline.ΦA spec0 c := by
  subst hz; rfl

theorem invAt_succ (c : Dev nD) (n : ℕ) (hn : n < cfg0.N) :
    invAt V c (n + 1) hn = iprop(iprop(owns (c : Thread nD τ) accA fullShare (sumsAt V c n hn).a ∗ owns (c : Thread nD τ) accC fullShare (sumsAt V c n hn).c
      ∗ owns (c : Thread nD τ) accQ fullShare (sumsAt V c n hn).q ∗ riders (F := F) c) ∗ (∃ r, prngReg c r)) := rfl

theorem invAt_pos (c : Dev nD) (n : ℕ) (h : n ≤ cfg0.N) (hz : n ≠ 0) :
    invAt V c n h = iprop(iprop(owns (c : Thread nD τ) accA fullShare (sumsAt V c (n - 1) (by omega)).a ∗ owns (c : Thread nD τ) accC fullShare (sumsAt V c (n - 1) (by omega)).c
      ∗ owns (c : Thread nD τ) accQ fullShare (sumsAt V c (n - 1) (by omega)).q ∗ riders (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt V c t).a
    | ⟨6, _⟩ => (outsAt V c t).c
    | ⟨7, _⟩ => (outsAt V c t).q
  Φ t := invAt V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi_castSucc (c : Dev nD) (t : Fin cfg0.N) :
    (dat0 V c).Φ t.castSucc = invAt V c t.val (Nat.le_of_lt t.isLt) := by
  dsimp only [dat0]; simp only [Fin.coe_castSucc]
theorem after_q (c : Dev nD) (t : Fin cfg0.N) : (dat0 V c).after 0 t = iblk0 V c 0 t := by dsimp only [dat0]
theorem after_m (c : Dev nD) (t : Fin cfg0.N) : (dat0 V c).after 1 t = iblk0 V c 1 t := by dsimp only [dat0]
theorem after_a (c : Dev nD) (t : Fin cfg0.N) : (dat0 V c).after 2 t = iblk0 V c 2 t := by dsimp only [dat0]
theorem after_b (c : Dev nD) (t : Fin cfg0.N) : (dat0 V c).after 3 t = iblk0 V c 3 t := by dsimp only [dat0]
theorem after_c (c : Dev nD) (t : Fin cfg0.N) : (dat0 V c).after 4 t = iblk0 V c 4 t := by dsimp only [dat0]
theorem after_oa (c : Dev nD) (t : Fin cfg0.N) : (dat0 V c).after 5 t = (outsAt V c t).a := by dsimp only [dat0]
theorem after_oc (c : Dev nD) (t : Fin cfg0.N) : (dat0 V c).after 6 t = (outsAt V c t).c := by dsimp only [dat0]
theorem after_oq (c : Dev nD) (t : Fin cfg0.N) : (dat0 V c).after 7 t = (outsAt V c t).q := by dsimp only [dat0]

/-! ## An input's buffer holds its tile at every point, and is left so -/

theorem before_q (c : Dev nD) (t : Fin cfg0.N) (d) : (dat0 V c).before 0 t d = iblk0 V c 0 t :=
  ((dat0 V c).before_in_eq_fetched 0 rfl (fun _ => rfl) (fun _ _ _ => rfl)
    (fun t => by rw [after_q]; unfold Dat.blockOf iblk0; rw [A_eq0]; try rfl) t d).trans
    (by unfold Dat.fetched Dat.blockOf iblk0; rw [A_eq0]; try rfl)
theorem leaves_q (c : Dev nD) (t : Fin cfg0.N) :
    (dat0 V c).leavesExact 0 t = owns (c : Thread nD τ) (st_q t) fullShare (iblk0 V c 0 t) := by
  rw [show (dat0 V c).leavesExact 0 t = owns (c : Thread nD τ) (st_q t) fullShare ((dat0 V c).after 0 t) from by
    unfold Dat.leavesExact; rw [in_live 0 (by decide) (grid0.coords t)], after_q]

theorem before_m (c : Dev nD) (t : Fin cfg0.N) (d) : (dat0 V c).before 1 t d = iblk0 V c 1 t :=
  ((dat0 V c).before_in_eq_fetched 1 rfl (fun _ => rfl) (fun _ _ _ => rfl)
    (fun t => by rw [after_m]; unfold Dat.blockOf iblk0; rw [A_eq0]; try rfl) t d).trans
    (by unfold Dat.fetched Dat.blockOf iblk0; rw [A_eq0]; try rfl)
theorem leaves_m (c : Dev nD) (t : Fin cfg0.N) :
    (dat0 V c).leavesExact 1 t = owns (c : Thread nD τ) (st_m t) fullShare (iblk0 V c 1 t) := by
  rw [show (dat0 V c).leavesExact 1 t = owns (c : Thread nD τ) (st_m t) fullShare ((dat0 V c).after 1 t) from by
    unfold Dat.leavesExact; rw [in_live 1 (by decide) (grid0.coords t)], after_m]

theorem before_a (c : Dev nD) (t : Fin cfg0.N) (d) : (dat0 V c).before 2 t d = iblk0 V c 2 t :=
  ((dat0 V c).before_in_eq_fetched 2 rfl (fun _ => rfl) (fun _ _ _ => rfl)
    (fun t => by rw [after_a]; unfold Dat.blockOf iblk0; rw [A_eq0]; try rfl) t d).trans
    (by unfold Dat.fetched Dat.blockOf iblk0; rw [A_eq0]; try rfl)
theorem leaves_a (c : Dev nD) (t : Fin cfg0.N) :
    (dat0 V c).leavesExact 2 t = owns (c : Thread nD τ) (st_a t) fullShare (iblk0 V c 2 t) := by
  rw [show (dat0 V c).leavesExact 2 t = owns (c : Thread nD τ) (st_a t) fullShare ((dat0 V c).after 2 t) from by
    unfold Dat.leavesExact; rw [in_live 2 (by decide) (grid0.coords t)], after_a]

theorem before_b (c : Dev nD) (t : Fin cfg0.N) (d) : (dat0 V c).before 3 t d = iblk0 V c 3 t :=
  ((dat0 V c).before_in_eq_fetched 3 rfl (fun _ => rfl) (fun _ _ _ => rfl)
    (fun t => by rw [after_b]; unfold Dat.blockOf iblk0; rw [A_eq0]; try rfl) t d).trans
    (by unfold Dat.fetched Dat.blockOf iblk0; rw [A_eq0]; try rfl)
theorem leaves_b (c : Dev nD) (t : Fin cfg0.N) :
    (dat0 V c).leavesExact 3 t = owns (c : Thread nD τ) (st_b t) fullShare (iblk0 V c 3 t) := by
  rw [show (dat0 V c).leavesExact 3 t = owns (c : Thread nD τ) (st_b t) fullShare ((dat0 V c).after 3 t) from by
    unfold Dat.leavesExact; rw [in_live 3 (by decide) (grid0.coords t)], after_b]

theorem before_c (c : Dev nD) (t : Fin cfg0.N) (d) : (dat0 V c).before 4 t d = iblk0 V c 4 t :=
  ((dat0 V c).before_in_eq_fetched 4 rfl (fun _ => rfl) (fun _ _ _ => rfl)
    (fun t => by rw [after_c]; unfold Dat.blockOf iblk0; rw [A_eq0]; try rfl) t d).trans
    (by unfold Dat.fetched Dat.blockOf iblk0; rw [A_eq0]; try rfl)
theorem leaves_c (c : Dev nD) (t : Fin cfg0.N) :
    (dat0 V c).leavesExact 4 t = owns (c : Thread nD τ) (st_c t) fullShare (iblk0 V c 4 t) := by
  rw [show (dat0 V c).leavesExact 4 t = owns (c : Thread nD τ) (st_c t) fullShare ((dat0 V c).after 4 t) from by
    unfold Dat.leavesExact; rw [in_live 4 (by decide) (grid0.coords t)], after_c]

/-! ## The body obligation -/

/-- What the body is called with at point `t`: the invariant, the core's debts, each window's current buffer. -/
def bodyPre (c : Dev nD) (t : Fin cfg0.N) : sProp 𝕄 :=
  iprop((dat0 V c).Φ t.castSucc ∗ (dat0 V c).owesAt () t.castSucc
    ∗ (∃ d, owns (c : Thread nD τ) (st_q t) fullShare ((dat0 V c).before 0 t d))
    ∗ (∃ d, owns (c : Thread nD τ) (st_m t) fullShare ((dat0 V c).before 1 t d))
    ∗ (∃ d, owns (c : Thread nD τ) (st_a t) fullShare ((dat0 V c).before 2 t d))
    ∗ (∃ d, owns (c : Thread nD τ) (st_b t) fullShare ((dat0 V c).before 3 t d))
    ∗ (∃ d, owns (c : Thread nD τ) (st_c t) fullShare ((dat0 V c).before 4 t d))
    ∗ (∃ d, owns (c : Thread nD τ) (st_oa t) fullShare ((dat0 V c).before 5 t d))
    ∗ (∃ d, owns (c : Thread nD τ) (st_oc t) fullShare ((dat0 V c).before 6 t d))
    ∗ (∃ d, owns (c : Thread nD τ) (st_oq t) fullShare ((dat0 V c).before 7 t d)))

/-- What it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- A half's first point: the accumulators arrive at anything (the entry invariant at the very first point, the other
    half's totals at point 20) and leave at this point's sums; the outputs go back as found. -/
theorem step_first (c : Dev nD) (t : Fin cfg0.N) (h0 : t.val % 20 = 0) :
    bodyPre V c t ⊢ wp frame (wpE (defs₀ (F := F)) Variants.none c none) Set.univ (bodyAt0 t) (fun _ => bodyPost V c t) := by
  have h1 : ¬t.val % 20 = 19 := by omega
  unfold bodyPre bodyPost bodyAt0
  simp only [before_q, before_m, before_a, before_b, before_c]
  rw [show (dat0 V c).owesAt () t.succ = (dat0 V c).owesAt () t.castSucc from rfl]
  rw [show (dat0 V c).Φ t.succ = invAt V c (t.val + 1) t.isLt from rfl, invAt_succ]
  rw [leaves_q, leaves_m, leaves_a, leaves_b, leaves_c]
  rw [Dat.leavesExact_idle (dat0 V c) 5 t (out_idle _ (first_not_last t h0)).1 (out_kept t h1).1,
    Dat.leavesExact_idle (dat0 V c) 6 t (out_idle _ (first_not_last t h0)).2.1 (out_kept t h1).2.1,
    Dat.leavesExact_idle (dat0 V c) 7 t (out_idle _ (first_not_last t h0)).2.2 (out_kept t h1).2.2]
  rw [sumsAt_first V c t h0]
  unfold firstSums; (try dsimp only)
  by_cases hz : t.val = 0
  · rw [Phi_castSucc V c t, invAt_zero V c _ _ hz, entry_open]
    iintro ⟨⟨⟨Sa, Sc, Sq, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t h0).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Sa]; · iexact Sa
    isplitl [Sc]; · iexact Sc
    isplitl [Sq]; · iexact Sq
    iintro ⟨H0, H1, H2, H3, H4, H5, H6, H7, ⟨%e0, Sa⟩, ⟨%e1, Sc⟩, ⟨%e2, Sq⟩⟩
    isplitl [Sa Sc Sq Hr Hg]
    · isplitr [Hg]
      · isplitl [Sa]
        · unfold owns; iexists _; isplitr
          swap; · iexact Sa
          ipureintro; exact View.read_writes_eq_canon _ _ _ (first_cov_a V c t h0)
        isplitl [Sc]
        · unfold owns; iexists _; isplitr
          swap; · iexact Sc
          ipureintro; exact View.read_writes_eq_canon _ _ _ (first_cov_c V c t h0)
        isplitl [Sq]
        · unfold owns; iexists _; isplitr
          swap; · iexact Sq
          ipureintro; exact View.read_writes_eq_canon _ _ _ (first_cov_q V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  · rw [Phi_castSucc V c t, invAt_pos V c _ _ hz]
    iintro ⟨⟨⟨Sa, Sc, Sq, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t h0).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Sa]; · iexists _; iexact Sa
    isplitl [Sc]; · iexists _; iexact Sc
    isplitl [Sq]; · iexists _; iexact Sq
    iintro ⟨H0, H1, H2, H3, H4, H5, H6, H7, ⟨%e0, Sa⟩, ⟨%e1, Sc⟩, ⟨%e2, Sq⟩⟩
    isplitl [Sa Sc Sq Hr Hg]
    · isplitr [Hg]
      · isplitl [Sa]
        · unfold owns; iexists _; isplitr
          swap; · iexact Sa
          ipureintro; exact View.read_writes_eq_canon _ _ _ (first_cov_a V c t h0)
        isplitl [Sc]
        · unfold owns; iexists _; isplitr
          swap; · iexact Sc
          ipureintro; exact View.read_writes_eq_canon _ _ _ (first_cov_c V c t h0)
        isplitl [Sq]
        · unfold owns; iexists _; isplitr
          swap; · iexact Sq
          ipureintro; exact View.read_writes_eq_canon _ _ _ (first_cov_q V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

set_option maxHeartbeats 4000000 in
/-- A point strictly inside a half: the accumulators arrive at what the point before left and leave at this point's
    sums; the outputs go back as found. -/
theorem step_mid (c : Dev nD) (t : Fin cfg0.N) (h0 : ¬t.val % 20 = 0) (h1 : ¬t.val % 20 = 19) :
    bodyPre V c t ⊢ wp frame (wpE (defs₀ (F := F)) Variants.none c none) Set.univ (bodyAt0 t) (fun _ => bodyPost V c t) := by
  have hz : t.val ≠ 0 := fun e => h0 (by rw [e])
  unfold bodyPre bodyPost bodyAt0
  simp only [before_q, before_m, before_a, before_b, before_c]
  rw [show (dat0 V c).owesAt () t.succ = (dat0 V c).owesAt () t.castSucc from rfl]
  rw [show (dat0 V c).Φ t.succ = invAt V c (t.val + 1) t.isLt from rfl, invAt_succ]
  rw [leaves_q, leaves_m, leaves_a, leaves_b, leaves_c]
  rw [Dat.leavesExact_idle (dat0 V c) 5 t (out_idle _ (fun h => h1 ((atLast_iff t).mp h))).1 (out_kept t h1).1,
    Dat.leavesExact_idle (dat0 V c) 6 t (out_idle _ (fun h => h1 ((atLast_iff t).mp h))).2.1 (out_kept t h1).2.1,
    Dat.leavesExact_idle (dat0 V c) 7 t (out_idle _ (fun h => h1 ((atLast_iff t).mp h))).2.2 (out_kept t h1).2.2]
  rw [sumsAt_mid V c t h0 h1]
  unfold midSums; (try dsimp only)
  rw [Phi_castSucc V c t, invAt_pos V c _ _ hz]
  iintro ⟨⟨⟨Sa, Sc, Sq, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((midAt V c t h0 h1 _).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Sa]; · iexact Sa
  isplitl [Sc]; · iexact Sc
  isplitl [Sq]; · iexact Sq
  iintro ⟨H0, H1, H2, H3, H4, H5, H6, H7, ⟨%e0, Sa⟩, ⟨%e1, Sc⟩, ⟨%e2, Sq⟩⟩
  isplitl [Sa Sc Sq Hr Hg]
  · isplitr [Hg]
    · isplitl [Sa]
      · unfold owns; iexists _; isplitr
        swap; · iexact Sa
        ipureintro; exact View.read_writes_eq_canon _ _ _ (mid_cov_a V c t h0 h1 _)
      isplitl [Sc]
      · unfold owns; iexists _; isplitr
        swap; · iexact Sc
        ipureintro; exact View.read_writes_eq_canon _ _ _ (mid_cov_c V c t h0 h1 _)
      isplitl [Sq]
      · unfold owns; iexists _; isplitr
        swap; · iexact Sq
        ipureintro; exact View.read_writes_eq_canon _ _ _ (mid_cov_q V c t h0 h1 _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 4000000 in
/-- A half's last point: as inside, and the three output blocks leave at the copies of the accumulators. -/
theorem step_last (c : Dev nD) (t : Fin cfg0.N) (h1 : t.val % 20 = 19) :
    bodyPre V c t ⊢ wp frame (wpE (defs₀ (F := F)) Variants.none c none) Set.univ (bodyAt0 t) (fun _ => bodyPost V c t) := by
  have hz : t.val ≠ 0 := fun e => by rw [e] at h1; exact absurd h1 (by decide)
  unfold bodyPre bodyPost bodyAt0
  simp only [before_q, before_m, before_a, before_b, before_c]
  rw [show (dat0 V c).owesAt () t.succ = (dat0 V c).owesAt () t.castSucc from rfl]
  rw [show (dat0 V c).Φ t.succ = invAt V c (t.val + 1) t.isLt from rfl, invAt_succ]
  rw [leaves_q, leaves_m, leaves_a, leaves_b, leaves_c]
  rw [show (dat0 V c).leavesExact 5 t = owns (c : Thread nD τ) (st_oa t) fullShare ((dat0 V c).after 5 t) from by
    unfold Dat.leavesExact; rw [(out_live _ ((atLast_iff t).mpr h1)).1], after_oa]
  rw [show (dat0 V c).leavesExact 6 t = owns (c : Thread nD τ) (st_oc t) fullShare ((dat0 V c).after 6 t) from by
    unfold Dat.leavesExact; rw [(out_live _ ((atLast_iff t).mpr h1)).2.1], after_oc]
  rw [show (dat0 V c).leavesExact 7 t = owns (c : Thread nD τ) (st_oq t) fullShare ((dat0 V c).after 7 t) from by
    unfold Dat.leavesExact; rw [(out_live _ ((atLast_iff t).mpr h1)).2.2], after_oq]
  rw [outsAt_last V c t h1, sumsAt_last V c t h1]
  unfold lastSums; (try dsimp only)
  rw [Phi_castSucc V c t, invAt_pos V c _ _ hz]
  iintro ⟨⟨⟨Sa, Sc, Sq, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((lastAt V c t h1 _).2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [Sa]; · iexact Sa
  isplitl [Sc]; · iexact Sc
  isplitl [Sq]; · iexact Sq
  iintro ⟨H0, H1, H2, H3, H4, ⟨%e5, H5⟩, ⟨%e6, H6⟩, ⟨%e7, H7⟩, ⟨%e0, Sa⟩, ⟨%e1, Sc⟩, ⟨%e2, Sq⟩⟩
  isplitl [Sa Sc Sq Hr Hg]
  · isplitr [Hg]
    · isplitl [Sa]
      · unfold owns; iexists _; isplitr
        swap; · iexact Sa
        ipureintro; exact View.read_writes_eq_canon _ _ _ (last_cov_a V c t h1 _)
      isplitl [Sc]
      · unfold owns; iexists _; isplitr
        swap; · iexact Sc
        ipureintro; exact View.read_writes_eq_canon _ _ _ (last_cov_c V c t h1 _)
      isplitl [Sq]
      · unfold owns; iexists _; isplitr
        swap; · iexact Sq
        ipureintro; exact View.read_writes_eq_canon _ _ _ (last_cov_q V c t h1 _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (last_cov_oa V c t h1 _)
  isplitl [H6]
  · unfold owns; iexists _; isplitr
    swap; · iexact H6
    ipureintro; exact View.read_writes_eq_canon _ _ _ (last_cov_oc V c t h1 _)
  unfold owns; iexists _; isplitr
  swap; · iexact H7
  ipureintro; exact View.read_writes_eq_canon _ _ _ (last_cov_oq V c t h1 _)

/-- The library's body obligation, at every point: the point's residue mod 20 says which of the three runs applies. -/
theorem body_obligation0 (c : Dev nD) : BodyObligation (dat0 (F := F) V c) (defs₀ (F := F)) Variants.none () Set.univ := fun t => by
  rw [bigSep_W0, bigSep_W0]
  by_cases h0 : t.val % 20 = 0
  · exact step_first V c t h0
  · by_cases h1 : t.val % 20 = 19
    · exact step_last V c t h1
    · exact step_mid V c t h0 h1

/-- What the launch hands the region is the invariant before the first point. -/
theorem hin0 (c : Dev nD) : Pipeline.ΦA spec0 c ⊢ (dat0 V c).Φ 0 := by
  rw [show (dat0 V c).Φ 0 = invAt V c 0 (Nat.zero_le _) from rfl, invAt_zero V c 0 _ rfl]
  try exact Idealize.SL.BI.Entails.refl _

/-- After the last point the invariant gives the entry invariant back: the accumulators' named contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 40 := N_0; omega
  rw [show (dat0 V c).Φ (Fin.last cfg0.N) = invAt V c (Fin.last cfg0.N).val (Nat.le_of_lt_succ (Fin.last cfg0.N).isLt) from rfl,
    invAt_pos V c _ _ hN, entry_open]
  iintro ⟨⟨Sa, Sc, Sq, Hr⟩, Hg⟩
  isplitr [Hg]
  · isplitl [Sa]; · iexists _; iexact Sa
    isplitl [Sc]; · iexists _; iexact Sc
    isplitl [Sq]; · iexists _; iexact Sq
    iexact Hr
  iexact Hg

end Cert.Kernel.Enc

end
-- ==== Proof.K.Dec.lean ====
import proofs.«142703_j28621662061019_2_alg».proof.Proof.Gen.Kernel.Launch
import proofs.«142703_j28621662061019_2_alg».proof.Proof.Gen.Kernel.Skeleton
import proofs.«142703_j28621662061019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's three accesses

The decode body touches each of its staging buffers through one rectangle, and each rectangle is the whole
buffer: the row vector (1 × 256), the weight tile (12800 × 256) and the output row (1 × 12800). -/

abbrev boxQ : Rect S1x256 := Rect.unit (s := S1x256) ![0, 0] S1x256.size inb_S1x256_S1x256_0_0
abbrev boxW : Rect S12800x256 := Rect.unit (s := S12800x256) ![0, 0] S12800x256.size inb_S12800x256_S12800x256_0_0
abbrev boxO : Rect S1x12800 := Rect.unit (s := S1x12800) ![0, 0] S1x12800.size inb_S1x12800_S1x12800_0_0

/-- The output staging buffer once the body has run, as a function of what the two input buffers read: the body
    stores once, the product of the row vector with the transposed weight tile, over the whole buffer. -/
def stored1 (q : Vec F S1x256 .f32) (wt : Vec F S12800x256 .f32) : Vec F S1x12800 .f32 :=
  View.canon [⟨boxO, k1_pay1 (View.ld q boxQ) (View.ld wt boxW)⟩]

/-- The single store's rectangle has as many elements as the buffer, so every index of the buffer lies in it. -/
theorem stored1_covers (p : Vec F S1x12800 .f32) (y : S1x12800.Idx) :
    ∃ pc ∈ ([⟨boxO, p⟩] : List (View.Piece (Elt F) S1x12800 .f32)), y ∈ pc.1.set :=
  View.cover_of_tiled [⟨boxO, p⟩] S1x12800.size (by rfl) y

/-! ## The body on whole staging buffers -/

set_option maxHeartbeats 1000000 in
/-- Run on three whole staging buffers — the inputs' reading `q` and `wt`, the output's holding anything — the
    decode body ends with the inputs' as they were and the output's reading `stored1 q wt`: two loads, a load of the
    output buffer whose value is dropped, and the one store, which overwrites every index. -/
theorem decode_runs (c : Dev nD) (E : Set ℕ) (i : grid1.Coords)
    (a1 : Memref sig .tc .vmem S1x256 .f32) (h1 : a1.IsWhole) (a2 : Memref sig .tc .vmem S12800x256 .f32) (h2 : a2.IsWhole)
    (a3 : Memref sig .tc .vmem S1x12800 .f32) (h3 : a3.IsWhole)
    (q : Vec F S1x256 .f32) (wt : Vec F S12800x256 .f32) (K : PUnit → sProp 𝕄) :
    iprop(owns (c : Thread nD τ) a1 fullShare q ∗ owns (c : Thread nD τ) a2 fullShare wt ∗ (∃ d, owns (c : Thread nD τ) a3 fullShare d)
        ∗ (iprop(owns (c : Thread nD τ) a1 fullShare q ∗ owns (c : Thread nD τ) a2 fullShare wt
              ∗ owns (c : Thread nD τ) a3 fullShare (stored1 q wt)) -∗ K ⟨⟩))
      ⊢ wp frame (wpE (defs₀ (F := F)) Variants.none c none) E (cc1__decode_kernel i a1 h1 a2 h2 a3 h3) K := by
  simp only [cc1__decode_kernel_eq_skeleton]; unfold cc1__decode_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored1_covers _)

/-! ## The proof data -/

/-- The region's proof data on core `c`: the three arrays as the region finds them; after the body at point `t` the
    two input buffers still hold their blocks and the output buffer holds `stored1` of those blocks; the invariant is
    the class's (everything the body does not name, untouched); nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => stored1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem left1_q (c : Dev nD) (t : Fin cfg1.N) : (dat1 V c).after 0 t = iblk1 V c 0 t := by dsimp only [dat1]
theorem left1_w (c : Dev nD) (t : Fin cfg1.N) : (dat1 V c).after 1 t = iblk1 V c 1 t := by dsimp only [dat1]
theorem left1_o (c : Dev nD) (t : Fin cfg1.N) :
    (dat1 V c).after 2 t = stored1 (iblk1 V c 0 t) (iblk1 V c 1 t) := by dsimp only [dat1]

/-- The row vector's buffer holds the row vector at every point, although it is fetched at the first point only: its
    block index never moves and the body leaves the buffer as it found it. -/
theorem found1_q (c : Dev nD) (t : Fin cfg1.N) (d) : (dat1 V c).before 0 t d = iblk1 V c 0 t :=
  ((dat1 V c).before_in_eq_fetched 0 rfl (fun _ => rfl) (fun _ _ _ => rfl)
      (fun t => by rw [left1_q]; unfold Dat.blockOf iblk1; rw [A_eq1]; try rfl) t d).trans
    (by unfold Dat.fetched Dat.blockOf iblk1; rw [A_eq1]; try rfl)

/-- The weight tile's buffer holds the tile of the point: it is fetched at every point. -/
theorem found1_w (c : Dev nD) (t : Fin cfg1.N) (d) : (dat1 V c).before 1 t d = iblk1 V c 1 t :=
  ((dat1 V c).before_in_eq_fetched 1 rfl (fun _ => rfl) (fun _ _ _ => rfl)
      (fun t => by rw [left1_w]; unfold Dat.blockOf iblk1; rw [A_eq1]; try rfl) t d).trans
    (by unfold Dat.fetched Dat.blockOf iblk1; rw [A_eq1]; try rfl)

/-! ## The body obligation -/

/-- The body as the pipeline calls it at point `t`: handed the invariant, what the core owes and the three current
    staging buffers at what they hold there, it gives all of them back, the buffers at what the proof data say. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t))) := by
  unfold bodyAt1
  simp only [found1_q, found1_w]
  rw [show (dat1 V c).Φ t.succ = (dat1 V c).Φ t.castSucc from rfl,
    show (dat1 V c).owesAt () t.succ = (dat1 V c).owesAt () t.castSucc from rfl,
    left1_q, left1_w, left1_o]
  iintro ⟨HΦ, Ho, ⟨%d0, H0⟩, ⟨%d1, H1⟩, ⟨%d2, H2⟩⟩
  iapply (decode_runs c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact body_at1 V c t

end Cert.Kernel.Dec

end
-- ==== Proof.K.Run.lean ====
import proofs.«142703_j28621662061019_2_alg».proof.Proof.K.Enc
import proofs.«142703_j28621662061019_2_alg».proof.Proof.K.Dec

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the four items of @main

@main is: the first kernel region, two stretches of host operations, the second kernel region. The contents of
core `c`'s unscoped buffers at each boundary are a fold from the launch memory: a region replaces its windows' arrays
by what its write-backs leave, a stretch of host operations applies each operation to the valuation. -/

/-- At launch. -/
abbrev W0 : Dev nD → Valuation τ sig (Elt F) := fun c b => m (c, b)
/-- The same read at the TensorCore's references: what the first region's proof data are stated at. -/
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (Enc.dat0 (V0 m) c).arrAt w cfg0.N
theorem W1_arr (c : Dev nD) (w : Fin cfg0.W) :
    W1 m c (Proc.devRef .tc (Pipeline.arrRef spec0 w)) = (Enc.dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Enc.dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the first stretch of host operations. -/
abbrev W2 : Dev nD → Valuation τ sig (Elt F) := fun c => StableHlo.after main_part0_ops0 (W1 m c)
/-- After the second stretch: the second region's entry contents. -/
abbrev W3 : Dev nD → Valuation τ sig (Elt F) := fun c => StableHlo.after main_part1_ops0 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (Dec.dat1 (V3 m) c).arrAt w cfg1.N
theorem W4_arr (c : Dev nD) (w : Fin cfg1.W) :
    W4 m c (Proc.devRef .tc (Pipeline.arrRef spec1 w)) = (Dec.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Dec.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What the host operations write -/

theorem ops0_fresh : (main_part0_ops0 : List (HloOp τ sig (Elt F))).Forall fun op => op.fresh = ∅ := by
  simp only [List.Forall]; repeat' constructor
theorem ops1_fresh : (main_part1_ops0 : List (HloOp τ sig (Elt F))).Forall fun op => op.fresh = ∅ := by
  simp only [List.Forall]; repeat' constructor
/-- The buffers the first stretch writes: one result buffer per operation. -/
abbrev ops0_W : List (Ref sig .tc) := [main_v1, main_v2, main_v3, main_v4, main_v5, main_v6, main_v7, main_v8, main_v9, main_v10, main_v11, main_v12, main_v13, main_v14, main_v15, main_v16, main_v17, main_v18, main_v19, main_cst, main_v20, main_cst_0, main_v21, main_v22, main_v23, main_v24, main_v25, main_v26, main_cst_1, main_v27, main_v28, main_v29, main_v30, main_v31, main_v32, main_v33, main_v34, main_cst_2, main_v35, main_cst_3, main_v36, main_v37, main_v38, main_v39, main_v40, main_v41, main_cst_4, main_v42, main_v43, main_v44, main_v45, main_v46, main_v47, main_v48, main_v49, main_cst_5, main_v50, main_cst_6, main_v51]
/-- The buffers the second stretch writes. -/
abbrev ops1_W : List (Ref sig .tc) := [main_v52, main_v53, main_v54, main_v55, main_v56, main_cst_7, main_v57, main_v58, main_v59, main_v60, main_v61, main_v62]
set_option maxHeartbeats 4000000 in
theorem ops0_writes : (main_part0_ops0 : List (HloOp τ sig (Elt F))).Forall fun op => op.writes ⊆ (ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem ops1_writes : (main_part1_ops0 : List (HloOp τ sig (Elt F))).Forall fun op => op.writes ⊆ (ops1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_⟩ <;> exact List.mem_map_of_mem (by decide))

/-! ## The arguments end as launched -/

/-- `main_arg0` ends as launched: no host operation writes it and no region's write-back touches it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub main_part1_ops0 _ ops1_writes (by decide)
    _ = W1 m c (Proc.devRef .tc main_arg0) := StableHlo.after_of_writes_sub main_part0_ops0 _ ops0_writes (by decide)
    _ = W0 m c (Proc.devRef .tc main_arg0) := (W1_arr m c 0).trans (((Enc.dat0 (V0 m) c).arrAt_in 0 rfl _).trans (Enc.A_eq0 (V0 m) c 0))
    _ = m ((c : Thread nD τ).loc main_arg0) := rfl

/-- `main_arg1` ends as launched: no host operation writes it and no region's write-back touches it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub main_part1_ops0 _ ops1_writes (by decide)
    _ = W1 m c (Proc.devRef .tc main_arg1) := StableHlo.after_of_writes_sub main_part0_ops0 _ ops0_writes (by decide)
    _ = W0 m c (Proc.devRef .tc main_arg1) := (W1_arr m c 1).trans (((Enc.dat0 (V0 m) c).arrAt_in 1 rfl _).trans (Enc.A_eq0 (V0 m) c 1))
    _ = m ((c : Thread nD τ).loc main_arg1) := rfl

/-- `main_arg2` ends as launched: no host operation writes it and no region's write-back touches it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub main_part1_ops0 _ ops1_writes (by decide)
    _ = W1 m c (Proc.devRef .tc main_arg2) := StableHlo.after_of_writes_sub main_part0_ops0 _ ops0_writes (by decide)
    _ = W0 m c (Proc.devRef .tc main_arg2) := (W1_arr m c 2).trans (((Enc.dat0 (V0 m) c).arrAt_in 2 rfl _).trans (Enc.A_eq0 (V0 m) c 2))
    _ = m ((c : Thread nD τ).loc main_arg2) := rfl

/-- `main_arg3` ends as launched: no host operation writes it and no region's write-back touches it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub main_part1_ops0 _ ops1_writes (by decide)
    _ = W1 m c (Proc.devRef .tc main_arg3) := StableHlo.after_of_writes_sub main_part0_ops0 _ ops0_writes (by decide)
    _ = W0 m c (Proc.devRef .tc main_arg3) := (W1_arr m c 3).trans (((Enc.dat0 (V0 m) c).arrAt_in 3 rfl _).trans (Enc.A_eq0 (V0 m) c 3))
    _ = m ((c : Thread nD τ).loc main_arg3) := rfl

/-- `main_arg4` ends as launched: no host operation writes it and no region's write-back touches it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub main_part1_ops0 _ ops1_writes (by decide)
    _ = W1 m c (Proc.devRef .tc main_arg4) := StableHlo.after_of_writes_sub main_part0_ops0 _ ops0_writes (by decide)
    _ = W0 m c (Proc.devRef .tc main_arg4) := (W1_arr m c 4).trans (((Enc.dat0 (V0 m) c).arrAt_in 4 rfl _).trans (Enc.A_eq0 (V0 m) c 4))
    _ = m ((c : Thread nD τ).loc main_arg4) := rfl

/-- `main_arg5` ends as launched: no host operation writes it and no region's write-back touches it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 1).trans (((Dec.dat1 (V3 m) c).arrAt_in 1 rfl _).trans (Dec.A_eq1 (V3 m) c 1))
    _ = W2 m c (Proc.devRef .tc main_arg5) := StableHlo.after_of_writes_sub main_part1_ops0 _ ops1_writes (by decide)
    _ = W1 m c (Proc.devRef .tc main_arg5) := StableHlo.after_of_writes_sub main_part0_ops0 _ ops0_writes (by decide)
    _ = W0 m c (Proc.devRef .tc main_arg5) := W1_of_ne m c main_arg5 (by decide)
    _ = m ((c : Thread nD τ).loc main_arg5) := rfl

/-- `main_arg6` ends as launched: no host operation writes it and no region's write-back touches it. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub main_part1_ops0 _ ops1_writes (by decide)
    _ = W1 m c (Proc.devRef .tc main_arg6) := StableHlo.after_of_writes_sub main_part0_ops0 _ ops0_writes (by decide)
    _ = W0 m c (Proc.devRef .tc main_arg6) := W1_of_ne m c main_arg6 (by decide)
    _ = m ((c : Thread nD τ).loc main_arg6) := rfl

/-- `main_arg7` ends as launched: no host operation writes it and no region's write-back touches it. -/
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub main_part1_ops0 _ ops1_writes (by decide)
    _ = W1 m c (Proc.devRef .tc main_arg7) := StableHlo.after_of_writes_sub main_part0_ops0 _ ops0_writes (by decide)
    _ = W0 m c (Proc.devRef .tc main_arg7) := W1_of_ne m c main_arg7 (by decide)
    _ = m ((c : Thread nD τ).loc main_arg7) := rfl

/-- The result buffer ends at what the second region's write-backs leave. -/
theorem W4_main_v63 (c : Dev nD) : W4 m c (Proc.devRef .tc main_v63) = (Dec.dat1 (V3 m) c).arrAt 2 cfg1.N := W4_arr m c 2

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Enc.dat0 (V0 m) c
  | ⟨1, _⟩ => fun c => Dec.dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment between thread states: entered with every unscoped buffer at `W0`, left with them at
    `W1`. Its windows' arrays are split out of the unscoped buffers at entry and joined back at their written-back
    contents at exit; the generator register goes into the kernel's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : (iprop(Pipeline.scopedRest spec0 c ∗ ∃ r, prngReg c r) : sProp 𝕄) ⊢ (pdats m 0 c).Φ 0 := by
      have h : (Pipeline.ΦA spec0 c : sProp 𝕄) ⊢ (pdats m 0 c).Φ 0 := Enc.hin0 (V0 m) c
      unfold Pipeline.ΦA at h; exact h
    iintro ⟨Hp, -, Hr⟩
    iapply key
    isplitl [Hr]; · iexact Hr
    iexact Hp
  hout c := by
    rw [Pipeline.ownSems0_none]
    have key : (pdats m 0 c).Φ (Fin.last _) ⊢ (iprop(Pipeline.scopedRest spec0 c ∗ ∃ r, prngReg c r) : sProp 𝕄) := by
      have h : (pdats m 0 c).Φ (Fin.last _) ⊢ (Pipeline.ΦA spec0 c : sProp 𝕄) := Enc.hout0 (V0 m) c
      unfold Pipeline.ΦA at h; exact h
    iintro H
    ihave H2 := key $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment between thread states: entered with every unscoped buffer at `W3`, left with them at
    `W4`. Its windows' arrays are split out of the unscoped buffers at entry and joined back at their written-back
    contents at exit; the generator register goes into the kernel's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : (iprop(Pipeline.scopedRest spec1 c ∗ ∃ r, prngReg c r) : sProp 𝕄) ⊢ (pdats m 1 c).Φ 0 := by
      have h : (Pipeline.ΦA spec1 c : sProp 𝕄) ⊢ (pdats m 1 c).Φ 0 := BI.Entails.refl _
      unfold Pipeline.ΦA at h; exact h
    iintro ⟨Hp, -, Hr⟩
    iapply key
    isplitl [Hr]; · iexact Hr
    iexact Hp
  hout c := by
    rw [Pipeline.ownSems0_none]
    have key : (pdats m 1 c).Φ (Fin.last _) ⊢ (iprop(Pipeline.scopedRest spec1 c ∗ ∃ r, prngReg c r) : sProp 𝕄) := by
      have h : (pdats m 1 c).Φ (Fin.last _) ⊢ (Pipeline.ΦA spec1 c : sProp 𝕄) := BI.Entails.refl _
      unfold Pipeline.ΦA at h; exact h
    iintro H
    ihave H2 := key $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg main_part0_ops0 main_part0_ops0_sub ops0_fresh (W1 m)),
    .host (hseg main_part1_ops0 main_part1_ops0_sub ops1_fresh (W2 m)),
    .region (reg1 m) ]
theorem main_run (c : Dev nD) : main (F := F) c = Pipeline.Seg.run (segs m) := (main_chain_windows c).trans (by chain_rfl)

set_option backward.isDefEq.respectTransparency.types false in
/-- Every weakly fair execution of @main from memory `m` with zero counters terminates, nothing faulting, and in every
    final state each unscoped buffer of core `c` holds the last boundary's contents `W4 m c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends at its launch contents, and the result array at what the second region's
    write-backs leave. -/
theorem run_result : θ_run defs (onTc (τ := τ) (main (F := F))) ⟨m, fun _ => 0, ρ⟩ (fun r => ∀ c : Dev nD,
      r.2.mem ((c.tc : Thread nD τ).loc main_v63) = (Dec.dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v63 (by decide))).trans (W4_main_v63 m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c)⟩) (run_main m ρ)

end Cert.Kernel.Run

end
-- ==== Proof.KI.EncBase.lean ====
import proofs.«142703_j28621662061019_2_alg».proof.Proof.Gen.KernelIdeal.Launch
import proofs.«142703_j28621662061019_2_alg».proof.Proof.Gen.KernelIdeal.Skeleton
import proofs.«142703_j28621662061019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditionals of the body, in closed form

The body zeroes its three accumulators when the inner coordinate is 0 and copies them to the
output blocks when it is 19; every point adds the three products of the current column tile. -/

/-- The guard of the zeroing block: the inner coordinate is 0. -/
abbrev atFirst (i : grid0.Coords) : Prop :=
  (Scalar.cmpi .ne (Scalar.extui (Scalar.cmpi .eq (BitVec.ofNat 32 (i 1).val) 0#32)) 0#32) = 1#1

/-- The guard of the copying block: the inner coordinate is 19. -/
abbrev atLast (i : grid0.Coords) : Prop := k0_cond2 i = 1#1

/-- Over the 40 points, in row-major order: the zeroing block runs at the points 0 and 20. -/
theorem atFirst_iff : ∀ t : Fin cfg0.N, atFirst (grid0.coords t) ↔ t.val % 20 = 0 :=
  (by decide +kernel : ∀ t : Fin grid0.N, atFirst (grid0.coords t) ↔ t.val % 20 = 0)

/-- The copying block runs at the points 19 and 39. -/
theorem atLast_iff : ∀ t : Fin cfg0.N, atLast (grid0.coords t) ↔ t.val % 20 = 19 :=
  (by decide +kernel : ∀ t : Fin grid0.N, atLast (grid0.coords t) ↔ t.val % 20 = 19)

/-! ## Which windows the body leaves alone -/

/-- The five input windows are stored into nowhere, hence never idle in the table's sense. -/
theorem in_live (w : Fin cfg0.W) (hw : w.val < 5) (i : grid0.Coords) : cfg0.idle w i = false := by
  obtain ⟨w, hW⟩ := w
  match w, hW, hw with
  | 0, _, _ => rfl
  | 1, _, _ => rfl
  | 2, _, _ => rfl
  | 3, _, _ => rfl
  | 4, _, _ => rfl

/-- Away from the copying block the three output windows are idle. -/
theorem out_idle (i : grid0.Coords) (h : ¬atLast i) :
    cfg0.idle 5 i = true ∧ cfg0.idle 6 i = true ∧ cfg0.idle 7 i = true := by
  have e : (k0_cond2 i == 1#1) = false := by
    rw [beq_eq_false_iff_ne]; exact h
  refine ⟨?_, ?_, ?_⟩ <;> show (!(k0_cond2 i == 1#1)) = true <;> rw [e] <;> rfl

/-- Under it they are live. -/
theorem out_live (i : grid0.Coords) (h : atLast i) :
    cfg0.idle 5 i = false ∧ cfg0.idle 6 i = false ∧ cfg0.idle 7 i = false := by
  have e : (k0_cond2 i == 1#1) = true := by
    rw [beq_iff_eq]; exact h
  refine ⟨?_, ?_, ?_⟩ <;> show (!(k0_cond2 i == 1#1)) = false <;> rw [e] <;> rfl

/-- Away from the points 19 and 39 no output block is written back. -/
theorem out_kept (t : Fin cfg0.N) (h : ¬t.val % 20 = 19) :
    (cfg0.win 5).flush t = false ∧ (cfg0.win 6).flush t = false ∧ (cfg0.win 7).flush t = false :=
  ⟨Bool.eq_false_iff.mpr fun e => h ((flush0_5 t).mp e),
   Bool.eq_false_iff.mpr fun e => h ((flush0_6 t).mp e),
   Bool.eq_false_iff.mpr fun e => h ((flush0_7 t).mp e)⟩

/-! ## The accumulators and the buffers that only ride along -/

/-- The three accumulators: whole scoped buffers of the kernel's own. -/
abbrev accA : Memref sig .tc .vmem S200x256 .f32 := Memref.whole cc0_scratch0
abbrev accC : Memref sig .tc .vmem S200x256 .f32 := Memref.whole cc0_scratch1
abbrev accQ : Memref sig .tc .vmem S1x256 .f32 := Memref.whole cc0_scratch2

/-- The later call's five staging buffers: scoped, untouched here, each at some contents. -/
def riders (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's entry invariant, opened: the three accumulators at some contents, the riders, the generator register. -/
theorem entry_open (c : Dev nD) :
    (Pipeline.ΦA spec0 c : sProp 𝕄)
      = iprop(iprop((∃ d, owns (c : Thread nD τ) accA fullShare d) ∗ (∃ d, owns (c : Thread nD τ) accC fullShare d)
          ∗ (∃ d, owns (c : Thread nD τ) accQ fullShare d) ∗ riders (F := F) c) ∗ (∃ r, prngReg c r)) := by
  unfold Pipeline.ΦA riders; rw [scopedRest0_eq]; simp only [accA, accC, accQ, owns_whole]; try rfl

/-- The five column tiles a point reads. -/
structure Tiles (F : FTy → Type) where
  q : Vec F S1x3200 .f32
  m : Vec F S200x3200 .f32
  wa : Vec F S256x3200 .f32
  wb : Vec F S256x3200 .f32
  wc : Vec F S256x3200 .f32

/-- What the three accumulators hold. -/
structure Sums (F : FTy → Type) where
  a : Vec F S200x256 .f32
  c : Vec F S200x256 .f32
  q : Vec F S1x256 .f32

end Cert.KernelIdeal.Enc

end
-- ==== Proof.KI.EncB.lean ====
import proofs.«142703_j28621662061019_2_alg».proof.Proof.KI.EncBase

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (mq : Memref sig .tc .vmem S1x3200 .f32) (hq : mq.IsWhole)
  (mm : Memref sig .tc .vmem S200x3200 .f32) (hm : mm.IsWhole)
  (ma : Memref sig .tc .vmem S256x3200 .f32) (ha : ma.IsWhole)
  (mb : Memref sig .tc .vmem S256x3200 .f32) (hb : mb.IsWhole)
  (mc : Memref sig .tc .vmem S256x3200 .f32) (hc : mc.IsWhole)
  (oa : Memref sig .tc .vmem S1x200x256 .f32) (hoa : oa.IsWhole)
  (oc : Memref sig .tc .vmem S1x200x256 .f32) (hoc : oc.IsWhole)
  (oq : Memref sig .tc .vmem S1x1x256 .f32) (hoq : oq.IsWhole)
  (sa : Memref sig .tc .vmem S200x256 .f32) (hsa : sa.IsWhole)
  (sc : Memref sig .tc .vmem S200x256 .f32) (hsc : sc.IsWhole)
  (sq : Memref sig .tc .vmem S1x256 .f32) (hsq : sq.IsWhole)

set_option maxHeartbeats 4000000 in
/-- A point strictly inside a half (neither conditional taken): on whole buffers, the inputs at the tiles `x`, the
    outputs at any contents `y·` (given back as found), the accumulators at `s`, the body runs to the inputs and
    outputs as they were and each accumulator overwritten by the pieces found here. -/
def runMid (hA : ¬atFirst i) (hC : ¬atLast i) (x : Tiles F) (s : Sums F) :
    Σ' (P0 : List (View.Piece (Elt F) S200x256 .f32)), Σ' (P1 : List (View.Piece (Elt F) S200x256 .f32)),
      { P2 : List (View.Piece (Elt F) S1x256 .f32) //
      ∀ (y5 y6 : Vec F S1x200x256 .f32) (y7 : Vec F S1x1x256 .f32) (E : Set ℕ) (K : PUnit → sProp 𝕄),
        iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
            ∗ owns (c : Thread nD τ) oa fullShare y5 ∗ owns (c : Thread nD τ) oc fullShare y6 ∗ owns (c : Thread nD τ) oq fullShare y7
            ∗ owns (c : Thread nD τ) sa fullShare s.a ∗ owns (c : Thread nD τ) sc fullShare s.c ∗ owns (c : Thread nD τ) sq fullShare s.q
            ∗ (iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
                ∗ owns (c : Thread nD τ) oa fullShare y5 ∗ owns (c : Thread nD τ) oc fullShare y6 ∗ owns (c : Thread nD τ) oq fullShare y7
                ∗ (∃ f, sa.view.loc (c : Thread nD τ) ↦[sa.view.set]{fullShare} sa.view.writes (Elt F) f P0) ∗ (∃ f, sc.view.loc (c : Thread nD τ) ↦[sc.view.set]{fullShare} sc.view.writes (Elt F) f P1) ∗ (∃ f, sq.view.loc (c : Thread nD τ) ↦[sq.view.set]{fullShare} sq.view.writes (Elt F) f P2)) -∗ K ⟨⟩))
          ⊢ wp frame (wpE (defs₀ (F := F)) Variants.none c none) E (cc0__encode_kernel i mq hq mm hm ma ha mb hb mc hc oa hoa oc hoc oq hoq sa hsa sc hsc sq hsq) K } := by
  refine ⟨?_, ?_, ?_, fun y5 y6 y7 E K => ?run⟩
  case run =>
    simp only [cc0__encode_kernel_eq_skeleton]; unfold cc0__encode_kernel_skel
    simp only [k0_part1_eq_skeleton]; unfold k0_part1_skel
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%g0, %d0, S0⟩, ⟨%g1, %d1, S1⟩, ⟨%g2, %d2, S2⟩, Hk⟩
    obtain rfl := hq.eq_unread e0; obtain rfl := hm.eq_unread e1; obtain rfl := ha.eq_unread e2
    obtain rfl := hb.eq_unread e3; obtain rfl := hc.eq_unread e4
    obtain rfl := hoa.eq_unread e5; obtain rfl := hoc.eq_unread e6; obtain rfl := hoq.eq_unread e7
    obtain rfl := hsa.eq_unread d0; obtain rfl := hsc.eq_unread d1; obtain rfl := hsq.eq_unread d2
    sl_exec (disch := first | exact hA | exact hC)
    sl_step
    iapply Hk
    isplitl [H0]
    · iexists _; isplitr; · ipureintro; exact hq.read_unread _
      iexact H0
    isplitl [H1]
    · iexists _; isplitr; · ipureintro; exact hm.read_unread _
      iexact H1
    isplitl [H2]
    · iexists _; isplitr; · ipureintro; exact ha.read_unread _
      iexact H2
    isplitl [H3]
    · iexists _; isplitr; · ipureintro; exact hb.read_unread _
      iexact H3
    isplitl [H4]
    · iexists _; isplitr; · ipureintro; exact hc.read_unread _
      iexact H4
    isplitl [H5]
    · iexists _; isplitr; · ipureintro; exact hoa.read_unread _
      iexact H5
    isplitl [H6]
    · iexists _; isplitr; · ipureintro; exact hoc.read_unread _
      iexact H6
    isplitl [H7]
    · iexists _; isplitr; · ipureintro; exact hoq.read_unread _
      iexact H7
    isplitl [S0]; · iexists _; iexact S0
    isplitl [S1]; · iexists _; iexact S1
    iexists _; iexact S2

end Cert.KernelIdeal.Enc

end
-- ==== Proof.KI.EncA.lean ====
import proofs.«142703_j28621662061019_2_alg».proof.Proof.KI.EncB

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (mq : Memref sig .tc .vmem S1x3200 .f32) (hq : mq.IsWhole)
  (mm : Memref sig .tc .vmem S200x3200 .f32) (hm : mm.IsWhole)
  (ma : Memref sig .tc .vmem S256x3200 .f32) (ha : ma.IsWhole)
  (mb : Memref sig .tc .vmem S256x3200 .f32) (hb : mb.IsWhole)
  (mc : Memref sig .tc .vmem S256x3200 .f32) (hc : mc.IsWhole)
  (oa : Memref sig .tc .vmem S1x200x256 .f32) (hoa : oa.IsWhole)
  (oc : Memref sig .tc .vmem S1x200x256 .f32) (hoc : oc.IsWhole)
  (oq : Memref sig .tc .vmem S1x1x256 .f32) (hoq : oq.IsWhole)
  (sa : Memref sig .tc .vmem S200x256 .f32) (hsa : sa.IsWhole)
  (sc : Memref sig .tc .vmem S200x256 .f32) (hsc : sc.IsWhole)
  (sq : Memref sig .tc .vmem S1x256 .f32) (hsq : sq.IsWhole)

set_option maxHeartbeats 4000000 in
/-- The first point of a half (the zeroing block runs, the copying block does not): on whole buffers, the inputs at
    the tiles `x`, the outputs at any contents `y·` (given back as found), the accumulators at anything, the body runs
    to the inputs and outputs as they were and each accumulator overwritten by the pieces found here (the zeros first,
    then the sum over them). -/
def runFirst (hA : atFirst i) (hC : ¬atLast i) (x : Tiles F) :
    Σ' (P0 : List (View.Piece (Elt F) S200x256 .f32)), Σ' (P1 : List (View.Piece (Elt F) S200x256 .f32)),
      { P2 : List (View.Piece (Elt F) S1x256 .f32) //
      ∀ (y5 y6 : Vec F S1x200x256 .f32) (y7 : Vec F S1x1x256 .f32) (E : Set ℕ) (K : PUnit → sProp 𝕄),
        iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
            ∗ owns (c : Thread nD τ) oa fullShare y5 ∗ owns (c : Thread nD τ) oc fullShare y6 ∗ owns (c : Thread nD τ) oq fullShare y7
            ∗ (∃ d, owns (c : Thread nD τ) sa fullShare d) ∗ (∃ d, owns (c : Thread nD τ) sc fullShare d) ∗ (∃ d, owns (c : Thread nD τ) sq fullShare d)
            ∗ (iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
                ∗ owns (c : Thread nD τ) oa fullShare y5 ∗ owns (c : Thread nD τ) oc fullShare y6 ∗ owns (c : Thread nD τ) oq fullShare y7
                ∗ (∃ f, sa.view.loc (c : Thread nD τ) ↦[sa.view.set]{fullShare} sa.view.writes (Elt F) f P0) ∗ (∃ f, sc.view.loc (c : Thread nD τ) ↦[sc.view.set]{fullShare} sc.view.writes (Elt F) f P1) ∗ (∃ f, sq.view.loc (c : Thread nD τ) ↦[sq.view.set]{fullShare} sq.view.writes (Elt F) f P2)) -∗ K ⟨⟩))
          ⊢ wp frame (wpE (defs₀ (F := F)) Variants.none c none) E (cc0__encode_kernel i mq hq mm hm ma ha mb hb mc hc oa hoa oc hoc oq hoq sa hsa sc hsc sq hsq) K } := by
  refine ⟨?_, ?_, ?_, fun y5 y6 y7 E K => ?run⟩
  case run =>
    simp only [cc0__encode_kernel_eq_skeleton]; unfold cc0__encode_kernel_skel
    simp only [k0_part1_eq_skeleton]; unfold k0_part1_skel
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%z0, %g0, -, S0⟩, ⟨%z1, %g1, -, S1⟩, ⟨%z2, %g2, -, S2⟩, Hk⟩
    obtain rfl := hq.eq_unread e0; obtain rfl := hm.eq_unread e1; obtain rfl := ha.eq_unread e2
    obtain rfl := hb.eq_unread e3; obtain rfl := hc.eq_unread e4
    obtain rfl := hoa.eq_unread e5; obtain rfl := hoc.eq_unread e6; obtain rfl := hoq.eq_unread e7
    sl_exec (disch := first | exact hA | exact hC)
    sl_step
    iapply Hk
    isplitl [H0]
    · iexists _; isplitr; · ipureintro; exact hq.read_unread _
      iexact H0
    isplitl [H1]
    · iexists _; isplitr; · ipureintro; exact hm.read_unread _
      iexact H1
    isplitl [H2]
    · iexists _; isplitr; · ipureintro; exact ha.read_unread _
      iexact H2
    isplitl [H3]
    · iexists _; isplitr; · ipureintro; exact hb.read_unread _
      iexact H3
    isplitl [H4]
    · iexists _; isplitr; · ipureintro; exact hc.read_unread _
      iexact H4
    isplitl [H5]
    · iexists _; isplitr; · ipureintro; exact hoa.read_unread _
      iexact H5
    isplitl [H6]
    · iexists _; isplitr; · ipureintro; exact hoc.read_unread _
      iexact H6
    isplitl [H7]
    · iexists _; isplitr; · ipureintro; exact hoq.read_unread _
      iexact H7
    isplitl [S0]; · iexists _; iexact S0
    isplitl [S1]; · iexists _; iexact S1
    iexists _; iexact S2

end Cert.KernelIdeal.Enc

end
-- ==== Proof.KI.EncC.lean ====
import proofs.«142703_j28621662061019_2_alg».proof.Proof.KI.EncA

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (mq : Memref sig .tc .vmem S1x3200 .f32) (hq : mq.IsWhole)
  (mm : Memref sig .tc .vmem S200x3200 .f32) (hm : mm.IsWhole)
  (ma : Memref sig .tc .vmem S256x3200 .f32) (ha : ma.IsWhole)
  (mb : Memref sig .tc .vmem S256x3200 .f32) (hb : mb.IsWhole)
  (mc : Memref sig .tc .vmem S256x3200 .f32) (hc : mc.IsWhole)
  (oa : Memref sig .tc .vmem S1x200x256 .f32) (hoa : oa.IsWhole)
  (oc : Memref sig .tc .vmem S1x200x256 .f32) (hoc : oc.IsWhole)
  (oq : Memref sig .tc .vmem S1x1x256 .f32) (hoq : oq.IsWhole)
  (sa : Memref sig .tc .vmem S200x256 .f32) (hsa : sa.IsWhole)
  (sc : Memref sig .tc .vmem S200x256 .f32) (hsc : sc.IsWhole)
  (sq : Memref sig .tc .vmem S1x256 .f32) (hsq : sq.IsWhole)

set_option maxHeartbeats 4000000 in
/-- The last point of a half (the copying block runs, the zeroing block does not): on whole buffers, the inputs at the
    tiles `x`, the outputs at anything, the accumulators at `s`, the body runs to the inputs as they were, each
    accumulator overwritten by the pieces found here and each output block overwritten by its own pieces (the
    accumulator just written, recast to the block's shape). -/
def runLast (hA : ¬atFirst i) (hC : atLast i) (x : Tiles F) (s : Sums F) :
    Σ' (Q5 : List (View.Piece (Elt F) S1x200x256 .f32)), Σ' (Q6 : List (View.Piece (Elt F) S1x200x256 .f32)),
    Σ' (Q7 : List (View.Piece (Elt F) S1x1x256 .f32)),
    Σ' (P0 : List (View.Piece (Elt F) S200x256 .f32)), Σ' (P1 : List (View.Piece (Elt F) S200x256 .f32)),
      { P2 : List (View.Piece (Elt F) S1x256 .f32) //
      ∀ (E : Set ℕ) (K : PUnit → sProp 𝕄),
        iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
            ∗ (∃ d, owns (c : Thread nD τ) oa fullShare d) ∗ (∃ d, owns (c : Thread nD τ) oc fullShare d) ∗ (∃ d, owns (c : Thread nD τ) oq fullShare d)
            ∗ owns (c : Thread nD τ) sa fullShare s.a ∗ owns (c : Thread nD τ) sc fullShare s.c ∗ owns (c : Thread nD τ) sq fullShare s.q
            ∗ (iprop(owns (c : Thread nD τ) mq fullShare x.q ∗ owns (c : Thread nD τ) mm fullShare x.m ∗ owns (c : Thread nD τ) ma fullShare x.wa ∗ owns (c : Thread nD τ) mb fullShare x.wb ∗ owns (c : Thread nD τ) mc fullShare x.wc
                ∗ (∃ f, oa.view.loc (c : Thread nD τ) ↦[oa.view.set]{fullShare} oa.view.writes (Elt F) f Q5) ∗ (∃ f, oc.view.loc (c : Thread nD τ) ↦[oc.view.set]{fullShare} oc.view.writes (Elt F) f Q6) ∗ (∃ f, oq.view.loc (c : Thread nD τ) ↦[oq.view.set]{fullShare} oq.view.writes (Elt F) f Q7)
                ∗ (∃ f, sa.view.loc (c : Thread nD τ) ↦[sa.view.set]{fullShare} sa.view.writes (Elt F) f P0) ∗ (∃ f, sc.view.loc (c : Thread nD τ) ↦[sc.view.set]{fullShare} sc.view.writes (Elt F) f P1) ∗ (∃ f, sq.view.loc (c : Thread nD τ) ↦[sq.view.set]{fullShare} sq.view.writes (Elt F) f P2)) -∗ K ⟨⟩))
          ⊢ wp frame (wpE (defs₀ (F := F)) Variants.none c none) E (cc0__encode_kernel i mq hq mm hm ma ha mb hb mc hc oa hoa oc hoc oq hoq sa hsa sc hsc sq hsq) K } := by
  refine ⟨?_, ?_, ?_, ?_, ?_, ?_, fun E K => ?run⟩
  case run =>
    simp only [cc0__encode_kernel_eq_skeleton]; unfold cc0__encode_kernel_skel
    simp only [k0_part1_eq_skeleton]; unfold k0_part1_skel
    unfold owns
    iintro ⟨⟨%f0, %e0, H0⟩, ⟨%f1, %e1, H1⟩, ⟨%f2, %e2, H2⟩, ⟨%f3, %e3, H3⟩, ⟨%f4, %e4, H4⟩, ⟨%z5, %f5, -, H5⟩, ⟨%z6, %f6, -, H6⟩, ⟨%z7, %f7, -, H7⟩, ⟨%g0, %d0, S0⟩, ⟨%g1, %d1, S1⟩, ⟨%g2, %d2, S2⟩, Hk⟩
    obtain rfl := hq.eq_unread e0; obtain rfl := hm.eq_unread e1; obtain rfl := ha.eq_unread e2
    obtain rfl := hb.eq_unread e3; obtain rfl := hc.eq_unread e4
    obtain rfl := hsa.eq_unread d0; obtain rfl := hsc.eq_unread d1; obtain rfl := hsq.eq_unread d2
    sl_exec (disch := first | exact hA | exact hC)
    sl_step
    iapply Hk
    isplitl [H0]
    · iexists _; isplitr; · ipureintro; exact hq.read_unread _
      iexact H0
    isplitl [H1]
    · iexists _; isplitr; · ipureintro; exact hm.read_unread _
      iexact H1
    isplitl [H2]
    · iexists _; isplitr; · ipureintro; exact ha.read_unread _
      iexact H2
    isplitl [H3]
    · iexists _; isplitr; · ipureintro; exact hb.read_unread _
      iexact H3
    isplitl [H4]
    · iexists _; isplitr; · ipureintro; exact hc.read_unread _
      iexact H4
    isplitl [H5]; · iexists _; iexact H5
    isplitl [H6]; · iexists _; iexact H6
    isplitl [H7]; · iexists _; iexact H7
    isplitl [S0]; · iexists _; iexact S0
    isplitl [S1]; · iexists _; iexact S1
    iexists _; iexact S2

end Cert.KernelIdeal.Enc

end
-- ==== Proof.KI.Enc.lean ====
import proofs.«142703_j28621662061019_2_alg».proof.Proof.KI.EncC

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## A point's operands -/

/-- The five column tiles of point `t`. -/
def tilesAt (c : Dev nD) (t : Fin cfg0.N) : Tiles F :=
  ⟨iblk0 V c 0 t, iblk0 V c 1 t, iblk0 V c 2 t, iblk0 V c 3 t, iblk0 V c 4 t⟩

/-- Each window's current staging memref at point `t`, and its wholeness. -/
abbrev st_q (t : Fin cfg0.N) : Memref sig .tc .vmem S1x3200 .f32 := win0_0.stage (cfg0.slots t 0)
abbrev wh_q (t : Fin cfg0.N) : (st_q t).IsWhole := hstage0_0 ((cfg0.slots t 0).cast nbuf0_0)
abbrev st_m (t : Fin cfg0.N) : Memref sig .tc .vmem S200x3200 .f32 := win0_1.stage (cfg0.slots t 1)
abbrev wh_m (t : Fin cfg0.N) : (st_m t).IsWhole := hstage0_1 ((cfg0.slots t 1).cast nbuf0_1)
abbrev st_a (t : Fin cfg0.N) : Memref sig .tc .vmem S256x3200 .f32 := win0_2.stage (cfg0.slots t 2)
abbrev wh_a (t : Fin cfg0.N) : (st_a t).IsWhole := hstage0_2 ((cfg0.slots t 2).cast nbuf0_2)
abbrev st_b (t : Fin cfg0.N) : Memref sig .tc .vmem S256x3200 .f32 := win0_3.stage (cfg0.slots t 3)
abbrev wh_b (t : Fin cfg0.N) : (st_b t).IsWhole := hstage0_3 ((cfg0.slots t 3).cast nbuf0_3)
abbrev st_c (t : Fin cfg0.N) : Memref sig .tc .vmem S256x3200 .f32 := win0_4.stage (cfg0.slots t 4)
abbrev wh_c (t : Fin cfg0.N) : (st_c t).IsWhole := hstage0_4 ((cfg0.slots t 4).cast nbuf0_4)
abbrev st_oa (t : Fin cfg0.N) : Memref sig .tc .vmem S1x200x256 .f32 := win0_5.stage (cfg0.slots t 5)
abbrev wh_oa (t : Fin cfg0.N) : (st_oa t).IsWhole := hstage0_5 ((cfg0.slots t 5).cast nbuf0_5)
abbrev st_oc (t : Fin cfg0.N) : Memref sig .tc .vmem S1x200x256 .f32 := win0_6.stage (cfg0.slots t 6)
abbrev wh_oc (t : Fin cfg0.N) : (st_oc t).IsWhole := hstage0_6 ((cfg0.slots t 6).cast nbuf0_6)
abbrev st_oq (t : Fin cfg0.N) : Memref sig .tc .vmem S1x1x256 .f32 := win0_7.stage (cfg0.slots t 7)
abbrev wh_oq (t : Fin cfg0.N) : (st_oq t).IsWhole := hstage0_7 ((cfg0.slots t 7).cast nbuf0_7)

theorem first_not_last (t : Fin cfg0.N) (h0 : t.val % 20 = 0) : ¬atLast (grid0.coords t) :=
  fun h => by have := (atLast_iff t).mp h; omega
theorem last_not_first (t : Fin cfg0.N) (h1 : t.val % 20 = 19) : ¬atFirst (grid0.coords t) :=
  fun h => by have := (atFirst_iff t).mp h; omega

/-- The three runs at the operands of point `t`. -/
abbrev firstAt (c : Dev nD) (t : Fin cfg0.N) (h0 : t.val % 20 = 0) :=
  runFirst (F := F) c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) ((atFirst_iff t).mpr h0) (first_not_last t h0) (tilesAt V c t)
abbrev midAt (c : Dev nD) (t : Fin cfg0.N) (h0 : ¬t.val % 20 = 0) (h1 : ¬t.val % 20 = 19) (s : Sums F) :=
  runMid (F := F) c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (fun h => h0 ((atFirst_iff t).mp h)) (fun h => h1 ((atLast_iff t).mp h)) (tilesAt V c t) s
abbrev lastAt (c : Dev nD) (t : Fin cfg0.N) (h1 : t.val % 20 = 19) (s : Sums F) :=
  runLast (F := F) c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (last_not_first t h1) ((atLast_iff t).mpr h1) (tilesAt V c t) s

/-! ## Each run's pieces tile the buffer they go to -/

theorem first_cov_a (c : Dev nD) (t : Fin cfg0.N) (h0 : t.val % 20 = 0) (y : S200x256.Idx) : ∃ p ∈ (firstAt V c t h0).1, y ∈ p.1.set :=
  View.cover_of_tiledL (firstAt V c t h0).1 S200x256.size (by unfold firstAt; sl_kernel_rfl) y
theorem first_cov_c (c : Dev nD) (t : Fin cfg0.N) (h0 : t.val % 20 = 0) (y : S200x256.Idx) : ∃ p ∈ (firstAt V c t h0).2.1, y ∈ p.1.set :=
  View.cover_of_tiledL (firstAt V c t h0).2.1 S200x256.size (by unfold firstAt; sl_kernel_rfl) y
theorem first_cov_q (c : Dev nD) (t : Fin cfg0.N) (h0 : t.val % 20 = 0) (y : S1x256.Idx) : ∃ p ∈ (firstAt V c t h0).2.2.1, y ∈ p.1.set :=
  View.cover_of_tiledL (firstAt V c t h0).2.2.1 S1x256.size (by unfold firstAt; sl_kernel_rfl) y

theorem mid_cov_a (c : Dev nD) (t : Fin cfg0.N) (h0 : ¬t.val % 20 = 0) (h1 : ¬t.val % 20 = 19) (s : Sums F) (y : S200x256.Idx) : ∃ p ∈ (midAt V c t h0 h1 s).1, y ∈ p.1.set :=
  View.cover_of_tiledL (midAt V c t h0 h1 s).1 S200x256.size (by unfold midAt; sl_kernel_rfl) y
theorem mid_cov_c (c : Dev nD) (t : Fin cfg0.N) (h0 : ¬t.val % 20 = 0) (h1 : ¬t.val % 20 = 19) (s : Sums F) (y : S200x256.Idx) : ∃ p ∈ (midAt V c t h0 h1 s).2.1, y ∈ p.1.set :=
  View.cover_of_tiledL (midAt V c t h0 h1 s).2.1 S200x256.size (by unfold midAt; sl_kernel_rfl) y
theorem mid_cov_q (c : Dev nD) (t : Fin cfg0.N) (h0 : ¬t.val % 20 = 0) (h1 : ¬t.val % 20 = 19) (s : Sums F) (y : S1x256.Idx) : ∃ p ∈ (midAt V c t h0 h1 s).2.2.1, y ∈ p.1.set :=
  View.cover_of_tiledL (midAt V c t h0 h1 s).2.2.1 S1x256.size (by unfold midAt; sl_kernel_rfl) y

theorem last_cov_oa (c : Dev nD) (t : Fin cfg0.N) (h1 : t.val % 20 = 19) (s : Sums F) (y : S1x200x256.Idx) : ∃ p ∈ (lastAt V c t h1 s).1, y ∈ p.1.set :=
  View.cover_of_tiledL (lastAt V c t h1 s).1 S1x200x256.size (by unfold lastAt; sl_kernel_rfl) y
theorem last_cov_oc (c : Dev nD) (t : Fin cfg0.N) (h1 : t.val % 20 = 19) (s : Sums F) (y : S1x200x256.Idx) : ∃ p ∈ (lastAt V c t h1 s).2.1, y ∈ p.1.set :=
  View.cover_of_tiledL (lastAt V c t h1 s).2.1 S1x200x256.size (by unfold lastAt; sl_kernel_rfl) y
theorem last_cov_oq (c : Dev nD) (t : Fin cfg0.N) (h1 : t.val % 20 = 19) (s : Sums F) (y : S1x1x256.Idx) : ∃ p ∈ (lastAt V c t h1 s).2.2.1, y ∈ p.1.set :=
  View.cover_of_tiledL (lastAt V c t h1 s).2.2.1 S1x1x256.size (by unfold lastAt; sl_kernel_rfl) y
theorem last_cov_a (c : Dev nD) (t : Fin cfg0.N) (h1 : t.val % 20 = 19) (s : Sums F) (y : S200x256.Idx) : ∃ p ∈ (lastAt V c t h1 s).2.2.2.1, y ∈ p.1.set :=
  View.cover_of_tiledL (lastAt V c t h1 s).2.2.2.1 S200x256.size (by unfold lastAt; sl_kernel_rfl) y
theorem last_cov_c (c : Dev nD) (t : Fin cfg0.N) (h1 : t.val % 20 = 19) (s : Sums F) (y : S200x256.Idx) : ∃ p ∈ (lastAt V c t h1 s).2.2.2.2.1, y ∈ p.1.set :=
  View.cover_of_tiledL (lastAt V c t h1 s).2.2.2.2.1 S200x256.size (by unfold lastAt; sl_kernel_rfl) y
theorem last_cov_q (c : Dev nD) (t : Fin cfg0.N) (h1 : t.val % 20 = 19) (s : Sums F) (y : S1x256.Idx) : ∃ p ∈ (lastAt V c t h1 s).2.2.2.2.2.1, y ∈ p.1.set :=
  View.cover_of_tiledL (lastAt V c t h1 s).2.2.2.2.2.1 S1x256.size (by unfold lastAt; sl_kernel_rfl) y

/-! ## What the accumulators hold after each point, and what a half's last point leaves in the output blocks -/

/-- The accumulators after each kind of point: the canonical reading of that run's pieces. -/
def firstSums (c : Dev nD) (t : Fin cfg0.N) (h0 : t.val % 20 = 0) : Sums F :=
  ⟨View.canon (firstAt V c t h0).1, View.canon (firstAt V c t h0).2.1, View.canon (firstAt V c t h0).2.2.1⟩
def midSums (c : Dev nD) (t : Fin cfg0.N) (h0 : ¬t.val % 20 = 0) (h1 : ¬t.val % 20 = 19) (s : Sums F) : Sums F :=
  ⟨View.canon (midAt V c t h0 h1 s).1, View.canon (midAt V c t h0 h1 s).2.1, View.canon (midAt V c t h0 h1 s).2.2.1⟩
def lastSums (c : Dev nD) (t : Fin cfg0.N) (h1 : t.val % 20 = 19) (s : Sums F) : Sums F :=
  ⟨View.canon (lastAt V c t h1 s).2.2.2.1, View.canon (lastAt V c t h1 s).2.2.2.2.1, View.canon (lastAt V c t h1 s).2.2.2.2.2.1⟩

/-- THE ACCUMULATION: the accumulators after the body at position `n`, by recursion on the position — restarted at a
    half's first point, otherwise over what the point before left. -/
def sumsAt (c : Dev nD) : (n : ℕ) → n < cfg0.N → Sums F
  | 0, hn => firstSums V c ⟨0, hn⟩ (Nat.zero_mod _)
  | n + 1, hn =>
    if h0 : (n + 1) % 20 = 0 then firstSums V c ⟨n + 1, hn⟩ h0
    else if h1 : (n + 1) % 20 = 19 then lastSums V c ⟨n + 1, hn⟩ h1 (sumsAt c n (Nat.lt_of_succ_lt hn))
    else midSums V c ⟨n + 1, hn⟩ h0 h1 (sumsAt c n (Nat.lt_of_succ_lt hn))

/-- The position before `t` is a position. -/
theorem pred_lt (t : Fin cfg0.N) : t.val - 1 < cfg0.N := Nat.lt_of_le_of_lt (Nat.sub_le _ _) t.isLt

theorem sumsAt_first (c : Dev nD) (t : Fin cfg0.N) (h0 : t.val % 20 = 0) :
    sumsAt V c t.val t.isLt = firstSums V c t h0 := by
  obtain ⟨n, hn⟩ := t
  cases n with
  | zero => exact rfl
  | succ n => exact (dif_pos h0).trans rfl

theorem sumsAt_mid (c : Dev nD) (t : Fin cfg0.N) (h0 : ¬t.val % 20 = 0) (h1 : ¬t.val % 20 = 19) :
    sumsAt V c t.val t.isLt = midSums V c t h0 h1 (sumsAt V c (t.val - 1) (pred_lt t)) := by
  obtain ⟨n, hn⟩ := t
  cases n with
  | zero => exact absurd (Nat.zero_mod _) h0
  | succ n => exact (dif_neg h0).trans ((dif_neg h1).trans rfl)

theorem sumsAt_last (c : Dev nD) (t : Fin cfg0.N) (h1 : t.val % 20 = 19) :
    sumsAt V c t.val t.isLt = lastSums V c t h1 (sumsAt V c (t.val - 1) (pred_lt t)) := by
  obtain ⟨n, hn⟩ := t
  cases n with
  | zero => exact absurd (show 0 % 20 = 19 from h1) (by decide)
  | succ n => exact (dif_neg (fun h : (n + 1) % 20 = 0 => by have h1' : (n + 1) % 20 = 19 := h1; omega)).trans ((dif_pos h1).trans rfl)

/-- The three output blocks. -/
structure Blocks (F : FTy → Type) where
  a : Vec F S1x200x256 .f32
  c : Vec F S1x200x256 .f32
  q : Vec F S1x1x256 .f32

/-- What the body leaves in the output windows' buffers at point `t`: at a half's last point the copies of the
    accumulators; elsewhere nothing is stored and nothing is written back, and the value is never consulted. -/
def outsAt (c : Dev nD) (t : Fin cfg0.N) : Blocks F :=
  if h1 : t.val % 20 = 19 then
    ⟨View.canon (lastAt V c t h1 (sumsAt V c (t.val - 1) (pred_lt t))).1,
     View.canon (lastAt V c t h1 (sumsAt V c (t.val - 1) (pred_lt t))).2.1,
     View.canon (lastAt V c t h1 (sumsAt V c (t.val - 1) (pred_lt t))).2.2.1⟩
  else ⟨View.canon [], View.canon [], View.canon []⟩

theorem outsAt_last (c : Dev nD) (t : Fin cfg0.N) (h1 : t.val % 20 = 19) :
    outsAt V c t = ⟨View.canon (lastAt V c t h1 (sumsAt V c (t.val - 1) (pred_lt t))).1,
     View.canon (lastAt V c t h1 (sumsAt V c (t.val - 1) (pred_lt t))).2.1,
     View.canon (lastAt V c t h1 (sumsAt V c (t.val - 1) (pred_lt t))).2.2.1⟩ := dif_pos h1

/-! ## The invariant and the proof data -/

/-- Before position `n`: at the region's entry the entry invariant; afterwards the accumulators at what the point
    before left, the riders, and the generator register at some state. -/
def invAt (c : Dev nD) : (n : ℕ) → n ≤ cfg0.N → sProp 𝕄
  | 0, _ => Pipeline.ΦA spec0 c
  | n + 1, hn => iprop(iprop(owns (c : Thread nD τ) accA fullShare (sumsAt V c n hn).a ∗ owns (c : Thread nD τ) accC fullShare (sumsAt V c n hn).c
      ∗ owns (c : Thread nD τ) accQ fullShare (sumsAt V c n hn).q ∗ riders (F := F) c) ∗ (∃ r, prngReg c r))

theorem invAt_zero (c : Dev nD) (n : ℕ) (h : n ≤ cfg0.N) (hz : n = 0) : invAt V c n h = Pipeline.ΦA spec0 c := by
  subst hz; rfl

theorem invAt_succ (c : Dev nD) (n : ℕ) (hn : n < cfg0.N) :
    invAt V c (n + 1) hn = iprop(iprop(owns (c : Thread nD τ) accA fullShare (sumsAt V c n hn).a ∗ owns (c : Thread nD τ) accC fullShare (sumsAt V c n hn).c
      ∗ owns (c : Thread nD τ) accQ fullShare (sumsAt V c n hn).q ∗ riders (F := F) c) ∗ (∃ r, prngReg c r)) := rfl

theorem invAt_pos (c : Dev nD) (n : ℕ) (h : n ≤ cfg0.N) (hz : n ≠ 0) :
    invAt V c n h = iprop(iprop(owns (c : Thread nD τ) accA fullShare (sumsAt V c (n - 1) (by omega)).a ∗ owns (c : Thread nD τ) accC fullShare (sumsAt V c (n - 1) (by omega)).c
      ∗ owns (c : Thread nD τ) accQ fullShare (sumsAt V c (n - 1) (by omega)).q ∗ riders (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt V c t).a
    | ⟨6, _⟩ => (outsAt V c t).c
    | ⟨7, _⟩ => (outsAt V c t).q
  Φ t := invAt V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi_castSucc (c : Dev nD) (t : Fin cfg0.N) :
    (dat0 V c).Φ t.castSucc = invAt V c t.val (Nat.le_of_lt t.isLt) := by
  dsimp only [dat0]; simp only [Fin.coe_castSucc]
theorem after_q (c : Dev nD) (t : Fin cfg0.N) : (dat0 V c).after 0 t = iblk0 V c 0 t := by dsimp only [dat0]
theorem after_m (c : Dev nD) (t : Fin cfg0.N) : (dat0 V c).after 1 t = iblk0 V c 1 t := by dsimp only [dat0]
theorem after_a (c : Dev nD) (t : Fin cfg0.N) : (dat0 V c).after 2 t = iblk0 V c 2 t := by dsimp only [dat0]
theorem after_b (c : Dev nD) (t : Fin cfg0.N) : (dat0 V c).after 3 t = iblk0 V c 3 t := by dsimp only [dat0]
theorem after_c (c : Dev nD) (t : Fin cfg0.N) : (dat0 V c).after 4 t = iblk0 V c 4 t := by dsimp only [dat0]
theorem after_oa (c : Dev nD) (t : Fin cfg0.N) : (dat0 V c).after 5 t = (outsAt V c t).a := by dsimp only [dat0]
theorem after_oc (c : Dev nD) (t : Fin cfg0.N) : (dat0 V c).after 6 t = (outsAt V c t).c := by dsimp only [dat0]
theorem after_oq (c : Dev nD) (t : Fin cfg0.N) : (dat0 V c).after 7 t = (outsAt V c t).q := by dsimp only [dat0]

/-! ## An input's buffer holds its tile at every point, and is left so -/

theorem before_q (c : Dev nD) (t : Fin cfg0.N) (d) : (dat0 V c).before 0 t d = iblk0 V c 0 t :=
  ((dat0 V c).before_in_eq_fetched 0 rfl (fun _ => rfl) (fun _ _ _ => rfl)
    (fun t => by rw [after_q]; unfold Dat.blockOf iblk0; rw [A_eq0]; try rfl) t d).trans
    (by unfold Dat.fetched Dat.blockOf iblk0; rw [A_eq0]; try rfl)
theorem leaves_q (c : Dev nD) (t : Fin cfg0.N) :
    (dat0 V c).leavesExact 0 t = owns (c : Thread nD τ) (st_q t) fullShare (iblk0 V c 0 t) := by
  rw [show (dat0 V c).leavesExact 0 t = owns (c : Thread nD τ) (st_q t) fullShare ((dat0 V c).after 0 t) from by
    unfold Dat.leavesExact; rw [in_live 0 (by decide) (grid0.coords t)], after_q]

theorem before_m (c : Dev nD) (t : Fin cfg0.N) (d) : (dat0 V c).before 1 t d = iblk0 V c 1 t :=
  ((dat0 V c).before_in_eq_fetched 1 rfl (fun _ => rfl) (fun _ _ _ => rfl)
    (fun t => by rw [after_m]; unfold Dat.blockOf iblk0; rw [A_eq0]; try rfl) t d).trans
    (by unfold Dat.fetched Dat.blockOf iblk0; rw [A_eq0]; try rfl)
theorem leaves_m (c : Dev nD) (t : Fin cfg0.N) :
    (dat0 V c).leavesExact 1 t = owns (c : Thread nD τ) (st_m t) fullShare (iblk0 V c 1 t) := by
  rw [show (dat0 V c).leavesExact 1 t = owns (c : Thread nD τ) (st_m t) fullShare ((dat0 V c).after 1 t) from by
    unfold Dat.leavesExact; rw [in_live 1 (by decide) (grid0.coords t)], after_m]

theorem before_a (c : Dev nD) (t : Fin cfg0.N) (d) : (dat0 V c).before 2 t d = iblk0 V c 2 t :=
  ((dat0 V c).before_in_eq_fetched 2 rfl (fun _ => rfl) (fun _ _ _ => rfl)
    (fun t => by rw [after_a]; unfold Dat.blockOf iblk0; rw [A_eq0]; try rfl) t d).trans
    (by unfold Dat.fetched Dat.blockOf iblk0; rw [A_eq0]; try rfl)
theorem leaves_a (c : Dev nD) (t : Fin cfg0.N) :
    (dat0 V c).leavesExact 2 t = owns (c : Thread nD τ) (st_a t) fullShare (iblk0 V c 2 t) := by
  rw [show (dat0 V c).leavesExact 2 t = owns (c : Thread nD τ) (st_a t) fullShare ((dat0 V c).after 2 t) from by
    unfold Dat.leavesExact; rw [in_live 2 (by decide) (grid0.coords t)], after_a]

theorem before_b (c : Dev nD) (t : Fin cfg0.N) (d) : (dat0 V c).before 3 t d = iblk0 V c 3 t :=
  ((dat0 V c).before_in_eq_fetched 3 rfl (fun _ => rfl) (fun _ _ _ => rfl)
    (fun t => by rw [after_b]; unfold Dat.blockOf iblk0; rw [A_eq0]; try rfl) t d).trans
    (by unfold Dat.fetched Dat.blockOf iblk0; rw [A_eq0]; try rfl)
theorem leaves_b (c : Dev nD) (t : Fin cfg0.N) :
    (dat0 V c).leavesExact 3 t = owns (c : Thread nD τ) (st_b t) fullShare (iblk0 V c 3 t) := by
  rw [show (dat0 V c).leavesExact 3 t = owns (c : Thread nD τ) (st_b t) fullShare ((dat0 V c).after 3 t) from by
    unfold Dat.leavesExact; rw [in_live 3 (by decide) (grid0.coords t)], after_b]

theorem before_c (c : Dev nD) (t : Fin cfg0.N) (d) : (dat0 V c).before 4 t d = iblk0 V c 4 t :=
  ((dat0 V c).before_in_eq_fetched 4 rfl (fun _ => rfl) (fun _ _ _ => rfl)
    (fun t => by rw [after_c]; unfold Dat.blockOf iblk0; rw [A_eq0]; try rfl) t d).trans
    (by unfold Dat.fetched Dat.blockOf iblk0; rw [A_eq0]; try rfl)
theorem leaves_c (c : Dev nD) (t : Fin cfg0.N) :
    (dat0 V c).leavesExact 4 t = owns (c : Thread nD τ) (st_c t) fullShare (iblk0 V c 4 t) := by
  rw [show (dat0 V c).leavesExact 4 t = owns (c : Thread nD τ) (st_c t) fullShare ((dat0 V c).after 4 t) from by
    unfold Dat.leavesExact; rw [in_live 4 (by decide) (grid0.coords t)], after_c]

/-! ## The body obligation -/

/-- What the body is called with at point `t`: the invariant, the core's debts, each window's current buffer. -/
def bodyPre (c : Dev nD) (t : Fin cfg0.N) : sProp 𝕄 :=
  iprop((dat0 V c).Φ t.castSucc ∗ (dat0 V c).owesAt () t.castSucc
    ∗ (∃ d, owns (c : Thread nD τ) (st_q t) fullShare ((dat0 V c).before 0 t d))
    ∗ (∃ d, owns (c : Thread nD τ) (st_m t) fullShare ((dat0 V c).before 1 t d))
    ∗ (∃ d, owns (c : Thread nD τ) (st_a t) fullShare ((dat0 V c).before 2 t d))
    ∗ (∃ d, owns (c : Thread nD τ) (st_b t) fullShare ((dat0 V c).before 3 t d))
    ∗ (∃ d, owns (c : Thread nD τ) (st_c t) fullShare ((dat0 V c).before 4 t d))
    ∗ (∃ d, owns (c : Thread nD τ) (st_oa t) fullShare ((dat0 V c).before 5 t d))
    ∗ (∃ d, owns (c : Thread nD τ) (st_oc t) fullShare ((dat0 V c).before 6 t d))
    ∗ (∃ d, owns (c : Thread nD τ) (st_oq t) fullShare ((dat0 V c).before 7 t d)))

/-- What it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- A half's first point: the accumulators arrive at anything (the entry invariant at the very first point, the other
    half's totals at point 20) and leave at this point's sums; the outputs go back as found. -/
theorem step_first (c : Dev nD) (t : Fin cfg0.N) (h0 : t.val % 20 = 0) :
    bodyPre V c t ⊢ wp frame (wpE (defs₀ (F := F)) Variants.none c none) Set.univ (bodyAt0 t) (fun _ => bodyPost V c t) := by
  have h1 : ¬t.val % 20 = 19 := by omega
  unfold bodyPre bodyPost bodyAt0
  simp only [before_q, before_m, before_a, before_b, before_c]
  rw [show (dat0 V c).owesAt () t.succ = (dat0 V c).owesAt () t.castSucc from rfl]
  rw [show (dat0 V c).Φ t.succ = invAt V c (t.val + 1) t.isLt from rfl, invAt_succ]
  rw [leaves_q, leaves_m, leaves_a, leaves_b, leaves_c]
  rw [Dat.leavesExact_idle (dat0 V c) 5 t (out_idle _ (first_not_last t h0)).1 (out_kept t h1).1,
    Dat.leavesExact_idle (dat0 V c) 6 t (out_idle _ (first_not_last t h0)).2.1 (out_kept t h1).2.1,
    Dat.leavesExact_idle (dat0 V c) 7 t (out_idle _ (first_not_last t h0)).2.2 (out_kept t h1).2.2]
  rw [sumsAt_first V c t h0]
  unfold firstSums; (try dsimp only)
  by_cases hz : t.val = 0
  · rw [Phi_castSucc V c t, invAt_zero V c _ _ hz, entry_open]
    iintro ⟨⟨⟨Sa, Sc, Sq, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t h0).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Sa]; · iexact Sa
    isplitl [Sc]; · iexact Sc
    isplitl [Sq]; · iexact Sq
    iintro ⟨H0, H1, H2, H3, H4, H5, H6, H7, ⟨%e0, Sa⟩, ⟨%e1, Sc⟩, ⟨%e2, Sq⟩⟩
    isplitl [Sa Sc Sq Hr Hg]
    · isplitr [Hg]
      · isplitl [Sa]
        · unfold owns; iexists _; isplitr
          swap; · iexact Sa
          ipureintro; exact View.read_writes_eq_canon _ _ _ (first_cov_a V c t h0)
        isplitl [Sc]
        · unfold owns; iexists _; isplitr
          swap; · iexact Sc
          ipureintro; exact View.read_writes_eq_canon _ _ _ (first_cov_c V c t h0)
        isplitl [Sq]
        · unfold owns; iexists _; isplitr
          swap; · iexact Sq
          ipureintro; exact View.read_writes_eq_canon _ _ _ (first_cov_q V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  · rw [Phi_castSucc V c t, invAt_pos V c _ _ hz]
    iintro ⟨⟨⟨Sa, Sc, Sq, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt V c t h0).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Sa]; · iexists _; iexact Sa
    isplitl [Sc]; · iexists _; iexact Sc
    isplitl [Sq]; · iexists _; iexact Sq
    iintro ⟨H0, H1, H2, H3, H4, H5, H6, H7, ⟨%e0, Sa⟩, ⟨%e1, Sc⟩, ⟨%e2, Sq⟩⟩
    isplitl [Sa Sc Sq Hr Hg]
    · isplitr [Hg]
      · isplitl [Sa]
        · unfold owns; iexists _; isplitr
          swap; · iexact Sa
          ipureintro; exact View.read_writes_eq_canon _ _ _ (first_cov_a V c t h0)
        isplitl [Sc]
        · unfold owns; iexists _; isplitr
          swap; · iexact Sc
          ipureintro; exact View.read_writes_eq_canon _ _ _ (first_cov_c V c t h0)
        isplitl [Sq]
        · unfold owns; iexists _; isplitr
          swap; · iexact Sq
          ipureintro; exact View.read_writes_eq_canon _ _ _ (first_cov_q V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

set_option maxHeartbeats 4000000 in
/-- A point strictly inside a half: the accumulators arrive at what the point before left and leave at this point's
    sums; the outputs go back as found. -/
theorem step_mid (c : Dev nD) (t : Fin cfg0.N) (h0 : ¬t.val % 20 = 0) (h1 : ¬t.val % 20 = 19) :
    bodyPre V c t ⊢ wp frame (wpE (defs₀ (F := F)) Variants.none c none) Set.univ (bodyAt0 t) (fun _ => bodyPost V c t) := by
  have hz : t.val ≠ 0 := fun e => h0 (by rw [e])
  unfold bodyPre bodyPost bodyAt0
  simp only [before_q, before_m, before_a, before_b, before_c]
  rw [show (dat0 V c).owesAt () t.succ = (dat0 V c).owesAt () t.castSucc from rfl]
  rw [show (dat0 V c).Φ t.succ = invAt V c (t.val + 1) t.isLt from rfl, invAt_succ]
  rw [leaves_q, leaves_m, leaves_a, leaves_b, leaves_c]
  rw [Dat.leavesExact_idle (dat0 V c) 5 t (out_idle _ (fun h => h1 ((atLast_iff t).mp h))).1 (out_kept t h1).1,
    Dat.leavesExact_idle (dat0 V c) 6 t (out_idle _ (fun h => h1 ((atLast_iff t).mp h))).2.1 (out_kept t h1).2.1,
    Dat.leavesExact_idle (dat0 V c) 7 t (out_idle _ (fun h => h1 ((atLast_iff t).mp h))).2.2 (out_kept t h1).2.2]
  rw [sumsAt_mid V c t h0 h1]
  unfold midSums; (try dsimp only)
  rw [Phi_castSucc V c t, invAt_pos V c _ _ hz]
  iintro ⟨⟨⟨Sa, Sc, Sq, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((midAt V c t h0 h1 _).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Sa]; · iexact Sa
  isplitl [Sc]; · iexact Sc
  isplitl [Sq]; · iexact Sq
  iintro ⟨H0, H1, H2, H3, H4, H5, H6, H7, ⟨%e0, Sa⟩, ⟨%e1, Sc⟩, ⟨%e2, Sq⟩⟩
  isplitl [Sa Sc Sq Hr Hg]
  · isplitr [Hg]
    · isplitl [Sa]
      · unfold owns; iexists _; isplitr
        swap; · iexact Sa
        ipureintro; exact View.read_writes_eq_canon _ _ _ (mid_cov_a V c t h0 h1 _)
      isplitl [Sc]
      · unfold owns; iexists _; isplitr
        swap; · iexact Sc
        ipureintro; exact View.read_writes_eq_canon _ _ _ (mid_cov_c V c t h0 h1 _)
      isplitl [Sq]
      · unfold owns; iexists _; isplitr
        swap; · iexact Sq
        ipureintro; exact View.read_writes_eq_canon _ _ _ (mid_cov_q V c t h0 h1 _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 4000000 in
/-- A half's last point: as inside, and the three output blocks leave at the copies of the accumulators. -/
theorem step_last (c : Dev nD) (t : Fin cfg0.N) (h1 : t.val % 20 = 19) :
    bodyPre V c t ⊢ wp frame (wpE (defs₀ (F := F)) Variants.none c none) Set.univ (bodyAt0 t) (fun _ => bodyPost V c t) := by
  have hz : t.val ≠ 0 := fun e => by rw [e] at h1; exact absurd h1 (by decide)
  unfold bodyPre bodyPost bodyAt0
  simp only [before_q, before_m, before_a, before_b, before_c]
  rw [show (dat0 V c).owesAt () t.succ = (dat0 V c).owesAt () t.castSucc from rfl]
  rw [show (dat0 V c).Φ t.succ = invAt V c (t.val + 1) t.isLt from rfl, invAt_succ]
  rw [leaves_q, leaves_m, leaves_a, leaves_b, leaves_c]
  rw [show (dat0 V c).leavesExact 5 t = owns (c : Thread nD τ) (st_oa t) fullShare ((dat0 V c).after 5 t) from by
    unfold Dat.leavesExact; rw [(out_live _ ((atLast_iff t).mpr h1)).1], after_oa]
  rw [show (dat0 V c).leavesExact 6 t = owns (c : Thread nD τ) (st_oc t) fullShare ((dat0 V c).after 6 t) from by
    unfold Dat.leavesExact; rw [(out_live _ ((atLast_iff t).mpr h1)).2.1], after_oc]
  rw [show (dat0 V c).leavesExact 7 t = owns (c : Thread nD τ) (st_oq t) fullShare ((dat0 V c).after 7 t) from by
    unfold Dat.leavesExact; rw [(out_live _ ((atLast_iff t).mpr h1)).2.2], after_oq]
  rw [outsAt_last V c t h1, sumsAt_last V c t h1]
  unfold lastSums; (try dsimp only)
  rw [Phi_castSucc V c t, invAt_pos V c _ _ hz]
  iintro ⟨⟨⟨Sa, Sc, Sq, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((lastAt V c t h1 _).2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [Sa]; · iexact Sa
  isplitl [Sc]; · iexact Sc
  isplitl [Sq]; · iexact Sq
  iintro ⟨H0, H1, H2, H3, H4, ⟨%e5, H5⟩, ⟨%e6, H6⟩, ⟨%e7, H7⟩, ⟨%e0, Sa⟩, ⟨%e1, Sc⟩, ⟨%e2, Sq⟩⟩
  isplitl [Sa Sc Sq Hr Hg]
  · isplitr [Hg]
    · isplitl [Sa]
      · unfold owns; iexists _; isplitr
        swap; · iexact Sa
        ipureintro; exact View.read_writes_eq_canon _ _ _ (last_cov_a V c t h1 _)
      isplitl [Sc]
      · unfold owns; iexists _; isplitr
        swap; · iexact Sc
        ipureintro; exact View.read_writes_eq_canon _ _ _ (last_cov_c V c t h1 _)
      isplitl [Sq]
      · unfold owns; iexists _; isplitr
        swap; · iexact Sq
        ipureintro; exact View.read_writes_eq_canon _ _ _ (last_cov_q V c t h1 _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (last_cov_oa V c t h1 _)
  isplitl [H6]
  · unfold owns; iexists _; isplitr
    swap; · iexact H6
    ipureintro; exact View.read_writes_eq_canon _ _ _ (last_cov_oc V c t h1 _)
  unfold owns; iexists _; isplitr
  swap; · iexact H7
  ipureintro; exact View.read_writes_eq_canon _ _ _ (last_cov_oq V c t h1 _)

/-- The library's body obligation, at every point: the point's residue mod 20 says which of the three runs applies. -/
theorem body_obligation0 (c : Dev nD) : BodyObligation (dat0 (F := F) V c) (defs₀ (F := F)) Variants.none () Set.univ := fun t => by
  rw [bigSep_W0, bigSep_W0]
  by_cases h0 : t.val % 20 = 0
  · exact step_first V c t h0
  · by_cases h1 : t.val % 20 = 19
    · exact step_last V c t h1
    · exact step_mid V c t h0 h1

/-- What the launch hands the region is the invariant before the first point. -/
theorem hin0 (c : Dev nD) : Pipeline.ΦA spec0 c ⊢ (dat0 V c).Φ 0 := by
  rw [show (dat0 V c).Φ 0 = invAt V c 0 (Nat.zero_le _) from rfl, invAt_zero V c 0 _ rfl]
  try exact Idealize.SL.BI.Entails.refl _

/-- After the last point the invariant gives the entry invariant back: the accumulators' named contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 40 := N_0; omega
  rw [show (dat0 V c).Φ (Fin.last cfg0.N) = invAt V c (Fin.last cfg0.N).val (Nat.le_of_lt_succ (Fin.last cfg0.N).isLt) from rfl,
    invAt_pos V c _ _ hN, entry_open]
  iintro ⟨⟨Sa, Sc, Sq, Hr⟩, Hg⟩
  isplitr [Hg]
  · isplitl [Sa]; · iexists _; iexact Sa
    isplitl [Sc]; · iexists _; iexact Sc
    isplitl [Sq]; · iexists _; iexact Sq
    iexact Hr
  iexact Hg

end Cert.KernelIdeal.Enc

end
-- ==== Proof.KI.Dec.lean ====
import proofs.«142703_j28621662061019_2_alg».proof.Proof.Gen.KernelIdeal.Launch
import proofs.«142703_j28621662061019_2_alg».proof.Proof.Gen.KernelIdeal.Skeleton
import proofs.«142703_j28621662061019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's three accesses

The decode body touches each of its staging buffers through one rectangle, and each rectangle is the whole
buffer: the row vector (1 × 256), the weight tile (12800 × 256) and the output row (1 × 12800). -/

abbrev boxQ : Rect S1x256 := Rect.unit (s := S1x256) ![0, 0] S1x256.size inb_S1x256_S1x256_0_0
abbrev boxW : Rect S12800x256 := Rect.unit (s := S12800x256) ![0, 0] S12800x256.size inb_S12800x256_S12800x256_0_0
abbrev boxO : Rect S1x12800 := Rect.unit (s := S1x12800) ![0, 0] S1x12800.size inb_S1x12800_S1x12800_0_0

/-- The output staging buffer once the body has run, as a function of what the two input buffers read: the body
    stores once, the product of the row vector with the transposed weight tile, over the whole buffer. -/
def stored1 (q : Vec F S1x256 .f32) (wt : Vec F S12800x256 .f32) : Vec F S1x12800 .f32 :=
  View.canon [⟨boxO, k1_pay1 (View.ld q boxQ) (View.ld wt boxW)⟩]

/-- The single store's rectangle has as many elements as the buffer, so every index of the buffer lies in it. -/
theorem stored1_covers (p : Vec F S1x12800 .f32) (y : S1x12800.Idx) :
    ∃ pc ∈ ([⟨boxO, p⟩] : List (View.Piece (Elt F) S1x12800 .f32)), y ∈ pc.1.set :=
  View.cover_of_tiled [⟨boxO, p⟩] S1x12800.size (by rfl) y

/-! ## The body on whole staging buffers -/

set_option maxHeartbeats 1000000 in
/-- Run on three whole staging buffers — the inputs' reading `q` and `wt`, the output's holding anything — the
    decode body ends with the inputs' as they were and the output's reading `stored1 q wt`: two loads, a load of the
    output buffer whose value is dropped, and the one store, which overwrites every index. -/
theorem decode_runs (c : Dev nD) (E : Set ℕ) (i : grid1.Coords)
    (a1 : Memref sig .tc .vmem S1x256 .f32) (h1 : a1.IsWhole) (a2 : Memref sig .tc .vmem S12800x256 .f32) (h2 : a2.IsWhole)
    (a3 : Memref sig .tc .vmem S1x12800 .f32) (h3 : a3.IsWhole)
    (q : Vec F S1x256 .f32) (wt : Vec F S12800x256 .f32) (K : PUnit → sProp 𝕄) :
    iprop(owns (c : Thread nD τ) a1 fullShare q ∗ owns (c : Thread nD τ) a2 fullShare wt ∗ (∃ d, owns (c : Thread nD τ) a3 fullShare d)
        ∗ (iprop(owns (c : Thread nD τ) a1 fullShare q ∗ owns (c : Thread nD τ) a2 fullShare wt
              ∗ owns (c : Thread nD τ) a3 fullShare (stored1 q wt)) -∗ K ⟨⟩))
      ⊢ wp frame (wpE (defs₀ (F := F)) Variants.none c none) E (cc1__decode_kernel i a1 h1 a2 h2 a3 h3) K := by
  simp only [cc1__decode_kernel_eq_skeleton]; unfold cc1__decode_kernel_skel
  unfold owns
  iintro ⟨⟨%f1, %e1, H1⟩, ⟨%f2, %e2, H2⟩, ⟨%d3, %f3, -, H3⟩, Hk⟩
  subst e1; subst e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored1_covers _)

/-! ## The proof data -/

/-- The region's proof data on core `c`: the three arrays as the region finds them; after the body at point `t` the
    two input buffers still hold their blocks and the output buffer holds `stored1` of those blocks; the invariant is
    the class's (everything the body does not name, untouched); nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => stored1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem left1_q (c : Dev nD) (t : Fin cfg1.N) : (dat1 V c).after 0 t = iblk1 V c 0 t := by dsimp only [dat1]
theorem left1_w (c : Dev nD) (t : Fin cfg1.N) : (dat1 V c).after 1 t = iblk1 V c 1 t := by dsimp only [dat1]
theorem left1_o (c : Dev nD) (t : Fin cfg1.N) :
    (dat1 V c).after 2 t = stored1 (iblk1 V c 0 t) (iblk1 V c 1 t) := by dsimp only [dat1]

/-- The row vector's buffer holds the row vector at every point, although it is fetched at the first point only: its
    block index never moves and the body leaves the buffer as it found it. -/
theorem found1_q (c : Dev nD) (t : Fin cfg1.N) (d) : (dat1 V c).before 0 t d = iblk1 V c 0 t :=
  ((dat1 V c).before_in_eq_fetched 0 rfl (fun _ => rfl) (fun _ _ _ => rfl)
      (fun t => by rw [left1_q]; unfold Dat.blockOf iblk1; rw [A_eq1]; try rfl) t d).trans
    (by unfold Dat.fetched Dat.blockOf iblk1; rw [A_eq1]; try rfl)

/-- The weight tile's buffer holds the tile of the point: it is fetched at every point. -/
theorem found1_w (c : Dev nD) (t : Fin cfg1.N) (d) : (dat1 V c).before 1 t d = iblk1 V c 1 t :=
  ((dat1 V c).before_in_eq_fetched 1 rfl (fun _ => rfl) (fun _ _ _ => rfl)
      (fun t => by rw [left1_w]; unfold Dat.blockOf iblk1; rw [A_eq1]; try rfl) t d).trans
    (by unfold Dat.fetched Dat.blockOf iblk1; rw [A_eq1]; try rfl)

/-! ## The body obligation -/

/-- The body as the pipeline calls it at point `t`: handed the invariant, what the core owes and the three current
    staging buffers at what they hold there, it gives all of them back, the buffers at what the proof data say. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t))) := by
  unfold bodyAt1
  simp only [found1_q, found1_w]
  rw [show (dat1 V c).Φ t.succ = (dat1 V c).Φ t.castSucc from rfl,
    show (dat1 V c).owesAt () t.succ = (dat1 V c).owesAt () t.castSucc from rfl,
    left1_q, left1_w, left1_o]
  iintro ⟨HΦ, Ho, ⟨%d0, H0⟩, ⟨%d1, H1⟩, ⟨%d2, H2⟩⟩
  iapply (decode_runs c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact body_at1 V c t

end Cert.KernelIdeal.Dec

end
-- ==== Proof.KI.Run.lean ====
import proofs.«142703_j28621662061019_2_alg».proof.Proof.KI.Enc
import proofs.«142703_j28621662061019_2_alg».proof.Proof.KI.Dec

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the four items of @main

@main is: the first kernel region, two stretches of host operations, the second kernel region. The contents of
core `c`'s unscoped buffers at each boundary are a fold from the launch memory: a region replaces its windows' arrays
by what its write-backs leave, a stretch of host operations applies each operation to the valuation. -/

/-- At launch. -/
abbrev W0 : Dev nD → Valuation τ sig (Elt F) := fun c b => m (c, b)
/-- The same read at the TensorCore's references: what the first region's proof data are stated at. -/
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (Enc.dat0 (V0 m) c).arrAt w cfg0.N
theorem W1_arr (c : Dev nD) (w : Fin cfg0.W) :
    W1 m c (Proc.devRef .tc (Pipeline.arrRef spec0 w)) = (Enc.dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Enc.dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the first stretch of host operations. -/
abbrev W2 : Dev nD → Valuation τ sig (Elt F) := fun c => StableHlo.after main_part0_ops0 (W1 m c)
/-- After the second stretch: the second region's entry contents. -/
abbrev W3 : Dev nD → Valuation τ sig (Elt F) := fun c => StableHlo.after main_part1_ops0 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (Dec.dat1 (V3 m) c).arrAt w cfg1.N
theorem W4_arr (c : Dev nD) (w : Fin cfg1.W) :
    W4 m c (Proc.devRef .tc (Pipeline.arrRef spec1 w)) = (Dec.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Dec.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What the host operations write -/

theorem ops0_fresh : (main_part0_ops0 : List (HloOp τ sig (Elt F))).Forall fun op => op.fresh = ∅ := by
  simp only [List.Forall]; repeat' constructor
theorem ops1_fresh : (main_part1_ops0 : List (HloOp τ sig (Elt F))).Forall fun op => op.fresh = ∅ := by
  simp only [List.Forall]; repeat' constructor
/-- The buffers the first stretch writes: one result buffer per operation. -/
abbrev ops0_W : List (Ref sig .tc) := [main_v1, main_v2, main_v3, main_v4, main_v5, main_v6, main_v7, main_v8, main_v9, main_v10, main_v11, main_v12, main_v13, main_v14, main_v15, main_v16, main_v17, main_v18, main_v19, main_cst, main_v20, main_cst_0, main_v21, main_v22, main_v23, main_v24, main_v25, main_v26, main_cst_1, main_v27, main_v28, main_v29, main_v30, main_v31, main_v32, main_v33, main_v34, main_cst_2, main_v35, main_cst_3, main_v36, main_v37, main_v38, main_v39, main_v40, main_v41, main_cst_4, main_v42, main_v43, main_v44, main_v45, main_v46, main_v47, main_v48, main_v49, main_cst_5, main_v50, main_cst_6, main_v51]
/-- The buffers the second stretch writes. -/
abbrev ops1_W : List (Ref sig .tc) := [main_v52, main_v53, main_v54, main_v55, main_v56, main_cst_7, main_v57, main_v58, main_v59, main_v60, main_v61, main_v62]
set_option maxHeartbeats 4000000 in
theorem ops0_writes : (main_part0_ops0 : List (HloOp τ sig (Elt F))).Forall fun op => op.writes ⊆ (ops0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem ops1_writes : (main_part1_ops0 : List (HloOp τ sig (Elt F))).Forall fun op => op.writes ⊆ (ops1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_⟩ <;> exact List.mem_map_of_mem (by decide))

/-! ## The arguments end as launched -/

/-- `main_arg0` ends as launched: no host operation writes it and no region's write-back touches it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub main_part1_ops0 _ ops1_writes (by decide)
    _ = W1 m c (Proc.devRef .tc main_arg0) := StableHlo.after_of_writes_sub main_part0_ops0 _ ops0_writes (by decide)
    _ = W0 m c (Proc.devRef .tc main_arg0) := (W1_arr m c 0).trans (((Enc.dat0 (V0 m) c).arrAt_in 0 rfl _).trans (Enc.A_eq0 (V0 m) c 0))
    _ = m ((c : Thread nD τ).loc main_arg0) := rfl

/-- `main_arg1` ends as launched: no host operation writes it and no region's write-back touches it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub main_part1_ops0 _ ops1_writes (by decide)
    _ = W1 m c (Proc.devRef .tc main_arg1) := StableHlo.after_of_writes_sub main_part0_ops0 _ ops0_writes (by decide)
    _ = W0 m c (Proc.devRef .tc main_arg1) := (W1_arr m c 1).trans (((Enc.dat0 (V0 m) c).arrAt_in 1 rfl _).trans (Enc.A_eq0 (V0 m) c 1))
    _ = m ((c : Thread nD τ).loc main_arg1) := rfl

/-- `main_arg2` ends as launched: no host operation writes it and no region's write-back touches it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub main_part1_ops0 _ ops1_writes (by decide)
    _ = W1 m c (Proc.devRef .tc main_arg2) := StableHlo.after_of_writes_sub main_part0_ops0 _ ops0_writes (by decide)
    _ = W0 m c (Proc.devRef .tc main_arg2) := (W1_arr m c 2).trans (((Enc.dat0 (V0 m) c).arrAt_in 2 rfl _).trans (Enc.A_eq0 (V0 m) c 2))
    _ = m ((c : Thread nD τ).loc main_arg2) := rfl

/-- `main_arg3` ends as launched: no host operation writes it and no region's write-back touches it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub main_part1_ops0 _ ops1_writes (by decide)
    _ = W1 m c (Proc.devRef .tc main_arg3) := StableHlo.after_of_writes_sub main_part0_ops0 _ ops0_writes (by decide)
    _ = W0 m c (Proc.devRef .tc main_arg3) := (W1_arr m c 3).trans (((Enc.dat0 (V0 m) c).arrAt_in 3 rfl _).trans (Enc.A_eq0 (V0 m) c 3))
    _ = m ((c : Thread nD τ).loc main_arg3) := rfl

/-- `main_arg4` ends as launched: no host operation writes it and no region's write-back touches it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub main_part1_ops0 _ ops1_writes (by decide)
    _ = W1 m c (Proc.devRef .tc main_arg4) := StableHlo.after_of_writes_sub main_part0_ops0 _ ops0_writes (by decide)
    _ = W0 m c (Proc.devRef .tc main_arg4) := (W1_arr m c 4).trans (((Enc.dat0 (V0 m) c).arrAt_in 4 rfl _).trans (Enc.A_eq0 (V0 m) c 4))
    _ = m ((c : Thread nD τ).loc main_arg4) := rfl

/-- `main_arg5` ends as launched: no host operation writes it and no region's write-back touches it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 1).trans (((Dec.dat1 (V3 m) c).arrAt_in 1 rfl _).trans (Dec.A_eq1 (V3 m) c 1))
    _ = W2 m c (Proc.devRef .tc main_arg5) := StableHlo.after_of_writes_sub main_part1_ops0 _ ops1_writes (by decide)
    _ = W1 m c (Proc.devRef .tc main_arg5) := StableHlo.after_of_writes_sub main_part0_ops0 _ ops0_writes (by decide)
    _ = W0 m c (Proc.devRef .tc main_arg5) := W1_of_ne m c main_arg5 (by decide)
    _ = m ((c : Thread nD τ).loc main_arg5) := rfl

/-- `main_arg6` ends as launched: no host operation writes it and no region's write-back touches it. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub main_part1_ops0 _ ops1_writes (by decide)
    _ = W1 m c (Proc.devRef .tc main_arg6) := StableHlo.after_of_writes_sub main_part0_ops0 _ ops0_writes (by decide)
    _ = W0 m c (Proc.devRef .tc main_arg6) := W1_of_ne m c main_arg6 (by decide)
    _ = m ((c : Thread nD τ).loc main_arg6) := rfl

/-- `main_arg7` ends as launched: no host operation writes it and no region's write-back touches it. -/
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub main_part1_ops0 _ ops1_writes (by decide)
    _ = W1 m c (Proc.devRef .tc main_arg7) := StableHlo.after_of_writes_sub main_part0_ops0 _ ops0_writes (by decide)
    _ = W0 m c (Proc.devRef .tc main_arg7) := W1_of_ne m c main_arg7 (by decide)
    _ = m ((c : Thread nD τ).loc main_arg7) := rfl

/-- The result buffer ends at what the second region's write-backs leave. -/
theorem W4_main_v63 (c : Dev nD) : W4 m c (Proc.devRef .tc main_v63) = (Dec.dat1 (V3 m) c).arrAt 2 cfg1.N := W4_arr m c 2

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Enc.dat0 (V0 m) c
  | ⟨1, _⟩ => fun c => Dec.dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment between thread states: entered with every unscoped buffer at `W0`, left with them at
    `W1`. Its windows' arrays are split out of the unscoped buffers at entry and joined back at their written-back
    contents at exit; the generator register goes into the kernel's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : (iprop(Pipeline.scopedRest spec0 c ∗ ∃ r, prngReg c r) : sProp 𝕄) ⊢ (pdats m 0 c).Φ 0 := by
      have h : (Pipeline.ΦA spec0 c : sProp 𝕄) ⊢ (pdats m 0 c).Φ 0 := Enc.hin0 (V0 m) c
      unfold Pipeline.ΦA at h; exact h
    iintro ⟨Hp, -, Hr⟩
    iapply key
    isplitl [Hr]; · iexact Hr
    iexact Hp
  hout c := by
    rw [Pipeline.ownSems0_none]
    have key : (pdats m 0 c).Φ (Fin.last _) ⊢ (iprop(Pipeline.scopedRest spec0 c ∗ ∃ r, prngReg c r) : sProp 𝕄) := by
      have h : (pdats m 0 c).Φ (Fin.last _) ⊢ (Pipeline.ΦA spec0 c : sProp 𝕄) := Enc.hout0 (V0 m) c
      unfold Pipeline.ΦA at h; exact h
    iintro H
    ihave H2 := key $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment between thread states: entered with every unscoped buffer at `W3`, left with them at
    `W4`. Its windows' arrays are split out of the unscoped buffers at entry and joined back at their written-back
    contents at exit; the generator register goes into the kernel's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : (iprop(Pipeline.scopedRest spec1 c ∗ ∃ r, prngReg c r) : sProp 𝕄) ⊢ (pdats m 1 c).Φ 0 := by
      have h : (Pipeline.ΦA spec1 c : sProp 𝕄) ⊢ (pdats m 1 c).Φ 0 := BI.Entails.refl _
      unfold Pipeline.ΦA at h; exact h
    iintro ⟨Hp, -, Hr⟩
    iapply key
    isplitl [Hr]; · iexact Hr
    iexact Hp
  hout c := by
    rw [Pipeline.ownSems0_none]
    have key : (pdats m 1 c).Φ (Fin.last _) ⊢ (iprop(Pipeline.scopedRest spec1 c ∗ ∃ r, prngReg c r) : sProp 𝕄) := by
      have h : (pdats m 1 c).Φ (Fin.last _) ⊢ (Pipeline.ΦA spec1 c : sProp 𝕄) := BI.Entails.refl _
      unfold Pipeline.ΦA at h; exact h
    iintro H
    ihave H2 := key $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .host (hseg main_part0_ops0 main_part0_ops0_sub ops0_fresh (W1 m)),
    .host (hseg main_part1_ops0 main_part1_ops0_sub ops1_fresh (W2 m)),
    .region (reg1 m) ]
theorem main_run (c : Dev nD) : main (F := F) c = Pipeline.Seg.run (segs m) := (main_chain_windows c).trans (by chain_rfl)

set_option backward.isDefEq.respectTransparency.types false in
/-- Every weakly fair execution of @main from memory `m` with zero counters terminates, nothing faulting, and in every
    final state each unscoped buffer of core `c` holds the last boundary's contents `W4 m c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends at its launch contents, and the result array at what the second region's
    write-backs leave. -/
theorem run_result : θ_run defs (onTc (τ := τ) (main (F := F))) ⟨m, fun _ => 0, ρ⟩ (fun r => ∀ c : Dev nD,
      r.2.mem ((c.tc : Thread nD τ).loc main_v63) = (Dec.dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v63 (by decide))).trans (W4_main_v63 m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c)⟩) (run_main m ρ)

end Cert.KernelIdeal.Run

end
-- ==== Proof.Hops.lean ====
import Idealize.ShloMosaic.Lib.StableHlo
import Idealize.ShloMosaic.PureOps

noncomputable section

namespace Cert.Hops

open Idealize.ShloMosaic

abbrev S1x256 : Shape := ⟨2, ![1, 256]⟩
abbrev S200x256 : Shape := ⟨2, ![200, 256]⟩
abbrev S256x200 : Shape := ⟨2, ![256, 200]⟩
abbrev S1x200 : Shape := ⟨2, ![1, 200]⟩
abbrev S_ : Shape := ⟨0, ![]⟩
abbrev S1 : Shape := ⟨1, ![1]⟩
abbrev S1x1 : Shape := ⟨2, ![1, 1]⟩

variable {F : FTy → Type} [FloatOps F]

/-- The side conditions one round of memory addressing cites: the transpose of the address matrix, the two products'
    dimension records, the reduction over the slots and the broadcasts of the row maximum and the row sum. -/
structure Side where
  tr : S200x256.Transposes [1, 0] S256x200
  dA : DotDims S1x256 S256x200 S1x200
  dC : DotDims S1x200 S200x256 S1x256
  red : S1x200.ReducesTo [1] S1
  pos : 0 < S_.numel
  b0 : S_.BroadcastsInDim S1 (![] : Fin 0 → Fin S1.rank)
  b1 : S1.BroadcastsInDim S1x1 (![0] : Fin 1 → Fin S1x1.rank)
  b2 : S1x1.BroadcastsInDim S1x200 (![0, 1] : Fin 2 → Fin S1x200.rank)

/-- One round: scores u·Aᵀ over the memory slots, their softmax (shifted by the row maximum, itself bounded below by
    the bottom element), the weighted sum of the rows of C, plus the incoming query. -/
def hop (s : Side) (u : FVec F S1x256 .f32) (cA cC : FVec F S200x256 .f32) : FVec F S1x256 .f32 :=
  let sc : FVec F S1x200 .f32 := Host.dotGeneral s.dA none u (transpose S256x200 [1, 0] cA s.tr)
  let mx : FVec F S1 .f32 := maximumf (broadcastInDim S1 ![] s.b0 (constant S_ .f32 0xFF800000#32))
    (Host.reduce FloatOps.maximumf sc (constant S_ .f32 0xFF800000#32) s.red s.pos)
  let e : FVec F S1x200 .f32 := Host.exp (subf sc (broadcastInDim S1x200 ![0, 1] s.b2 (broadcastInDim S1x1 ![0] s.b1 mx)))
  let z : FVec F S1 .f32 := Host.reduceAdd e (constant S_ .f32 0x00000000#32) s.red s.pos
  let p : FVec F S1x200 .f32 := Host.divf e (broadcastInDim S1x200 ![0, 1] s.b2 (broadcastInDim S1x1 ![0] s.b1 z))
  addf (Host.dotGeneral s.dC none p cC) u

/-- Three rounds over the same two matrices. -/
def hops (s : Side) (u : FVec F S1x256 .f32) (cA cC : FVec F S200x256 .f32) : FVec F S1x256 .f32 :=
  hop s (hop s (hop s u cA cC) cA cC) cA cC

end Cert.Hops

end
-- ==== Proof.KI.Mid.lean ====
import proofs.«142703_j28621662061019_2_alg».proof.Proof.Gen.KernelIdeal.Launch
import proofs.«142703_j28621662061019_2_alg».proof.Proof.Hops
import Idealize.ShloMosaic.Lib.StableHlo.Run

set_option maxRecDepth 16384

noncomputable section

namespace Cert.KernelIdeal.Mid

open Idealize.ShloMosaic Idealize.ShloMosaic.TcCoe
open Cert.KernelIdeal Cert.KernelIdeal.Gen

variable {F : FTy → Type} [FloatOps F]

/-- The side conditions of a round of memory addressing, as this program states them. -/
def side : Cert.Hops.Side :=
  ⟨transposes_S200x256_S256x200_1_0, dot_S1x256_S256x200_S1x200_1_0_0_1_n_n, dot_S1x200_S200x256_S1x256_1_0_0_1_n_n,
    reducesTo_S1x200_S1_d1, h_S_, bcast_S_S1, bcast_S1_S1x1_0, bcast_S1x1_S1x200_0_1⟩

/-- The two halves of a [2,1,256] partial result added: the query embedding. -/
def qK (p : FVec F S2x1x256 .f32) : FVec F S1x256 .f32 :=
  addf (shapeCast S1x256 (extractStridedSlice S1x1x256 ![0, 0, 0] p slices_S2x1x256_S1x1x256_0_0_0) shapeCasts_S1x1x256_S1x256)
    (shapeCast S1x256 (extractStridedSlice S1x1x256 ![1, 0, 0] p slices_S2x1x256_S1x1x256_1_0_0) shapeCasts_S1x1x256_S1x256)

/-- The two halves of a [2,200,256] partial result added, plus the temporal term: an address (or content) matrix. -/
def cK (p : FVec F S2x200x256 .f32) (tt : FVec F S200x256 .f32) : FVec F S200x256 .f32 :=
  addf (addf (shapeCast S200x256 (extractStridedSlice S1x200x256 ![0, 0, 0] p slices_S2x200x256_S1x200x256_0_0_0) shapeCasts_S1x200x256_S200x256)
    (shapeCast S200x256 (extractStridedSlice S1x200x256 ![1, 0, 0] p slices_S2x200x256_S1x200x256_1_0_0) shapeCasts_S1x200x256_S200x256)) tt

set_option maxHeartbeats 8000000 in
/-- What the two stretches of host operations leave in the buffer the second kernel reads its query from: three rounds
    of addressing over the combined partial results. -/
theorem query_after (W : Valuation τ sig (Elt F)) :
    StableHlo.after main_part1_ops0 (StableHlo.after main_part0_ops0 W) (Proc.devRef .tc main_v62)
      = Cert.Hops.hops side (qK (W (Proc.devRef .tc main_v0_2)))
          (cK (W (Proc.devRef .tc main_v0_0)) (W (Proc.devRef .tc main_arg6)))
          (cK (W (Proc.devRef .tc main_v0_1)) (W (Proc.devRef .tc main_arg7))) := by
  after_results_simp
  rfl

end Cert.KernelIdeal.Mid

end
-- ==== Proof.KI.MidValue.lean ====
import proofs.«142703_j28621662061019_2_alg».proof.Proof.KI.Mid
import Idealize.ShloMosaic.Lib.ValueIdx
import Idealize.ShloMosaic.Lib.ValueLayout
import Idealize.ShloMosaic.Lib.Pipeline.Value

noncomputable section

namespace Cert.KernelIdeal.Mid

open Idealize.ShloMosaic Idealize.ShloMosaic.ValueIdx
open Cert.KernelIdeal

/-- The first of two stacked matrices, cut out and flattened, read at an entry. -/
theorem half0_apply {α : Type} {a b : ℕ} (p : (⟨3, ![2, a, b]⟩ : Shape).Idx → α)
    (hs : (⟨3, ![2, a, b]⟩ : Shape).Slices ![0, 0, 0] ⟨3, ![1, a, b]⟩) (hc : (⟨3, ![1, a, b]⟩ : Shape).ShapeCasts ⟨2, ![a, b]⟩)
    (i : Fin a) (j : Fin b) :
    shapeCast ⟨2, ![a, b]⟩ (extractStridedSlice ⟨3, ![1, a, b]⟩ ![0, 0, 0] p hs) hc (ix2 i j) = p (ix3 (0 : Fin 2) i j) := by
  rw [shapeCast_1ab_ab_apply]
  exact extractStridedSlice_apply _ _ _ _ _ (fun ax => match ax with
    | ⟨0, _⟩ => by show 0 = 0 + 0; rfl
    | ⟨1, _⟩ => by show i.val = 0 + i.val; omega
    | ⟨2, _⟩ => by show j.val = 0 + j.val; omega)

/-- The second of two stacked matrices, cut out and flattened, read at an entry. -/
theorem half1_apply {α : Type} {a b : ℕ} (p : (⟨3, ![2, a, b]⟩ : Shape).Idx → α)
    (hs : (⟨3, ![2, a, b]⟩ : Shape).Slices ![1, 0, 0] ⟨3, ![1, a, b]⟩) (hc : (⟨3, ![1, a, b]⟩ : Shape).ShapeCasts ⟨2, ![a, b]⟩)
    (i : Fin a) (j : Fin b) :
    shapeCast ⟨2, ![a, b]⟩ (extractStridedSlice ⟨3, ![1, a, b]⟩ ![1, 0, 0] p hs) hc (ix2 i j) = p (ix3 (1 : Fin 2) i j) := by
  rw [shapeCast_1ab_ab_apply]
  exact extractStridedSlice_apply _ _ _ _ _ (fun ax => match ax with
    | ⟨0, _⟩ => by show 1 = 1 + 0; rfl
    | ⟨1, _⟩ => by show i.val = 0 + i.val; omega
    | ⟨2, _⟩ => by show j.val = 0 + j.val; omega)

/-- The query embedding at an entry: the two halves' partial sums added. -/
theorem qK_apply (p : FVec Ideal S2x1x256 .f32) (d : Fin 256) :
    qK p (ix2 (0 : Fin 1) d) = p (ix3 (0 : Fin 2) (0 : Fin 1) d) + p (ix3 (1 : Fin 2) (0 : Fin 1) d) := by
  unfold qK
  rw [addf_apply, half0_apply, half1_apply]

/-- An address (or content) matrix at an entry: the two halves' partial sums added, plus the temporal term. -/
theorem cK_apply (p : FVec Ideal S2x200x256 .f32) (tt : FVec Ideal S200x256 .f32) (i : Fin 200) (n : Fin 256) :
    cK p tt (ix2 i n) = (p (ix3 (0 : Fin 2) i n) + p (ix3 (1 : Fin 2) i n)) + tt (ix2 i n) := by
  unfold cK
  rw [addf_apply, addf_apply, half0_apply, half1_apply]

end Cert.KernelIdeal.Mid

end
-- ==== Proof.KI.EncPieces.lean ====
import proofs.«142703_j28621662061019_2_alg».proof.Proof.KI.EncC
import Idealize.ShloMosaic.Lib.Pipeline.Value

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each run's pieces read back as: the body's arithmetic on the point's tiles and the accumulators

Every store of the body writes a whole buffer, so a buffer's pieces read back as the payload of its last store, and a
load of a buffer the run has already stored into reads the payload of that store. -/

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (mq : Memref sig .tc .vmem S1x3200 .f32) (hq : mq.IsWhole)
  (mm : Memref sig .tc .vmem S200x3200 .f32) (hm : mm.IsWhole)
  (ma : Memref sig .tc .vmem S256x3200 .f32) (ha : ma.IsWhole)
  (mb : Memref sig .tc .vmem S256x3200 .f32) (hb : mb.IsWhole)
  (mc : Memref sig .tc .vmem S256x3200 .f32) (hc : mc.IsWhole)
  (oa : Memref sig .tc .vmem S1x200x256 .f32) (hoa : oa.IsWhole)
  (oc : Memref sig .tc .vmem S1x200x256 .f32) (hoc : oc.IsWhole)
  (oq : Memref sig .tc .vmem S1x1x256 .f32) (hoq : oq.IsWhole)
  (sa : Memref sig .tc .vmem S200x256 .f32) (hsa : sa.IsWhole)
  (sc : Memref sig .tc .vmem S200x256 .f32) (hsc : sc.IsWhole)
  (sq : Memref sig .tc .vmem S1x256 .f32) (hsq : sq.IsWhole)

/-! Inside a half: each accumulator gains the product of the point's tiles. -/
theorem mid_a (hA : ¬atFirst i) (hC : ¬atLast i) (x : Tiles F) (s : Sums F) :
    View.canon (runMid c i mq hq mm hm ma ha mb hb mc hc oa hoa oc hoc oq hoq sa hsa sc hsc sq hsq hA hC x s).1 = k0_pay9 x.m x.wa s.a := by
  unfold runMid; dsimp only; sl_unfold_words
  rw [View.canon_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2]

theorem mid_c (hA : ¬atFirst i) (hC : ¬atLast i) (x : Tiles F) (s : Sums F) :
    View.canon (runMid c i mq hq mm hm ma ha mb hb mc hc oa hoa oc hoc oq hoq sa hsa sc hsc sq hsq hA hC x s).2.1 = k0_pay10 x.m x.wc s.c := by
  unfold runMid; dsimp only; sl_unfold_words
  rw [View.canon_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2]

theorem mid_q (hA : ¬atFirst i) (hC : ¬atLast i) (x : Tiles F) (s : Sums F) :
    View.canon (runMid c i mq hq mm hm ma ha mb hb mc hc oa hoa oc hoc oq hoq sa hsa sc hsc sq hsq hA hC x s).2.2.1 = k0_pay1 (k0_pay11 x.q x.wb s.q) := by
  unfold runMid; dsimp only; sl_unfold_words
  rw [View.canon_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2]

/-! At a half's first point: the same over the zeros just stored. -/
theorem first_a (hA : atFirst i) (hC : ¬atLast i) (x : Tiles F) :
    View.canon (runFirst c i mq hq mm hm ma ha mb hb mc hc oa hoa oc hoc oq hoq sa hsa sc hsc sq hsq hA hC x).1 = k0_pay9 x.m x.wa k0_pay5 := by
  unfold runFirst; dsimp only; sl_unfold_words
  rw [View.canon_cons_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2, View.readCov_unit_zero (S := S200x256) sa.view hz2, View.readCov_unit_zero (S := S200x256) sc.view hz2, View.readCov_unit_zero (S := S1x256) sq.view hz2]

theorem first_c (hA : atFirst i) (hC : ¬atLast i) (x : Tiles F) :
    View.canon (runFirst c i mq hq mm hm ma ha mb hb mc hc oa hoa oc hoc oq hoq sa hsa sc hsc sq hsq hA hC x).2.1 = k0_pay10 x.m x.wc k0_pay6 := by
  unfold runFirst; dsimp only; sl_unfold_words
  rw [View.canon_cons_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2, View.readCov_unit_zero (S := S200x256) sa.view hz2, View.readCov_unit_zero (S := S200x256) sc.view hz2, View.readCov_unit_zero (S := S1x256) sq.view hz2]

theorem first_q (hA : atFirst i) (hC : ¬atLast i) (x : Tiles F) :
    View.canon (runFirst c i mq hq mm hm ma ha mb hb mc hc oa hoa oc hoc oq hoq sa hsa sc hsc sq hsq hA hC x).2.2.1 = k0_pay1 (k0_pay11 x.q x.wb k0_pay7) := by
  unfold runFirst; dsimp only; sl_unfold_words
  rw [View.canon_cons_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2, View.readCov_unit_zero (S := S200x256) sa.view hz2, View.readCov_unit_zero (S := S200x256) sc.view hz2, View.readCov_unit_zero (S := S1x256) sq.view hz2]

/-! At a half's last point: as inside; and each output block gets the accumulator just written, recast. -/
theorem last_a (hA : ¬atFirst i) (hC : atLast i) (x : Tiles F) (s : Sums F) :
    View.canon (runLast c i mq hq mm hm ma ha mb hb mc hc oa hoa oc hoc oq hoq sa hsa sc hsc sq hsq hA hC x s).2.2.2.1 = k0_pay9 x.m x.wa s.a := by
  unfold runLast; dsimp only; sl_unfold_words
  rw [View.canon_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2]

theorem last_c (hA : ¬atFirst i) (hC : atLast i) (x : Tiles F) (s : Sums F) :
    View.canon (runLast c i mq hq mm hm ma ha mb hb mc hc oa hoa oc hoc oq hoq sa hsa sc hsc sq hsq hA hC x s).2.2.2.2.1 = k0_pay10 x.m x.wc s.c := by
  unfold runLast; dsimp only; sl_unfold_words
  rw [View.canon_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2]

theorem last_q (hA : ¬atFirst i) (hC : atLast i) (x : Tiles F) (s : Sums F) :
    View.canon (runLast c i mq hq mm hm ma ha mb hb mc hc oa hoa oc hoc oq hoq sa hsa sc hsc sq hsq hA hC x s).2.2.2.2.2.1 = k0_pay1 (k0_pay11 x.q x.wb s.q) := by
  unfold runLast; dsimp only; sl_unfold_words
  rw [View.canon_unit_zero hz2]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2]

theorem last_oa (hA : ¬atFirst i) (hC : atLast i) (x : Tiles F) (s : Sums F) :
    View.canon (runLast c i mq hq mm hm ma ha mb hb mc hc oa hoa oc hoc oq hoq sa hsa sc hsc sq hsq hA hC x s).1 = k0_pay2 (k0_pay9 x.m x.wa s.a) := by
  unfold runLast; dsimp only; sl_unfold_words
  rw [View.canon_unit_zero hz3]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2, View.readCov_unit_zero (S := S200x256) sa.view hz2, View.readCov_unit_zero (S := S200x256) sc.view hz2, View.readCov_unit_zero (S := S1x256) sq.view hz2]

theorem last_oc (hA : ¬atFirst i) (hC : atLast i) (x : Tiles F) (s : Sums F) :
    View.canon (runLast c i mq hq mm hm ma ha mb hb mc hc oa hoa oc hoc oq hoq sa hsa sc hsc sq hsq hA hC x s).2.1 = k0_pay3 (k0_pay10 x.m x.wc s.c) := by
  unfold runLast; dsimp only; sl_unfold_words
  rw [View.canon_unit_zero hz3]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2, View.readCov_unit_zero (S := S200x256) sa.view hz2, View.readCov_unit_zero (S := S200x256) sc.view hz2, View.readCov_unit_zero (S := S1x256) sq.view hz2]

theorem last_oq (hA : ¬atFirst i) (hC : atLast i) (x : Tiles F) (s : Sums F) :
    View.canon (runLast c i mq hq mm hm ma ha mb hb mc hc oa hoa oc hoc oq hoq sa hsa sc hsc sq hsq hA hC x s).2.2.1 = k0_pay4 (k0_pay1 (k0_pay11 x.q x.wb s.q)) := by
  unfold runLast; dsimp only; sl_unfold_words
  rw [View.canon_unit_zero hz3]
  simp only [View.readAt_eq_ld, hq.read_unread, hm.read_unread, ha.read_unread, hb.read_unread, hc.read_unread, hsa.read_unread, hsc.read_unread, hsq.read_unread, View.ld_unit_zero (S := S1x3200) hz2, View.ld_unit_zero (S := S200x3200) hz2, View.ld_unit_zero (S := S256x3200) hz2, View.ld_unit_zero (S := S200x256) hz2, View.ld_unit_zero (S := S1x256) hz2, View.readCov_unit_zero (S := S200x256) sa.view hz2, View.readCov_unit_zero (S := S200x256) sc.view hz2, View.readCov_unit_zero (S := S1x256) sq.view hz2]

end Cert.KernelIdeal.Enc

end
-- ==== Proof.KI.EncSums.lean ====
import proofs.«142703_j28621662061019_2_alg».proof.Proof.KI.Enc
import proofs.«142703_j28621662061019_2_alg».proof.Proof.KI.EncPieces

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation, in the body's own arithmetic

What each kind of point leaves in the accumulators and in the output blocks, as the payload terms of the printed
body over the point's tiles: the piece lemmas at the operands of point `t`. -/

theorem firstSums_a (c : Dev nD) (t : Fin cfg0.N) (h0 : t.val % 20 = 0) :
    (firstSums V c t h0).a = k0_pay9 (tilesAt V c t).m (tilesAt V c t).wa k0_pay5 :=
  first_a c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) ((atFirst_iff t).mpr h0) (first_not_last t h0) (tilesAt V c t)
theorem firstSums_c (c : Dev nD) (t : Fin cfg0.N) (h0 : t.val % 20 = 0) :
    (firstSums V c t h0).c = k0_pay10 (tilesAt V c t).m (tilesAt V c t).wc k0_pay6 :=
  first_c c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) ((atFirst_iff t).mpr h0) (first_not_last t h0) (tilesAt V c t)
theorem firstSums_q (c : Dev nD) (t : Fin cfg0.N) (h0 : t.val % 20 = 0) :
    (firstSums V c t h0).q = k0_pay1 (k0_pay11 (tilesAt V c t).q (tilesAt V c t).wb k0_pay7) :=
  first_q c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) ((atFirst_iff t).mpr h0) (first_not_last t h0) (tilesAt V c t)

theorem midSums_a (c : Dev nD) (t : Fin cfg0.N) (h0 : ¬t.val % 20 = 0) (h1 : ¬t.val % 20 = 19) (s : Sums F) :
    (midSums V c t h0 h1 s).a = k0_pay9 (tilesAt V c t).m (tilesAt V c t).wa s.a :=
  mid_a c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (fun h => h0 ((atFirst_iff t).mp h)) (fun h => h1 ((atLast_iff t).mp h)) (tilesAt V c t) s
theorem midSums_c (c : Dev nD) (t : Fin cfg0.N) (h0 : ¬t.val % 20 = 0) (h1 : ¬t.val % 20 = 19) (s : Sums F) :
    (midSums V c t h0 h1 s).c = k0_pay10 (tilesAt V c t).m (tilesAt V c t).wc s.c :=
  mid_c c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (fun h => h0 ((atFirst_iff t).mp h)) (fun h => h1 ((atLast_iff t).mp h)) (tilesAt V c t) s
theorem midSums_q (c : Dev nD) (t : Fin cfg0.N) (h0 : ¬t.val % 20 = 0) (h1 : ¬t.val % 20 = 19) (s : Sums F) :
    (midSums V c t h0 h1 s).q = k0_pay1 (k0_pay11 (tilesAt V c t).q (tilesAt V c t).wb s.q) :=
  mid_q c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (fun h => h0 ((atFirst_iff t).mp h)) (fun h => h1 ((atLast_iff t).mp h)) (tilesAt V c t) s

theorem lastSums_a (c : Dev nD) (t : Fin cfg0.N) (h1 : t.val % 20 = 19) (s : Sums F) :
    (lastSums V c t h1 s).a = k0_pay9 (tilesAt V c t).m (tilesAt V c t).wa s.a :=
  last_a c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (last_not_first t h1) ((atLast_iff t).mpr h1) (tilesAt V c t) s
theorem lastSums_c (c : Dev nD) (t : Fin cfg0.N) (h1 : t.val % 20 = 19) (s : Sums F) :
    (lastSums V c t h1 s).c = k0_pay10 (tilesAt V c t).m (tilesAt V c t).wc s.c :=
  last_c c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (last_not_first t h1) ((atLast_iff t).mpr h1) (tilesAt V c t) s
theorem lastSums_q (c : Dev nD) (t : Fin cfg0.N) (h1 : t.val % 20 = 19) (s : Sums F) :
    (lastSums V c t h1 s).q = k0_pay1 (k0_pay11 (tilesAt V c t).q (tilesAt V c t).wb s.q) :=
  last_q c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (last_not_first t h1) ((atLast_iff t).mpr h1) (tilesAt V c t) s

/-- At a half's last point each output block is the accumulator just completed, recast to the block's shape. -/
theorem outsAt_a (c : Dev nD) (t : Fin cfg0.N) (h1 : t.val % 20 = 19) :
    (outsAt V c t).a = k0_pay2 (sumsAt V c t.val t.isLt).a := by
  have e1 : (outsAt V c t).a = View.canon (lastAt V c t h1 (sumsAt V c (t.val - 1) (pred_lt t))).1 := by
    rw [outsAt_last V c t h1]
  have e2 : View.canon (lastAt V c t h1 (sumsAt V c (t.val - 1) (pred_lt t))).1 = k0_pay2 (k0_pay9 (tilesAt V c t).m (tilesAt V c t).wa (sumsAt V c (t.val - 1) (pred_lt t)).a) :=
    last_oa c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (last_not_first t h1) ((atLast_iff t).mpr h1) (tilesAt V c t) (sumsAt V c (t.val - 1) (pred_lt t))
  rw [e1, e2, sumsAt_last V c t h1, lastSums_a]
theorem outsAt_c (c : Dev nD) (t : Fin cfg0.N) (h1 : t.val % 20 = 19) :
    (outsAt V c t).c = k0_pay3 (sumsAt V c t.val t.isLt).c := by
  have e1 : (outsAt V c t).c = View.canon (lastAt V c t h1 (sumsAt V c (t.val - 1) (pred_lt t))).2.1 := by
    rw [outsAt_last V c t h1]
  have e2 : View.canon (lastAt V c t h1 (sumsAt V c (t.val - 1) (pred_lt t))).2.1 = k0_pay3 (k0_pay10 (tilesAt V c t).m (tilesAt V c t).wc (sumsAt V c (t.val - 1) (pred_lt t)).c) :=
    last_oc c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (last_not_first t h1) ((atLast_iff t).mpr h1) (tilesAt V c t) (sumsAt V c (t.val - 1) (pred_lt t))
  rw [e1, e2, sumsAt_last V c t h1, lastSums_c]
theorem outsAt_q (c : Dev nD) (t : Fin cfg0.N) (h1 : t.val % 20 = 19) :
    (outsAt V c t).q = k0_pay4 (sumsAt V c t.val t.isLt).q := by
  have e1 : (outsAt V c t).q = View.canon (lastAt V c t h1 (sumsAt V c (t.val - 1) (pred_lt t))).2.2.1 := by
    rw [outsAt_last V c t h1]
  have e2 : View.canon (lastAt V c t h1 (sumsAt V c (t.val - 1) (pred_lt t))).2.2.1 = k0_pay4 (k0_pay1 (k0_pay11 (tilesAt V c t).q (tilesAt V c t).wb (sumsAt V c (t.val - 1) (pred_lt t)).q)) :=
    last_oq c (grid0.coords t) (st_q t) (wh_q t) (st_m t) (wh_m t) (st_a t) (wh_a t) (st_b t) (wh_b t) (st_c t) (wh_c t) (st_oa t) (wh_oa t) (st_oc t) (wh_oc t) (st_oq t) (wh_oq t) accA (Memref.isWhole_whole _) accC (Memref.isWhole_whole _) accQ (Memref.isWhole_whole _) (last_not_first t h1) ((atLast_iff t).mpr h1) (tilesAt V c t) (sumsAt V c (t.val - 1) (pred_lt t))
  rw [e1, e2, sumsAt_last V c t h1, lastSums_q]

end Cert.KernelIdeal.Enc

end
-- ==== Proof.KI.EncPay.lean ====
import proofs.«142703_j28621662061019_2_alg».proof.Proof.Gen.KernelIdeal.Launch
import proofs.«142703_j28621662061019_2_alg».proof.Proof.Gen.KernelIdeal.Skeleton
import proofs.«142703_j28621662061019_2_alg».proof.Proof.Gen.KernelIdeal.Points
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EncLemmas

open Idealize.ShloMosaic Idealize.ShloMosaic.ValueIdx
open Cert.KernelIdeal Cert.KernelIdeal.Gen

/-! ## A product that contracts the second axis of both operands

The encode kernel multiplies a tile of rows by a tile of the embedding matrix stored feature by word:
both operands are contracted along their second axis. At the ideal values the product into the zero
accumulator, read at (row, feature), is the sum over the tile's columns of the products of the entries. -/

/-- The contraction of an m×k by an n×k array along the second axis of both, into zero, entry by entry. -/
theorem matmul_rows_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (F := Ideal) (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => exact ((DotDims.transposedRhs m k n).lhsIdx_val_of_single rfl (ix2 a b) _).trans hc
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => exact ((DotDims.transposedRhs m k n).rhsIdx_val_of_single rfl (ix2 a b) _).trans hc
  rw [hl, hr]

/-- The two dimension records of the kernel are of that kind. -/
theorem dotM_eq : dot_S200x3200_S256x3200_S200x256_1_1_0_0_n_n = DotDims.transposedRhs 200 3200 256 := rfl
theorem dotQ_eq : dot_S1x3200_S256x3200_S1x256_1_1_0_0_n_n = DotDims.transposedRhs 1 3200 256 := rfl

/-! ## The zeroing payloads -/

theorem pay5_apply (i : Fin 200) (n : Fin 256) : k0_pay5 (F := Ideal) (ix2 i n) = 0 := by
  unfold k0_pay5
  rw [shapeCast_self]
  exact Ideal.ofBits_zero_f32

theorem pay6_apply (i : Fin 200) (n : Fin 256) : k0_pay6 (F := Ideal) (ix2 i n) = 0 := by
  unfold k0_pay6
  rw [shapeCast_self]
  exact Ideal.ofBits_zero_f32

theorem pay7_apply (n : Fin 256) : k0_pay7 (F := Ideal) (ix2 (0 : Fin 1) n) = 0 := by
  unfold k0_pay7
  rw [shapeCast_self]
  exact Ideal.ofBits_zero_f32

/-! ## The accumulating payloads -/

/-- The memory accumulator after a point: what it held plus the tile's products. -/
theorem pay9_apply (x1 : FVec Ideal S200x3200 .f32) (x2 : FVec Ideal S256x3200 .f32) (acc : FVec Ideal S200x256 .f32)
    (i : Fin 200) (n : Fin 256) :
    k0_pay9 (F := Ideal) x1 x2 acc (ix2 i n) = acc (ix2 i n) + ∑ j : Fin 3200, x1 (ix2 i j) * x2 (ix2 n j) := by
  unfold k0_pay9 k0_pay8
  dsimp only
  rw [shapeCast_self, addf_apply, dotM_eq, matmul_rows_zero_apply]
  rfl

theorem pay10_apply (x1 : FVec Ideal S200x3200 .f32) (x2 : FVec Ideal S256x3200 .f32) (acc : FVec Ideal S200x256 .f32)
    (i : Fin 200) (n : Fin 256) :
    k0_pay10 (F := Ideal) x1 x2 acc (ix2 i n) = acc (ix2 i n) + ∑ j : Fin 3200, x1 (ix2 i j) * x2 (ix2 n j) := by
  unfold k0_pay10 k0_pay8
  dsimp only
  rw [shapeCast_self, addf_apply, dotM_eq, matmul_rows_zero_apply]
  rfl

/-- The question accumulator after a point. -/
theorem pay1_pay11_apply (x0 : FVec Ideal S1x3200 .f32) (x3 : FVec Ideal S256x3200 .f32) (acc : FVec Ideal S1x256 .f32)
    (n : Fin 256) :
    k0_pay1 (F := Ideal) (k0_pay11 (F := Ideal) x0 x3 acc) (ix2 (0 : Fin 1) n)
      = acc (ix2 (0 : Fin 1) n) + ∑ j : Fin 3200, x0 (ix2 (0 : Fin 1) j) * x3 (ix2 n j) := by
  unfold k0_pay1 k0_pay11
  dsimp only
  rw [shapeCast_self, addf_apply, dotQ_eq, matmul_rows_zero_apply]
  rfl

/-! ## The copying payloads: a leading unit axis added -/

theorem pay2_apply (x : FVec Ideal S200x256 .f32) (u : Fin 1) (i : Fin 200) (n : Fin 256) :
    k0_pay2 (F := Ideal) x (ix3 u i n) = x (ix2 i n) := by
  unfold k0_pay2
  exact shapeCast_ab_1ab_apply x _ u i n

theorem pay3_apply (x : FVec Ideal S200x256 .f32) (u : Fin 1) (i : Fin 200) (n : Fin 256) :
    k0_pay3 (F := Ideal) x (ix3 u i n) = x (ix2 i n) := by
  unfold k0_pay3
  exact shapeCast_ab_1ab_apply x _ u i n

theorem pay4_apply (x : FVec Ideal S1x256 .f32) (u u' : Fin 1) (n : Fin 256) :
    k0_pay4 (F := Ideal) x (ix3 u u' n) = x (ix2 u' n) := by
  unfold k0_pay4
  exact shapeCast_ab_1ab_apply x _ u u' n

end Cert.KernelIdeal.EncLemmas

end
-- ==== Proof.KI.EncArr.lean ====
import proofs.«142703_j28621662061019_2_alg».proof.Proof.Gen.KernelIdeal.Launch
import proofs.«142703_j28621662061019_2_alg».proof.Proof.Gen.KernelIdeal.Skeleton
import proofs.«142703_j28621662061019_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.EncLemmas

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-! # The encode region's three result arrays, from what its write-backs write

The grid is 2 × 20 and point `t` is `20 h + k`: half `h`, step `k`. Each result array has one block per half, and a
half's block is written back once, at the half's last step `k = 19`. So after the region, half `h` of a result array
holds exactly what point `20 h + 19` wrote back — whatever the proof data say that is. -/

variable {c : Dev nD} (dat : Dat τ (Elt Ideal) Unit ℕ (UR sig nD τ) ℕ cfg0 c)

/-- The last point of half `h`. -/
def halfEnd (h : Fin 2) : Fin cfg0.N :=
  ⟨20 * h.val + 19, by have := h.isLt; rw [show cfg0.N = 40 from N_0]; omega⟩

theorem halfEnd_val (h : Fin 2) : (halfEnd h).val = 20 * h.val + 19 := rfl

/-- The result arrays after the region and the blocks written back at a point, with their index types written out. -/
abbrev sumsA : S2x200x256.Idx → EReal := dat.arrAt 5 cfg0.N
abbrev sumsB : S2x200x256.Idx → EReal := dat.arrAt 6 cfg0.N
abbrev sumsQ : S2x1x256.Idx → EReal := dat.arrAt 7 cfg0.N
abbrev backA (t : Fin cfg0.N) : S1x200x256.Idx → EReal := dat.flushed 5 t
abbrev backB (t : Fin cfg0.N) : S1x200x256.Idx → EReal := dat.flushed 6 t
abbrev backQ (t : Fin cfg0.N) : S1x1x256.Idx → EReal := dat.flushed 7 t

/-- Where the three output blocks sit at point `t`, decided over the forty points: along the first axis at the half
    `t / 20`, at the origin of the other two. -/
theorem out_places : ∀ t : Fin cfg0.N,
    (win0_5.index t (0 : Fin 3) = t.val / 20 ∧ win0_5.index t (1 : Fin 3) = 0 ∧ win0_5.index t (2 : Fin 3) = 0)
    ∧ (win0_6.index t (0 : Fin 3) = t.val / 20 ∧ win0_6.index t (1 : Fin 3) = 0 ∧ win0_6.index t (2 : Fin 3) = 0)
    ∧ (win0_7.index t (0 : Fin 3) = t.val / 20 ∧ win0_7.index t (1 : Fin 3) = 0 ∧ win0_7.index t (2 : Fin 3) = 0) :=
  (by decide +kernel : ∀ t : Fin grid0.N, _)

/-! ## Window 5 -/

/-- The array assembled from the two written-back blocks: half `h` is the block of point `20 h + 19`. -/
def wholeA : S2x200x256.Idx → EReal := fun j =>
  backA dat (halfEnd ⟨(j 0).val, (j 0).isLt⟩) (ix3 (0 : Fin 1) (⟨(j 1).val, (j 1).isLt⟩ : Fin 200) (⟨(j 2).val, (j 2).isLt⟩ : Fin 256))

/-- Every write-back writes its block of that array: a point that writes back is the last point of its half. -/
theorem wholeA_blocks (t : Fin cfg0.N) (hf : (cfg0.win 5).flush t = true) :
    dat.flushed 5 t = ((cfg0.win 5).blk t).view.read (Elt Ideal) (wholeA dat) := by
  have h19 : t.val % 20 = 19 := (flush0_5 t).mp hf
  obtain ⟨e0, e1, e2⟩ := (out_places t).1
  funext y
  obtain ⟨a, i, n, rfl⟩ : ∃ (a : Fin 1) (i : Fin 200) (n : Fin 256), y = ix3 a i n := ⟨y 0, y 1, y 2, eq_ix3 y⟩
  obtain rfl : a = 0 := Subsingleton.elim _ _
  show backA dat t (ix3 (0 : Fin 1) i n) = wholeA dat (((cfg0.win 5).blk t).view.emb (ix3 (0 : Fin 1) i n))
  have p0 : ((((cfg0.win 5).blk t).view.emb (ix3 (0 : Fin 1) i n)) 0).val = t.val / 20 := by
    show win0_5.index t (0 : Fin 3) * 1 + 1 * 0 = t.val / 20; rw [e0]; omega
  have p1 : ((((cfg0.win 5).blk t).view.emb (ix3 (0 : Fin 1) i n)) 1).val = i.val := by
    show win0_5.index t (1 : Fin 3) * 200 + 1 * i.val = i.val; rw [e1]; omega
  have p2 : ((((cfg0.win 5).blk t).view.emb (ix3 (0 : Fin 1) i n)) 2).val = n.val := by
    show win0_5.index t (2 : Fin 3) * 256 + 1 * n.val = n.val; rw [e2]; omega
  unfold wholeA
  exact congrArg₂ (backA dat)
    (Fin.ext (by show t.val = 20 * _ + 19; rw [p0]; omega))
    (congrArg₂ (ix3 (0 : Fin 1)) (Fin.ext p1.symm) (Fin.ext p2.symm))

/-- Half `h` of the array after the region is what the half's last point wrote back. -/
theorem sumsA_at (h : Fin 2) (i : Fin 200) (n : Fin 256) :
    sumsA dat (ix3 h i n) = backA dat (halfEnd h) (ix3 (0 : Fin 1) i n) := by
  have hh := h.isLt
  obtain ⟨e0, e1, e2⟩ := (out_places (halfEnd h)).1
  refine dat.arrAt_apply_of_mem 5 (wholeA dat) (wholeA_blocks dat) cfg0.N (halfEnd h) (ix3 h i n) (halfEnd h).isLt
    ((flush0_5 _).mpr (by rw [halfEnd_val]; omega)) ?_
  show ix3 h i n ∈ ((View.whole main_v0_0).slice (win0_5.rect (halfEnd h))).set
  rw [View.set_slice_whole, Rect.mem_set_unit]
  intro a
  match a with
  | ⟨0, _⟩ =>
    show win0_5.index (halfEnd h) (0 : Fin 3) * 1 ≤ h.val ∧ h.val < win0_5.index (halfEnd h) (0 : Fin 3) * 1 + 1
    rw [e0, halfEnd_val]; omega
  | ⟨1, _⟩ =>
    show win0_5.index (halfEnd h) (1 : Fin 3) * 200 ≤ i.val ∧ i.val < win0_5.index (halfEnd h) (1 : Fin 3) * 200 + 200
    rw [e1]; omega
  | ⟨2, _⟩ =>
    show win0_5.index (halfEnd h) (2 : Fin 3) * 256 ≤ n.val ∧ n.val < win0_5.index (halfEnd h) (2 : Fin 3) * 256 + 256
    rw [e2]; omega

/-! ## Window 6 -/

/-- The array assembled from the two written-back blocks: half `h` is the block of point `20 h + 19`. -/
def wholeB : S2x200x256.Idx → EReal := fun j =>
  backB dat (halfEnd ⟨(j 0).val, (j 0).isLt⟩) (ix3 (0 : Fin 1) (⟨(j 1).val, (j 1).isLt⟩ : Fin 200) (⟨(j 2).val, (j 2).isLt⟩ : Fin 256))

/-- Every write-back writes its block of that array: a point that writes back is the last point of its half. -/
theorem wholeB_blocks (t : Fin cfg0.N) (hf : (cfg0.win 6).flush t = true) :
    dat.flushed 6 t = ((cfg0.win 6).blk t).view.read (Elt Ideal) (wholeB dat) := by
  have h19 : t.val % 20 = 19 := (flush0_6 t).mp hf
  obtain ⟨e0, e1, e2⟩ := (out_places t).2.1
  funext y
  obtain ⟨a, i, n, rfl⟩ : ∃ (a : Fin 1) (i : Fin 200) (n : Fin 256), y = ix3 a i n := ⟨y 0, y 1, y 2, eq_ix3 y⟩
  obtain rfl : a = 0 := Subsingleton.elim _ _
  show backB dat t (ix3 (0 : Fin 1) i n) = wholeB dat (((cfg0.win 6).blk t).view.emb (ix3 (0 : Fin 1) i n))
  have p0 : ((((cfg0.win 6).blk t).view.emb (ix3 (0 : Fin 1) i n)) 0).val = t.val / 20 := by
    show win0_6.index t (0 : Fin 3) * 1 + 1 * 0 = t.val / 20; rw [e0]; omega
  have p1 : ((((cfg0.win 6).blk t).view.emb (ix3 (0 : Fin 1) i n)) 1).val = i.val := by
    show win0_6.index t (1 : Fin 3) * 200 + 1 * i.val = i.val; rw [e1]; omega
  have p2 : ((((cfg0.win 6).blk t).view.emb (ix3 (0 : Fin 1) i n)) 2).val = n.val := by
    show win0_6.index t (2 : Fin 3) * 256 + 1 * n.val = n.val; rw [e2]; omega
  unfold wholeB
  exact congrArg₂ (backB dat)
    (Fin.ext (by show t.val = 20 * _ + 19; rw [p0]; omega))
    (congrArg₂ (ix3 (0 : Fin 1)) (Fin.ext p1.symm) (Fin.ext p2.symm))

/-- Half `h` of the array after the region is what the half's last point wrote back. -/
theorem sumsB_at (h : Fin 2) (i : Fin 200) (n : Fin 256) :
    sumsB dat (ix3 h i n) = backB dat (halfEnd h) (ix3 (0 : Fin 1) i n) := by
  have hh := h.isLt
  obtain ⟨e0, e1, e2⟩ := (out_places (halfEnd h)).2.1
  refine dat.arrAt_apply_of_mem 6 (wholeB dat) (wholeB_blocks dat) cfg0.N (halfEnd h) (ix3 h i n) (halfEnd h).isLt
    ((flush0_6 _).mpr (by rw [halfEnd_val]; omega)) ?_
  show ix3 h i n ∈ ((View.whole main_v0_1).slice (win0_6.rect (halfEnd h))).set
  rw [View.set_slice_whole, Rect.mem_set_unit]
  intro a
  match a with
  | ⟨0, _⟩ =>
    show win0_6.index (halfEnd h) (0 : Fin 3) * 1 ≤ h.val ∧ h.val < win0_6.index (halfEnd h) (0 : Fin 3) * 1 + 1
    rw [e0, halfEnd_val]; omega
  | ⟨1, _⟩ =>
    show win0_6.index (halfEnd h) (1 : Fin 3) * 200 ≤ i.val ∧ i.val < win0_6.index (halfEnd h) (1 : Fin 3) * 200 + 200
    rw [e1]; omega
  | ⟨2, _⟩ =>
    show win0_6.index (halfEnd h) (2 : Fin 3) * 256 ≤ n.val ∧ n.val < win0_6.index (halfEnd h) (2 : Fin 3) * 256 + 256
    rw [e2]; omega

/-! ## Window 7 -/

/-- The array assembled from the two written-back rows: half `h` is the row of point `20 h + 19`. -/
def wholeQ : S2x1x256.Idx → EReal := fun j =>
  backQ dat (halfEnd ⟨(j 0).val, (j 0).isLt⟩) (ix3 (0 : Fin 1) (0 : Fin 1) (⟨(j 2).val, (j 2).isLt⟩ : Fin 256))

/-- Every write-back writes its block of that array. -/
theorem wholeQ_blocks (t : Fin cfg0.N) (hf : (cfg0.win 7).flush t = true) :
    dat.flushed 7 t = ((cfg0.win 7).blk t).view.read (Elt Ideal) (wholeQ dat) := by
  have h19 : t.val % 20 = 19 := (flush0_7 t).mp hf
  obtain ⟨e0, e1, e2⟩ := (out_places t).2.2
  funext y
  obtain ⟨a, i, n, rfl⟩ : ∃ (a : Fin 1) (i : Fin 1) (n : Fin 256), y = ix3 a i n := ⟨y 0, y 1, y 2, eq_ix3 y⟩
  obtain rfl : a = 0 := Subsingleton.elim _ _
  obtain rfl : i = 0 := Subsingleton.elim _ _
  show backQ dat t (ix3 (0 : Fin 1) (0 : Fin 1) n) = wholeQ dat (((cfg0.win 7).blk t).view.emb (ix3 (0 : Fin 1) (0 : Fin 1) n))
  have p0 : ((((cfg0.win 7).blk t).view.emb (ix3 (0 : Fin 1) (0 : Fin 1) n)) 0).val = t.val / 20 := by
    show win0_7.index t (0 : Fin 3) * 1 + 1 * 0 = t.val / 20; rw [e0]; omega
  have p2 : ((((cfg0.win 7).blk t).view.emb (ix3 (0 : Fin 1) (0 : Fin 1) n)) 2).val = n.val := by
    show win0_7.index t (2 : Fin 3) * 256 + 1 * n.val = n.val; rw [e2]; omega
  unfold wholeQ
  exact congrArg₂ (backQ dat)
    (Fin.ext (by show t.val = 20 * _ + 19; rw [p0]; omega))
    (congrArg (ix3 (0 : Fin 1) (0 : Fin 1)) (Fin.ext p2.symm))

/-- Half `h` of the array after the region is the row the half's last point wrote back. -/
theorem sumsQ_at (h : Fin 2) (n : Fin 256) :
    sumsQ dat (ix3 h (0 : Fin 1) n) = backQ dat (halfEnd h) (ix3 (0 : Fin 1) (0 : Fin 1) n) := by
  have hh := h.isLt
  obtain ⟨e0, e1, e2⟩ := (out_places (halfEnd h)).2.2
  refine dat.arrAt_apply_of_mem 7 (wholeQ dat) (wholeQ_blocks dat) cfg0.N (halfEnd h) (ix3 h (0 : Fin 1) n) (halfEnd h).isLt
    ((flush0_7 _).mpr (by rw [halfEnd_val]; omega)) ?_
  show ix3 h (0 : Fin 1) n ∈ ((View.whole main_v0_2).slice (win0_7.rect (halfEnd h))).set
  rw [View.set_slice_whole, Rect.mem_set_unit]
  intro a
  match a with
  | ⟨0, _⟩ =>
    show win0_7.index (halfEnd h) (0 : Fin 3) * 1 ≤ h.val ∧ h.val < win0_7.index (halfEnd h) (0 : Fin 3) * 1 + 1
    rw [e0, halfEnd_val]; omega
  | ⟨1, _⟩ =>
    show win0_7.index (halfEnd h) (1 : Fin 3) * 1 ≤ 0 ∧ 0 < win0_7.index (halfEnd h) (1 : Fin 3) * 1 + 1
    rw [e1]; omega
  | ⟨2, _⟩ =>
    show win0_7.index (halfEnd h) (2 : Fin 3) * 256 ≤ n.val ∧ n.val < win0_7.index (halfEnd h) (2 : Fin 3) * 256 + 256
    rw [e2]; omega

end Cert.KernelIdeal.EncLemmas

end
-- ==== Proof.KI.EncBlk.lean ====
import proofs.«142703_j28621662061019_2_alg».proof.Proof.Gen.KernelIdeal.Launch
import proofs.«142703_j28621662061019_2_alg».proof.Proof.Gen.KernelIdeal.Skeleton
import proofs.«142703_j28621662061019_2_alg».proof.Proof.Gen.KernelIdeal.Points
import Idealize.ShloMosaic.Lib.ValueIdx
import Idealize.ShloMosaic.Lib.Pipeline.Value

noncomputable section

namespace Cert.KernelIdeal.EncLemmas

open Idealize.ShloMosaic Idealize.ShloMosaic.ValueIdx
open Cert.KernelIdeal Cert.KernelIdeal.Gen

/-! ## Where an input block sits in its array

The grid is 2 × 20 in row-major order and every input window's column block is (outer coordinate) · 20 +
(inner coordinate): the point's own number. So the block of point `t` is the columns `3200 t … 3200 t + 3199`,
all rows. -/

/-- The 40 points number the 40 column blocks. -/
theorem points_lt (t : Fin cfg0.N) : t.val < 40 := lt_of_lt_of_eq t.isLt N_0

/-- Column `j` of point `t`'s block, as a column of the array. -/
abbrev colAt (t : Fin cfg0.N) (j : Fin 3200) : Fin 128000 :=
  ⟨3200 * t.val + j.val, by have := points_lt t; have := j.isLt; omega⟩

/-- The printed index maps of the five input windows, decided once over the grid: row block 0, column block `t`. -/
theorem in_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Input window 0's block at point `t`, read at (row, column): the array at the same row, column `3200 t + j`. -/
theorem blk0_apply (X : S1x128000.Idx → Elt Ideal .f32) (t : Fin cfg0.N) (i : Fin 1) (j : Fin 3200) :
    ((cfg0.win 0).blk t).view.read (Elt Ideal) X (ix2 i j) = X (ix2 i (colAt t j)) := by
  show X (((cfg0.win 0).blk t).view.emb (ix2 i j)) = _
  refine congrArg X (funext fun a => Fin.ext ?_)
  obtain ⟨e00, e01, e10, e11, e20, e21, e30, e31, e40, e41⟩ := in_index t
  match a with
  | ⟨0, _⟩ => show win0_0.index t (0 : Fin 2) * 1 + 1 * i.val = i.val; omega
  | ⟨1, _⟩ => show win0_0.index t (1 : Fin 2) * 3200 + 1 * j.val = 3200 * t.val + j.val; omega

/-- Input window 1's block at point `t`, read at (row, column): the array at the same row, column `3200 t + j`. -/
theorem blk1_apply (X : S200x128000.Idx → Elt Ideal .f32) (t : Fin cfg0.N) (i : Fin 200) (j : Fin 3200) :
    ((cfg0.win 1).blk t).view.read (Elt Ideal) X (ix2 i j) = X (ix2 i (colAt t j)) := by
  show X (((cfg0.win 1).blk t).view.emb (ix2 i j)) = _
  refine congrArg X (funext fun a => Fin.ext ?_)
  obtain ⟨e00, e01, e10, e11, e20, e21, e30, e31, e40, e41⟩ := in_index t
  match a with
  | ⟨0, _⟩ => show win0_1.index t (0 : Fin 2) * 200 + 1 * i.val = i.val; omega
  | ⟨1, _⟩ => show win0_1.index t (1 : Fin 2) * 3200 + 1 * j.val = 3200 * t.val + j.val; omega

/-- Input window 2's block at point `t`, read at (row, column): the array at the same row, column `3200 t + j`. -/
theorem blk2_apply (X : S256x128000.Idx → Elt Ideal .f32) (t : Fin cfg0.N) (i : Fin 256) (j : Fin 3200) :
    ((cfg0.win 2).blk t).view.read (Elt Ideal) X (ix2 i j) = X (ix2 i (colAt t j)) := by
  show X (((cfg0.win 2).blk t).view.emb (ix2 i j)) = _
  refine congrArg X (funext fun a => Fin.ext ?_)
  obtain ⟨e00, e01, e10, e11, e20, e21, e30, e31, e40, e41⟩ := in_index t
  match a with
  | ⟨0, _⟩ => show win0_2.index t (0 : Fin 2) * 256 + 1 * i.val = i.val; omega
  | ⟨1, _⟩ => show win0_2.index t (1 : Fin 2) * 3200 + 1 * j.val = 3200 * t.val + j.val; omega

/-- Input window 3's block at point `t`, read at (row, column): the array at the same row, column `3200 t + j`. -/
theorem blk3_apply (X : S256x128000.Idx → Elt Ideal .f32) (t : Fin cfg0.N) (i : Fin 256) (j : Fin 3200) :
    ((cfg0.win 3).blk t).view.read (Elt Ideal) X (ix2 i j) = X (ix2 i (colAt t j)) := by
  show X (((cfg0.win 3).blk t).view.emb (ix2 i j)) = _
  refine congrArg X (funext fun a => Fin.ext ?_)
  obtain ⟨e00, e01, e10, e11, e20, e21, e30, e31, e40, e41⟩ := in_index t
  match a with
  | ⟨0, _⟩ => show win0_3.index t (0 : Fin 2) * 256 + 1 * i.val = i.val; omega
  | ⟨1, _⟩ => show win0_3.index t (1 : Fin 2) * 3200 + 1 * j.val = 3200 * t.val + j.val; omega

/-- Input window 4's block at point `t`, read at (row, column): the array at the same row, column `3200 t + j`. -/
theorem blk4_apply (X : S256x128000.Idx → Elt Ideal .f32) (t : Fin cfg0.N) (i : Fin 256) (j : Fin 3200) :
    ((cfg0.win 4).blk t).view.read (Elt Ideal) X (ix2 i j) = X (ix2 i (colAt t j)) := by
  show X (((cfg0.win 4).blk t).view.emb (ix2 i j)) = _
  refine congrArg X (funext fun a => Fin.ext ?_)
  obtain ⟨e00, e01, e10, e11, e20, e21, e30, e31, e40, e41⟩ := in_index t
  match a with
  | ⟨0, _⟩ => show win0_4.index t (0 : Fin 2) * 256 + 1 * i.val = i.val; omega
  | ⟨1, _⟩ => show win0_4.index t (1 : Fin 2) * 3200 + 1 * j.val = 3200 * t.val + j.val; omega

end Cert.KernelIdeal.EncLemmas

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.Spec.lean ====
import proofs.«142703_j28621662061019_2_alg».proof.Proof.LibBlockSum
import Mathlib.Algebra.BigOperators.Fin

namespace Cert.Spec

open scoped BigOperators

/-- The column of the long axis at position `j` of tile `k` of half `h`: the 128000 columns are two halves of twenty
    tiles of 3200. -/
def col (h : Fin 2) (k : Fin 20) (j : Fin 3200) : Fin 128000 := ⟨(h.val * 20 + k.val) * 3200 + j.val, by omega⟩

/-- A sum over all the columns, taken tile by tile. -/
theorem sum_tiles {M : Type*} [AddCommMonoid M] (f : Fin 128000 → M) :
    ∑ t : Fin 40, ∑ j : Fin 3200, f ⟨3200 * t.val + j.val, by omega⟩ = ∑ v : Fin 128000, f v :=
  Cert.LibBlockSum.sum_blocks 40 3200 f

/-- A sum over the forty tiles, taken half by half. -/
theorem sum_two_halves {M : Type*} [AddCommMonoid M] (g : Fin 40 → M) :
    ∑ h : Fin 2, ∑ k : Fin 20, g ⟨20 * h.val + k.val, by omega⟩ = ∑ t : Fin 40, g t :=
  Cert.LibBlockSum.sum_blocks 2 20 g

/-- The sum over all 128000 columns is the first half's tiles' sums plus the second half's: regrouping a finite sum in a
    commutative monoid, so no finiteness of the terms is needed. -/
theorem sum_halves {M : Type*} [AddCommMonoid M] (f : Fin 128000 → M) :
    (∑ k : Fin 20, ∑ j : Fin 3200, f (col 0 k j)) + (∑ k : Fin 20, ∑ j : Fin 3200, f (col 1 k j)) = ∑ v : Fin 128000, f v := by
  rw [← sum_tiles f, ← sum_two_halves (fun t => ∑ j : Fin 3200, f ⟨3200 * t.val + j.val, by omega⟩), Fin.sum_univ_two]
  refine congrArg₂ (· + ·) ?_ ?_ <;>
    refine Finset.sum_congr rfl fun k _ => Finset.sum_congr rfl fun j _ => congrArg f (Fin.ext ?_)
  · show (0 * 20 + k.val) * 3200 + j.val = 3200 * (20 * 0 + k.val) + j.val; omega
  · show (1 * 20 + k.val) * 3200 + j.val = 3200 * (20 * 1 + k.val) + j.val; omega

end Cert.Spec
-- ==== Proof.KI.EncAssemble.lean ====
import proofs.«142703_j28621662061019_2_alg».proof.Proof.KI.EncArr
import proofs.«142703_j28621662061019_2_alg».proof.Proof.KI.EncBlk
import proofs.«142703_j28621662061019_2_alg».proof.Proof.Spec
import Mathlib.Algebra.BigOperators.Fin
import Mathlib.Data.EReal.Basic

noncomputable section

open scoped BigOperators

namespace Cert.KernelIdeal.EncLemmas

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

/-! # From the accumulators' recurrence to the three result arrays

An accumulator is reset at the first of every twenty points and has one tile's term added at every point, so at the
last point of a half it holds the sum of the half's twenty terms; that is what the half's write-back stores, and the
result array's half is the write-back's block. -/

/-! ## The recurrence, over the forty points only -/

/-- `k` points into half `h` the accumulator holds the half's first `k + 1` terms. -/
theorem part_sum_of_rec {M : Type*} [AddCommMonoid M] (s g : ℕ → M)
    (hs : ∀ t, t < 40 → s t = (if t % 20 = 0 then 0 else s (t - 1)) + g t) (h : Fin 2) (k : ℕ) :
    k < 20 → s (20 * h.val + k) = ∑ k' ∈ Finset.range (k + 1), g (20 * h.val + k') := by
  have hh := h.isLt
  induction k with
  | zero =>
    intro _
    rw [hs _ (by omega), if_pos (by omega), zero_add, Finset.sum_range_one]
  | succ k ih =>
    intro hk
    have e : 20 * h.val + (k + 1) - 1 = 20 * h.val + k := by omega
    rw [hs _ (by omega), if_neg (by omega), e, ih (by omega), ← Finset.sum_range_succ (fun k' => g (20 * h.val + k')) (k + 1)]

/-- At the last point of half `h` the accumulator holds the sum of the half's twenty terms. -/
theorem half_sum_of_rec {M : Type*} [AddCommMonoid M] (s g : ℕ → M)
    (hs : ∀ t, t < 40 → s t = (if t % 20 = 0 then 0 else s (t - 1)) + g t) (h : Fin 2) :
    s (20 * h.val + 19) = ∑ k : Fin 20, g (20 * h.val + k.val) := by
  rw [part_sum_of_rec s g hs h 19 (by omega), Finset.sum_range (fun k' => g (20 * h.val + k'))]

/-- The same with each point's term a sum over its tile's 3200 columns of a function of the column: the half's sum
    runs over the half's columns, tile by tile. -/
theorem half_cols_of_rec {M : Type*} [AddCommMonoid M] (s : ℕ → M) (f : Fin 128000 → M)
    (hs : ∀ t (ht : t < 40), s t = (if t % 20 = 0 then 0 else s (t - 1)) + ∑ j : Fin 3200, f ⟨3200 * t + j.val, by omega⟩)
    (h : Fin 2) :
    s (20 * h.val + 19) = ∑ k : Fin 20, ∑ j : Fin 3200, f (Cert.Spec.col h k j) := by
  have hh := h.isLt
  -- the term of point `t`, for every natural number: the column taken modulo the array's width
  have key := half_sum_of_rec s
    (fun t => ∑ j : Fin 3200, f ⟨(3200 * t + j.val) % 128000, Nat.mod_lt _ (by decide)⟩)
    (fun t ht => by
      rw [hs t ht]
      refine congrArg (_ + ·) (Finset.sum_congr rfl fun j _ => congrArg f (Fin.ext ?_))
      exact (Nat.mod_eq_of_lt (by omega)).symm) h
  rw [key]
  refine Finset.sum_congr rfl fun k _ => Finset.sum_congr rfl fun j _ => congrArg f (Fin.ext ?_)
  show (3200 * (20 * h.val + k.val) + j.val) % 128000 = (h.val * 20 + k.val) * 3200 + j.val
  rw [Nat.mod_eq_of_lt (by omega)]
  omega

/-- A column of point `t`'s tile, spelt with the point a number below forty. -/
theorem colAt_eq (t : Fin cfg0.N) (j : Fin 3200) (hlt : 3200 * t.val + j.val < 128000) :
    colAt t j = ⟨3200 * t.val + j.val, hlt⟩ := rfl

/-! ## The three result arrays -/

variable {c : Dev nD} (dat : Dat τ (Elt Ideal) Unit ℕ (UR sig nD τ) ℕ cfg0 c)

/-- The first memory embedding's partial sums: half `h` of the array holds, at (slot, feature), the sum over the half's
    columns of the slot's counts times the feature's embedding. -/
theorem sumsA_of (mem : S200x128000.Idx → EReal) (w : S256x128000.Idx → EReal) (acc : ℕ → S200x256.Idx → EReal)
    (hrec : ∀ t (ht : t < 40) (i : Fin 200) (n : Fin 256), acc t (ix2 i n)
      = (if t % 20 = 0 then 0 else acc (t - 1) (ix2 i n))
        + ∑ j : Fin 3200, mem (ix2 i ⟨3200 * t + j.val, by omega⟩) * w (ix2 n ⟨3200 * t + j.val, by omega⟩))
    (hback : ∀ (h : Fin 2) (i : Fin 200) (n : Fin 256),
      backA dat (halfEnd h) (ix3 (0 : Fin 1) i n) = acc (20 * h.val + 19) (ix2 i n))
    (h : Fin 2) (i : Fin 200) (n : Fin 256) :
    sumsA dat (ix3 h i n)
      = ∑ k : Fin 20, ∑ j : Fin 3200, mem (ix2 i (Cert.Spec.col h k j)) * w (ix2 n (Cert.Spec.col h k j)) := by
  rw [sumsA_at, hback]
  exact half_cols_of_rec (fun t => acc t (ix2 i n)) (fun v => mem (ix2 i v) * w (ix2 n v))
    (fun t ht => hrec t ht i n) h

/-- The second memory embedding's partial sums. -/
theorem sumsB_of (mem : S200x128000.Idx → EReal) (w : S256x128000.Idx → EReal) (acc : ℕ → S200x256.Idx → EReal)
    (hrec : ∀ t (ht : t < 40) (i : Fin 200) (n : Fin 256), acc t (ix2 i n)
      = (if t % 20 = 0 then 0 else acc (t - 1) (ix2 i n))
        + ∑ j : Fin 3200, mem (ix2 i ⟨3200 * t + j.val, by omega⟩) * w (ix2 n ⟨3200 * t + j.val, by omega⟩))
    (hback : ∀ (h : Fin 2) (i : Fin 200) (n : Fin 256),
      backB dat (halfEnd h) (ix3 (0 : Fin 1) i n) = acc (20 * h.val + 19) (ix2 i n))
    (h : Fin 2) (i : Fin 200) (n : Fin 256) :
    sumsB dat (ix3 h i n)
      = ∑ k : Fin 20, ∑ j : Fin 3200, mem (ix2 i (Cert.Spec.col h k j)) * w (ix2 n (Cert.Spec.col h k j)) := by
  rw [sumsB_at, hback]
  exact half_cols_of_rec (fun t => acc t (ix2 i n)) (fun v => mem (ix2 i v) * w (ix2 n v))
    (fun t ht => hrec t ht i n) h

/-- The question embedding's partial sums: one row per half. -/
theorem sumsQ_of (mem : S1x128000.Idx → EReal) (w : S256x128000.Idx → EReal) (acc : ℕ → S1x256.Idx → EReal)
    (hrec : ∀ t (ht : t < 40) (n : Fin 256), acc t (ix2 (0 : Fin 1) n)
      = (if t % 20 = 0 then 0 else acc (t - 1) (ix2 (0 : Fin 1) n))
        + ∑ j : Fin 3200, mem (ix2 (0 : Fin 1) ⟨3200 * t + j.val, by omega⟩) * w (ix2 n ⟨3200 * t + j.val, by omega⟩))
    (hback : ∀ (h : Fin 2) (n : Fin 256),
      backQ dat (halfEnd h) (ix3 (0 : Fin 1) (0 : Fin 1) n) = acc (20 * h.val + 19) (ix2 (0 : Fin 1) n))
    (h : Fin 2) (n : Fin 256) :
    sumsQ dat (ix3 h (0 : Fin 1) n)
      = ∑ k : Fin 20, ∑ j : Fin 3200, mem (ix2 (0 : Fin 1) (Cert.Spec.col h k j)) * w (ix2 n (Cert.Spec.col h k j)) := by
  rw [sumsQ_at, hback]
  exact half_cols_of_rec (fun t => acc t (ix2 (0 : Fin 1) n)) (fun v => mem (ix2 (0 : Fin 1) v) * w (ix2 n v))
    (fun t ht => hrec t ht n) h

end Cert.KernelIdeal.EncLemmas

end
-- ==== Proof.KI.EncValue.lean ====
import proofs.«142703_j28621662061019_2_alg».proof.Proof.KI.Enc
import proofs.«142703_j28621662061019_2_alg».proof.Proof.KI.EncSums
import proofs.«142703_j28621662061019_2_alg».proof.Proof.KI.EncPay
import proofs.«142703_j28621662061019_2_alg».proof.Proof.KI.EncAssemble
import proofs.«142703_j28621662061019_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.EncValue

open Idealize.ShloMosaic Idealize.ShloMosaic.TcCoe Idealize.ShloMosaic.ValueIdx
open Idealize.ShloMosaic.Pipeline (Dat)
open Cert.KernelIdeal Cert.KernelIdeal.Gen Cert.KernelIdeal.EncLemmas

variable (V : (c : Dev nD) → (b : Ref sig .tc) → Buf (Elt Ideal) ((c : Thread nD τ).loc b))

/-- The arrays the region reads and writes, as functions of literal index types into the extended reals. -/
abbrev qArr (c : Dev nD) : S1x128000.Idx → EReal := V c main_arg0
abbrev memArr (c : Dev nD) : S200x128000.Idx → EReal := V c main_arg1
abbrev waArr (c : Dev nD) : S256x128000.Idx → EReal := V c main_arg2
abbrev wbArr (c : Dev nD) : S256x128000.Idx → EReal := V c main_arg3
abbrev wcArr (c : Dev nD) : S256x128000.Idx → EReal := V c main_arg4
abbrev partA (c : Dev nD) : S2x200x256.Idx → EReal := (Enc.dat0 (F := Ideal) V c).arrAt 5 cfg0.N
abbrev partC (c : Dev nD) : S2x200x256.Idx → EReal := (Enc.dat0 (F := Ideal) V c).arrAt 6 cfg0.N
abbrev partQ (c : Dev nD) : S2x1x256.Idx → EReal := (Enc.dat0 (F := Ideal) V c).arrAt 7 cfg0.N

/-! ## A point's tiles are column ranges of the arrays -/

theorem tile_q (c : Dev nD) (t : Fin cfg0.N) (j : Fin 3200) :
    ((Enc.tilesAt V c t).q : S1x3200.Idx → EReal) (ix2 (0 : Fin 1) j) = qArr V c (ix2 (0 : Fin 1) (colAt t j)) :=
  blk0_apply (V c main_arg0) t 0 j
theorem tile_m (c : Dev nD) (t : Fin cfg0.N) (i : Fin 200) (j : Fin 3200) :
    ((Enc.tilesAt V c t).m : S200x3200.Idx → EReal) (ix2 i j) = memArr V c (ix2 i (colAt t j)) :=
  blk1_apply (V c main_arg1) t i j
theorem tile_wa (c : Dev nD) (t : Fin cfg0.N) (n : Fin 256) (j : Fin 3200) :
    ((Enc.tilesAt V c t).wa : S256x3200.Idx → EReal) (ix2 n j) = waArr V c (ix2 n (colAt t j)) :=
  blk2_apply (V c main_arg2) t n j
theorem tile_wb (c : Dev nD) (t : Fin cfg0.N) (n : Fin 256) (j : Fin 3200) :
    ((Enc.tilesAt V c t).wb : S256x3200.Idx → EReal) (ix2 n j) = wbArr V c (ix2 n (colAt t j)) :=
  blk3_apply (V c main_arg3) t n j
theorem tile_wc (c : Dev nD) (t : Fin cfg0.N) (n : Fin 256) (j : Fin 3200) :
    ((Enc.tilesAt V c t).wc : S256x3200.Idx → EReal) (ix2 n j) = wcArr V c (ix2 n (colAt t j)) :=
  blk4_apply (V c main_arg4) t n j

/-! ## The three accumulators, point by point, and the arrays they are written back to -/

/-! ### Accumulator A -/

/-- After any point: what the point before left (nothing, at a half's first point) plus the point's tile product. -/
theorem stepA (c : Dev nD) (t : Fin cfg0.N) (i : Fin 200) (n : Fin 256) :
    ((Enc.sumsAt V c t.val t.isLt).a : S200x256.Idx → EReal) (ix2 i n)
      = (if t.val % 20 = 0 then 0 else ((Enc.sumsAt V c (t.val - 1) (Enc.pred_lt t)).a : S200x256.Idx → EReal) (ix2 i n))
        + ∑ j : Fin 3200, memArr V c (ix2 i (colAt t j)) * waArr V c (ix2 n (colAt t j)) := by
  have hsum : ∀ acc : S200x256.Idx → EReal, (k0_pay9 (F := Ideal) (Enc.tilesAt V c t).m (Enc.tilesAt V c t).wa acc : S200x256.Idx → EReal) (ix2 i n)
      = acc (ix2 i n) + ∑ j : Fin 3200, memArr V c (ix2 i (colAt t j)) * waArr V c (ix2 n (colAt t j)) := fun acc => by
    rw [pay9_apply]
    exact congrArg (acc (ix2 i n) + ·) (Finset.sum_congr rfl fun j _ => by rw [tile_m, tile_wa])
  by_cases h0 : t.val % 20 = 0
  · have ea : (Enc.sumsAt V c t.val t.isLt).a = k0_pay9 (F := Ideal) (Enc.tilesAt V c t).m (Enc.tilesAt V c t).wa (k0_pay5 (F := Ideal)) := by
      rw [Enc.sumsAt_first V c t h0]; exact Enc.firstSums_a V c t h0
    rw [if_pos h0, ea, hsum, pay5_apply]
  · by_cases h1 : t.val % 20 = 19
    · have ea : (Enc.sumsAt V c t.val t.isLt).a = k0_pay9 (F := Ideal) (Enc.tilesAt V c t).m (Enc.tilesAt V c t).wa ((Enc.sumsAt V c (t.val - 1) (Enc.pred_lt t)).a) := by
        rw [Enc.sumsAt_last V c t h1]; exact Enc.lastSums_a V c t h1 _
      rw [if_neg h0, ea, hsum]
    · have ea : (Enc.sumsAt V c t.val t.isLt).a = k0_pay9 (F := Ideal) (Enc.tilesAt V c t).m (Enc.tilesAt V c t).wa ((Enc.sumsAt V c (t.val - 1) (Enc.pred_lt t)).a) := by
        rw [Enc.sumsAt_mid V c t h0 h1]; exact Enc.midSums_a V c t h0 h1 _
      rw [if_neg h0, ea, hsum]

/-- The accumulator after position `t`, as a function of a number: zero beyond the grid. -/
def totA (c : Dev nD) (t : ℕ) : S200x256.Idx → EReal :=
  if ht : t < cfg0.N then (Enc.sumsAt V c t ht).a else fun _ => 0

theorem totA_lt (c : Dev nD) {t : ℕ} (ht : t < cfg0.N) : totA V c t = (Enc.sumsAt V c t ht).a := dif_pos ht

theorem recA (c : Dev nD) (t : ℕ) (ht : t < 40) (i : Fin 200) (n : Fin 256) :
    totA V c t (ix2 i n) = (if t % 20 = 0 then 0 else totA V c (t - 1) (ix2 i n))
      + ∑ j : Fin 3200, memArr V c (ix2 i ⟨3200 * t + j.val, by omega⟩) * waArr V c (ix2 n ⟨3200 * t + j.val, by omega⟩) := by
  have hN : cfg0.N = 40 := N_0
  have htN : t < cfg0.N := by omega
  rw [totA_lt V c htN, totA_lt V c (show t - 1 < cfg0.N by omega)]
  exact stepA V c ⟨t, htN⟩ i n

/-- What a half's last point writes back is the accumulator it has just completed. -/
theorem backA_eq (c : Dev nD) (h : Fin 2) (i : Fin 200) (n : Fin 256) :
    backA (Enc.dat0 (F := Ideal) V c) (halfEnd h) (ix3 (0 : Fin 1) i n) = totA V c (20 * h.val + 19) (ix2 i n) := by
  have hN : cfg0.N = 40 := N_0
  have h1 : (halfEnd h).val % 20 = 19 := by rw [halfEnd_val]; omega
  have h20 : 20 * h.val + 19 < cfg0.N := by have := h.isLt; omega
  rw [totA_lt V c h20]
  show ((Enc.dat0 (F := Ideal) V c).after 5 (halfEnd h)) (ix3 (0 : Fin 1) i n) = _
  rw [Enc.after_oa, Enc.outsAt_a V c (halfEnd h) h1, pay2_apply]
  rfl

theorem arrAt0_5 (c : Dev nD) (h : Fin 2) (i : Fin 200) (n : Fin 256) :
    partA V c (ix3 h i n) = ∑ k : Fin 20, ∑ j : Fin 3200, memArr V c (ix2 i (Cert.Spec.col h k j)) * waArr V c (ix2 n (Cert.Spec.col h k j)) :=
  sumsA_of (Enc.dat0 (F := Ideal) V c) (memArr V c) (waArr V c) (totA V c) (recA V c) (backA_eq V c) h i n

/-! ### Accumulator C -/

/-- After any point: what the point before left (nothing, at a half's first point) plus the point's tile product. -/
theorem stepC (c : Dev nD) (t : Fin cfg0.N) (i : Fin 200) (n : Fin 256) :
    ((Enc.sumsAt V c t.val t.isLt).c : S200x256.Idx → EReal) (ix2 i n)
      = (if t.val % 20 = 0 then 0 else ((Enc.sumsAt V c (t.val - 1) (Enc.pred_lt t)).c : S200x256.Idx → EReal) (ix2 i n))
        + ∑ j : Fin 3200, memArr V c (ix2 i (colAt t j)) * wcArr V c (ix2 n (colAt t j)) := by
  have hsum : ∀ acc : S200x256.Idx → EReal, (k0_pay10 (F := Ideal) (Enc.tilesAt V c t).m (Enc.tilesAt V c t).wc acc : S200x256.Idx → EReal) (ix2 i n)
      = acc (ix2 i n) + ∑ j : Fin 3200, memArr V c (ix2 i (colAt t j)) * wcArr V c (ix2 n (colAt t j)) := fun acc => by
    rw [pay10_apply]
    exact congrArg (acc (ix2 i n) + ·) (Finset.sum_congr rfl fun j _ => by rw [tile_m, tile_wc])
  by_cases h0 : t.val % 20 = 0
  · have ea : (Enc.sumsAt V c t.val t.isLt).c = k0_pay10 (F := Ideal) (Enc.tilesAt V c t).m (Enc.tilesAt V c t).wc (k0_pay6 (F := Ideal)) := by
      rw [Enc.sumsAt_first V c t h0]; exact Enc.firstSums_c V c t h0
    rw [if_pos h0, ea, hsum, pay6_apply]
  · by_cases h1 : t.val % 20 = 19
    · have ea : (Enc.sumsAt V c t.val t.isLt).c = k0_pay10 (F := Ideal) (Enc.tilesAt V c t).m (Enc.tilesAt V c t).wc ((Enc.sumsAt V c (t.val - 1) (Enc.pred_lt t)).c) := by
        rw [Enc.sumsAt_last V c t h1]; exact Enc.lastSums_c V c t h1 _
      rw [if_neg h0, ea, hsum]
    · have ea : (Enc.sumsAt V c t.val t.isLt).c = k0_pay10 (F := Ideal) (Enc.tilesAt V c t).m (Enc.tilesAt V c t).wc ((Enc.sumsAt V c (t.val - 1) (Enc.pred_lt t)).c) := by
        rw [Enc.sumsAt_mid V c t h0 h1]; exact Enc.midSums_c V c t h0 h1 _
      rw [if_neg h0, ea, hsum]

/-- The accumulator after position `t`, as a function of a number: zero beyond the grid. -/
def totC (c : Dev nD) (t : ℕ) : S200x256.Idx → EReal :=
  if ht : t < cfg0.N then (Enc.sumsAt V c t ht).c else fun _ => 0

theorem totC_lt (c : Dev nD) {t : ℕ} (ht : t < cfg0.N) : totC V c t = (Enc.sumsAt V c t ht).c := dif_pos ht

theorem recC (c : Dev nD) (t : ℕ) (ht : t < 40) (i : Fin 200) (n : Fin 256) :
    totC V c t (ix2 i n) = (if t % 20 = 0 then 0 else totC V c (t - 1) (ix2 i n))
      + ∑ j : Fin 3200, memArr V c (ix2 i ⟨3200 * t + j.val, by omega⟩) * wcArr V c (ix2 n ⟨3200 * t + j.val, by omega⟩) := by
  have hN : cfg0.N = 40 := N_0
  have htN : t < cfg0.N := by omega
  rw [totC_lt V c htN, totC_lt V c (show t - 1 < cfg0.N by omega)]
  exact stepC V c ⟨t, htN⟩ i n

/-- What a half's last point writes back is the accumulator it has just completed. -/
theorem backC_eq (c : Dev nD) (h : Fin 2) (i : Fin 200) (n : Fin 256) :
    backB (Enc.dat0 (F := Ideal) V c) (halfEnd h) (ix3 (0 : Fin 1) i n) = totC V c (20 * h.val + 19) (ix2 i n) := by
  have hN : cfg0.N = 40 := N_0
  have h1 : (halfEnd h).val % 20 = 19 := by rw [halfEnd_val]; omega
  have h20 : 20 * h.val + 19 < cfg0.N := by have := h.isLt; omega
  rw [totC_lt V c h20]
  show ((Enc.dat0 (F := Ideal) V c).after 6 (halfEnd h)) (ix3 (0 : Fin 1) i n) = _
  rw [Enc.after_oc, Enc.outsAt_c V c (halfEnd h) h1, pay3_apply]
  rfl

theorem arrAt0_6 (c : Dev nD) (h : Fin 2) (i : Fin 200) (n : Fin 256) :
    partC V c (ix3 h i n) = ∑ k : Fin 20, ∑ j : Fin 3200, memArr V c (ix2 i (Cert.Spec.col h k j)) * wcArr V c (ix2 n (Cert.Spec.col h k j)) :=
  sumsB_of (Enc.dat0 (F := Ideal) V c) (memArr V c) (wcArr V c) (totC V c) (recC V c) (backC_eq V c) h i n

/-! ### Accumulator Q -/

/-- After any point: what the point before left (nothing, at a half's first point) plus the point's tile product. -/
theorem stepQ (c : Dev nD) (t : Fin cfg0.N) (n : Fin 256) :
    ((Enc.sumsAt V c t.val t.isLt).q : S1x256.Idx → EReal) (ix2 (0 : Fin 1) n)
      = (if t.val % 20 = 0 then 0 else ((Enc.sumsAt V c (t.val - 1) (Enc.pred_lt t)).q : S1x256.Idx → EReal) (ix2 (0 : Fin 1) n))
        + ∑ j : Fin 3200, qArr V c (ix2 (0 : Fin 1) (colAt t j)) * wbArr V c (ix2 n (colAt t j)) := by
  have hsum : ∀ acc : S1x256.Idx → EReal, (k0_pay1 (F := Ideal) (k0_pay11 (F := Ideal) (Enc.tilesAt V c t).q (Enc.tilesAt V c t).wb acc) : S1x256.Idx → EReal) (ix2 (0 : Fin 1) n)
      = acc (ix2 (0 : Fin 1) n) + ∑ j : Fin 3200, qArr V c (ix2 (0 : Fin 1) (colAt t j)) * wbArr V c (ix2 n (colAt t j)) := fun acc => by
    rw [pay1_pay11_apply]
    exact congrArg (acc (ix2 (0 : Fin 1) n) + ·) (Finset.sum_congr rfl fun j _ => by rw [tile_q, tile_wb])
  by_cases h0 : t.val % 20 = 0
  · have ea : (Enc.sumsAt V c t.val t.isLt).q = k0_pay1 (F := Ideal) (k0_pay11 (F := Ideal) (Enc.tilesAt V c t).q (Enc.tilesAt V c t).wb (k0_pay7 (F := Ideal))) := by
      rw [Enc.sumsAt_first V c t h0]; exact Enc.firstSums_q V c t h0
    rw [if_pos h0, ea, hsum, pay7_apply]
  · by_cases h1 : t.val % 20 = 19
    · have ea : (Enc.sumsAt V c t.val t.isLt).q = k0_pay1 (F := Ideal) (k0_pay11 (F := Ideal) (Enc.tilesAt V c t).q (Enc.tilesAt V c t).wb ((Enc.sumsAt V c (t.val - 1) (Enc.pred_lt t)).q)) := by
        rw [Enc.sumsAt_last V c t h1]; exact Enc.lastSums_q V c t h1 _
      rw [if_neg h0, ea, hsum]
    · have ea : (Enc.sumsAt V c t.val t.isLt).q = k0_pay1 (F := Ideal) (k0_pay11 (F := Ideal) (Enc.tilesAt V c t).q (Enc.tilesAt V c t).wb ((Enc.sumsAt V c (t.val - 1) (Enc.pred_lt t)).q)) := by
        rw [Enc.sumsAt_mid V c t h0 h1]; exact Enc.midSums_q V c t h0 h1 _
      rw [if_neg h0, ea, hsum]

/-- The accumulator after position `t`, as a function of a number: zero beyond the grid. -/
def totQ (c : Dev nD) (t : ℕ) : S1x256.Idx → EReal :=
  if ht : t < cfg0.N then (Enc.sumsAt V c t ht).q else fun _ => 0

theorem totQ_lt (c : Dev nD) {t : ℕ} (ht : t < cfg0.N) : totQ V c t = (Enc.sumsAt V c t ht).q := dif_pos ht

theorem recQ (c : Dev nD) (t : ℕ) (ht : t < 40) (n : Fin 256) :
    totQ V c t (ix2 (0 : Fin 1) n) = (if t % 20 = 0 then 0 else totQ V c (t - 1) (ix2 (0 : Fin 1) n))
      + ∑ j : Fin 3200, qArr V c (ix2 (0 : Fin 1) ⟨3200 * t + j.val, by omega⟩) * wbArr V c (ix2 n ⟨3200 * t + j.val, by omega⟩) := by
  have hN : cfg0.N = 40 := N_0
  have htN : t < cfg0.N := by omega
  rw [totQ_lt V c htN, totQ_lt V c (show t - 1 < cfg0.N by omega)]
  exact stepQ V c ⟨t, htN⟩ n

/-- What a half's last point writes back is the accumulator it has just completed. -/
theorem backQ_eq (c : Dev nD) (h : Fin 2) (n : Fin 256) :
    backQ (Enc.dat0 (F := Ideal) V c) (halfEnd h) (ix3 (0 : Fin 1) (0 : Fin 1) n) = totQ V c (20 * h.val + 19) (ix2 (0 : Fin 1) n) := by
  have hN : cfg0.N = 40 := N_0
  have h1 : (halfEnd h).val % 20 = 19 := by rw [halfEnd_val]; omega
  have h20 : 20 * h.val + 19 < cfg0.N := by have := h.isLt; omega
  rw [totQ_lt V c h20]
  show ((Enc.dat0 (F := Ideal) V c).after 7 (halfEnd h)) (ix3 (0 : Fin 1) (0 : Fin 1) n) = _
  rw [Enc.after_oq, Enc.outsAt_q V c (halfEnd h) h1, pay4_apply]
  rfl

theorem arrAt0_7 (c : Dev nD) (h : Fin 2) (n : Fin 256) :
    partQ V c (ix3 h (0 : Fin 1) n) = ∑ k : Fin 20, ∑ j : Fin 3200, qArr V c (ix2 (0 : Fin 1) (Cert.Spec.col h k j)) * wbArr V c (ix2 n (Cert.Spec.col h k j)) :=
  sumsQ_of (Enc.dat0 (F := Ideal) V c) (qArr V c) (wbArr V c) (totQ V c) (recQ V c) (backQ_eq V c) h n

end Cert.KernelIdeal.EncValue

end
-- ==== Proof.KI.DecValue.lean ====
import proofs.«142703_j28621662061019_2_alg».proof.Proof.KI.Dec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.DecValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Dec

/-! ## One entry of the product

At the ideal values the two roundings to bf16 are the identity and the accumulator is the zero splat, so entry `r` of
the stored row is the inner product of the row vector with row `r` of the weight tile. -/

local notation "𝔻" => dot_S1x256_S12800x256_S1x12800_1_1_0_0_n_n

/-- The product's left operand index at output column `r` and contraction position `d` is `(0, d)`. -/
theorem lhs_at (r : Fin 12800) (d : Fin 256) :
    (𝔻).lhsIdx (ix2 (0 : Fin 1) r) ((contrEquiv1 (𝔻) 256 rfl rfl).symm d) = ix2 (0 : Fin 1) d := by
  funext ax; apply Fin.ext
  match ax with
  | ⟨0, _⟩ => simp [DotDims.lhsIdx, dot_S1x256_S12800x256_S1x12800_1_1_0_0_n_n]
  | ⟨1, _⟩ =>
    exact ((𝔻).lhsIdx_val_of_single (cl := (1 : Fin 2)) rfl _ _).trans
      (contrEquiv1_symm_val (𝔻) 256 rfl rfl d)

/-- The right operand index there is `(r, d)`: the weight tile is contracted along its second axis. -/
theorem rhs_at (r : Fin 12800) (d : Fin 256) :
    (𝔻).rhsIdx (ix2 (0 : Fin 1) r) ((contrEquiv1 (𝔻) 256 rfl rfl).symm d) = ix2 r d := by
  funext ax; apply Fin.ext
  match ax with
  | ⟨0, _⟩ => simp [DotDims.rhsIdx, dot_S1x256_S12800x256_S1x12800_1_1_0_0_n_n]; rfl
  | ⟨1, _⟩ =>
    exact ((𝔻).rhsIdx_val_of_single (cr := (1 : Fin 2)) rfl _ _).trans
      (contrEquiv1_symm_val (𝔻) 256 rfl rfl d)

theorem stored_entry (x0 : Vec Ideal S1x256 .f32) (x3 : Vec Ideal S12800x256 .f32) (r : Fin 12800) :
    k1_pay1 x0 x3 (ix2 (0 : Fin 1) r) = ∑ d : Fin 256, x0 (ix2 (0 : Fin 1) d) * x3 (ix2 r d) := by
  unfold k1_pay1
  rw [shapeCast_self]
  refine (Ideal.matmul_constant_zero_apply (𝔻) none _ _ (ix2 (0 : Fin 1) r)).trans ?_
  rw [← Equiv.sum_comp (contrEquiv1 (𝔻) 256 rfl rfl).symm]
  refine Finset.sum_congr rfl fun d _ => ?_
  show x0 ((𝔻).lhsIdx (ix2 (0 : Fin 1) r) ((contrEquiv1 (𝔻) 256 rfl rfl).symm d))
      * x3 ((𝔻).rhsIdx (ix2 (0 : Fin 1) r) ((contrEquiv1 (𝔻) 256 rfl rfl).symm d)) = _
  rw [lhs_at, rhs_at]

/-! ## From the blocks to the array

The output array is one row of 128000 columns, written back in ten blocks of 12800 columns, block `t` at point `t`;
the weight array is read in ten tiles of 12800 rows, tile `t` at point `t`; the row vector is one block. So column
`v` of the result is written at point `v / 12800` from row `v` of the weight array. -/

variable (V : (c : Dev nD) → (b : Ref sig .tc) → Buf (Elt Ideal) ((c : Thread nD τ).loc b))

theorem zero_off : (![0, 0] : Fin 2 → Nat) = fun _ => 0 := funext fun a => by fin_cases a <;> rfl

/-- The whole result row as one function of the row vector and the weight array: column `v` is the inner product
    of the row vector with row `v` of the weights. -/
def logitsRow (q : S1x256.Idx → EReal) (W : S128000x256.Idx → EReal) : S1x128000.Idx → EReal :=
  fun i => ∑ d : Fin 256, q (ix2 (0 : Fin 1) d) * W (ix2 (⟨(i 1).val, idx2_lt1 i⟩ : Fin 128000) d)

/-- Where each window's block sits at point `t`, decided over the ten points: the row vector's block never moves, the
    weight tile moves down its first axis and the output block along its second, both with the point. -/
theorem block_places : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The row vector's block is the whole row vector, at every point. -/
theorem q_block (c : Dev nD) (t : Fin cfg1.N) (x : S1x256.Idx) :
    (iblk1 V c 0 t : Vec Ideal S1x256 .f32) x = (V c main_v62 : S1x256.Idx → EReal) x := by
  obtain ⟨e0, e1, -⟩ := block_places t
  unfold iblk1
  rw [View.read_apply]
  show V c main_v62 _ = V c main_v62 _
  refine congrArg (V c main_v62) ?_
  funext a
  apply Fin.ext
  match a with
  | ⟨0, _⟩ => show win1_0.index t (0 : Fin 2) * 1 + 1 * (x 0).val = (x 0).val; rw [e0]; omega
  | ⟨1, _⟩ => show win1_0.index t (1 : Fin 2) * 256 + 1 * (x 1).val = (x 1).val; rw [e1]; omega

/-- The weight tile at point `t` is rows `12800 t … 12800 t + 12799` of the weight array. -/
theorem w_block (c : Dev nD) (t : Fin cfg1.N) (x : S12800x256.Idx) (k : S128000x256.Idx)
    (hk0 : (k 0).val = 12800 * t.val + (x 0).val) (hk1 : (k 1).val = (x 1).val) :
    (iblk1 V c 1 t : Vec Ideal S12800x256 .f32) x = (V c main_arg5 : S128000x256.Idx → EReal) k := by
  obtain ⟨-, -, e0, e1, -⟩ := block_places t
  unfold iblk1
  rw [View.read_apply]
  show V c main_arg5 _ = V c main_arg5 _
  refine congrArg (V c main_arg5) ?_
  funext a
  apply Fin.ext
  match a with
  | ⟨0, _⟩ => show win1_1.index t (0 : Fin 2) * 12800 + 1 * (x 0).val = (k 0).val; rw [e0, hk0]; omega
  | ⟨1, _⟩ => show win1_1.index t (1 : Fin 2) * 256 + 1 * (x 1).val = (k 1).val; rw [e1, hk1]; omega

/-- What point `t` writes back is block `t` of `logitsRow` of the arrays as the region finds them. -/
theorem written_block (c : Dev nD) (t : Fin cfg1.N) :
    (dat1 (F := Ideal) V c).flushed 2 t
      = ((cfg1.win 2).blk t).view.read (Elt Ideal) (logitsRow (V c main_v62) (V c main_arg5)) := by
  show (cfg1.win 2).cut (grid1.coords t) ((dat1 (F := Ideal) V c).after 2 t) = _
  rw [left1_o]
  unfold stored1
  rw [View.canon_unit_zero zero_off]
  simp only [View.ld_unit_zero (S := S1x256) zero_off, View.ld_unit_zero (S := S12800x256) zero_off]
  obtain ⟨-, -, -, -, e0, e1⟩ := block_places t
  funext j
  obtain ⟨a, r, rfl⟩ : ∃ (a : Fin 1) (r : Fin 12800), j = ix2 a r := ⟨j 0, j 1, eq_ix2 j⟩
  obtain rfl : a = 0 := Subsingleton.elim _ _
  refine (stored_entry (iblk1 V c 0 t) (iblk1 V c 1 t) r).trans ?_
  show _ = logitsRow (V c main_v62) (V c main_arg5) (((cfg1.win 2).blk t).view.emb (ix2 (0 : Fin 1) r))
  unfold logitsRow
  refine Finset.sum_congr rfl fun d _ => ?_
  refine congrArg₂ (· * ·) (q_block V c t (ix2 (0 : Fin 1) d)) (w_block V c t (ix2 r d) _ ?_ rfl)
  show win1_2.index t (1 : Fin 2) * 12800 + 1 * r.val = 12800 * t.val + r.val
  rw [e1]; omega

/-- Every column of the result row lies in the block of the point `column / 12800`, which writes back. -/
theorem every_column_written (i : S1x128000.Idx) :
    ∃ t : Fin cfg1.N, (cfg1.win 2).flush t = true ∧ i ∈ ((cfg1.win 2).blk t).view.set := by
  have h0 : (i 0).val < 1 := idx2_lt0 i
  have h1 : (i 1).val < 128000 := idx2_lt1 i
  obtain ⟨t, tv⟩ : ∃ t : Fin cfg1.N, t.val = (i 1).val / 12800 :=
    ⟨⟨(i 1).val / 12800, by rw [show cfg1.N = 10 from N_1]; omega⟩, rfl⟩
  obtain ⟨-, -, -, -, e0, e1⟩ := block_places t
  refine ⟨t, flush1_2 t, ?_⟩
  show i ∈ ((View.whole main_v63).slice (win1_2.rect t)).set
  rw [View.set_slice_whole, Rect.mem_set_unit]
  intro a
  match a with
  | ⟨0, _⟩ =>
    show win1_2.index t (0 : Fin 2) * 1 ≤ (i 0).val ∧ (i 0).val < win1_2.index t (0 : Fin 2) * 1 + 1
    rw [e0]; omega
  | ⟨1, _⟩ =>
    show win1_2.index t (1 : Fin 2) * 12800 ≤ (i 1).val ∧ (i 1).val < win1_2.index t (1 : Fin 2) * 12800 + 12800
    rw [e1, tv]; omega

/-- The result array after the region is `logitsRow` of the row vector and the weight array as the region finds them. -/
theorem arr_after (c : Dev nD) :
    (dat1 (F := Ideal) V c).arrAt 2 cfg1.N = logitsRow (V c main_v62) (V c main_arg5) :=
  (dat1 (F := Ideal) V c).arrAt_eq_of_cover 2 (logitsRow (V c main_v62) (V c main_arg5))
    (fun t _ => written_block V c t) every_column_written

/-- The three arrays of the region with their index types written out: the row vector and the weights as the region
    finds them, the result as the region leaves it. -/
abbrev qAt (c : Dev nD) : S1x256.Idx → EReal := V c main_v62
abbrev wAt (c : Dev nD) : S128000x256.Idx → EReal := V c main_arg5
abbrev outAt (c : Dev nD) : S1x128000.Idx → EReal := (dat1 (F := Ideal) V c).arrAt 2 cfg1.N

/-- Column `v` of the result after the region: the inner product of the row vector with row `v` of the weights, an
    exact equality of extended reals. -/
theorem arrAt1_2 (c : Dev nD) (v : Fin 128000) :
    outAt V c (ix2 (0 : Fin 1) v) = ∑ d : Fin 256, qAt V c (ix2 (0 : Fin 1) d) * wAt V c (ix2 v d) := by
  unfold outAt
  rw [arr_after]
  rfl

end Cert.KernelIdeal.DecValue

end
-- ==== Proof.RefValue.lean ====
import proofs.«142703_j28621662061019_2_alg».proof.Defs
import proofs.«142703_j28621662061019_2_alg».proof.Proof.Gen.ReferenceIdeal
import proofs.«142703_j28621662061019_2_alg».proof.Proof.Gen.ReferenceIdeal.Run
import proofs.«142703_j28621662061019_2_alg».proof.Proof.Hops
import Idealize.ShloMosaic.Lib.ValueIdx
import Idealize.ShloMosaic.Lib.Pipeline.Value
import Idealize.ShloMosaic.Lib.StackMember
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Idealize.ShloMosaic.StableHlo

/-! ## The reference's result as one function of its eight arguments -/

/-- The side conditions of one round of memory addressing, as the reference states them. -/
def side : Cert.Hops.Side :=
  ⟨transposes_S200x256_S256x200_1_0, dot_S1x256_S256x200_S1x200_1_0_0_1_n_n, dot_S1x200_S200x256_S1x256_1_0_0_1_n_n,
    reducesTo_S1x200_S1_d1, h_S_, bcast_S_S1, bcast_S1_S1x1_0, bcast_S1x1_S1x200_0_1⟩

/-- The embedded question: the bag-of-words row times the transposed embedding matrix. -/
def qR (a0 : FVec Ideal S1x128000 .f32) (a3 : FVec Ideal S256x128000 .f32) : FVec Ideal S1x256 .f32 :=
  Host.dotGeneral (F := Ideal) dot_S1x128000_S128000x256_S1x256_1_0_0_1_n_n none a0
    (transpose S128000x256 [1, 0] a3 transposes_S256x128000_S128000x256_1_0)

/-- An embedded memory: the 200 bag-of-words rows times a transposed embedding matrix, plus the temporal term. -/
def cR (a1 : FVec Ideal S200x128000 .f32) (w : FVec Ideal S256x128000 .f32) (tt : FVec Ideal S200x256 .f32) :
    FVec Ideal S200x256 .f32 :=
  addf (Host.dotGeneral (F := Ideal) dot_S200x128000_S128000x256_S200x256_1_0_0_1_n_n none a1
    (transpose S128000x256 [1, 0] w transposes_S256x128000_S128000x256_1_0)) tt

/-- The answer scores: three rounds of addressing from the embedded question over the two embedded memories, then the
    product with the transposed output matrix. -/
def out (a0 : FVec Ideal S1x128000 .f32) (a1 : FVec Ideal S200x128000 .f32) (a2 a3 a4 : FVec Ideal S256x128000 .f32)
    (a5 : FVec Ideal S128000x256 .f32) (a6 a7 : FVec Ideal S200x256 .f32) : FVec Ideal S1x128000 .f32 :=
  Host.dotGeneral (F := Ideal) dot_S1x256_S256x128000_S1x128000_1_0_0_1_n_n none
    (Cert.Hops.hops side (qR a0 a3) (cR a1 a2 a6) (cR a1 a4 a7))
    (transpose S256x128000 [1, 0] a5 transposes_S128000x256_S256x128000_1_0)

/-! ## The named intermediates of the run are these functions -/

section Names
variable (V : Valuation τ sig (Elt Ideal))

theorem v1_eq : Value.res_main_v1 V = qR (V (Proc.devRef .tc main_arg0)) (V (Proc.devRef .tc main_arg3)) := rfl
theorem v4_eq : Value.res_main_v4 V = cR (V (Proc.devRef .tc main_arg1)) (V (Proc.devRef .tc main_arg2)) (V (Proc.devRef .tc main_arg6)) := rfl
theorem v7_eq : Value.res_main_v7 V = cR (V (Proc.devRef .tc main_arg1)) (V (Proc.devRef .tc main_arg4)) (V (Proc.devRef .tc main_arg7)) := rfl

/-- The first round's result is one round from the embedded question. -/
theorem v22_eq : Value.res_main_v22 V
    = Cert.Hops.hop side (Value.res_main_v1 V) (Value.res_main_v4 V) (Value.res_main_v7 V) := rfl
/-- The second round's result is one round from the first's. -/
theorem v37_eq : Value.res_main_v37 V
    = Cert.Hops.hop side (Value.res_main_v22 V) (Value.res_main_v4 V) (Value.res_main_v7 V) := rfl

/-- The run's result term, its third round folded, is `out` of the eight arguments. -/
theorem res_eq : Host.dotGeneral (F := Ideal) (φ₁ := .f32) (φ₂ := .f32) dot_S1x256_S256x128000_S1x128000_1_0_0_1_n_n none
      (Cert.Hops.hop side (Value.res_main_v37 V) (Value.res_main_v4 V) (Value.res_main_v7 V))
      (transpose (s := S128000x256) (α := Ideal .f32) S256x128000 [1, 0] (V (Proc.devRef .tc main_arg5)) transposes_S128000x256_S256x128000_1_0)
    = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [v37_eq, v22_eq, v1_eq, v4_eq, v7_eq]
  rfl

end Names

/-! ## The run -/

/-- From any memory with zero counters every weakly fair execution of the reference terminates with its result at
    `out` of the launch contents of its eight arguments, and the arguments unchanged. (The third round, which the
    run states operation by operation, is one round from the second's result by unfolding.) -/
theorem run (m' : (ℓ : Loc nD τ sig) → Buf (Elt Ideal) ℓ) (g' : Dev nD → PrngReg) :
    θ_run (Cert.ReferenceIdeal.defs (F := Ideal)) (onTc (τ := τ) (Cert.ReferenceIdeal.main (F := Ideal))) ⟨m', fun _ => 0, g'⟩
      (fun r => ∀ c : Dev nD,
        r.2.mem ((c.tc : Thread nD τ).loc main_v54) = out (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run _ _ _).mono (fun _ h c => ⟨(h c).1.trans (res_eq (launchContents m' c)), (h c).2⟩) (Value.run m' g')

/-! ## The three products read at an index -/

/-- Each of the three dimension records is the plain rows-by-columns product. -/
theorem dotq_eq : dot_S1x128000_S128000x256_S1x256_1_0_0_1_n_n = DotDims.plain 1 128000 256 := rfl
theorem dotc_eq : dot_S200x128000_S128000x256_S200x256_1_0_0_1_n_n = DotDims.plain 200 128000 256 := rfl
theorem doto_eq : dot_S1x256_S256x128000_S1x128000_1_0_0_1_n_n = DotDims.plain 1 256 128000 := rfl

/-- A transposed embedding matrix at (word, feature) is the matrix at (feature, word). -/
theorem tr_emb_apply (w : FVec Ideal S256x128000 .f32) (v : Fin 128000) (d : Fin 256) :
    transpose S128000x256 [1, 0] w transposes_S256x128000_S128000x256_1_0 (ix2 v d) = w (ix2 d v) :=
  transpose_apply [1, 0] w transposes_S256x128000_S128000x256_1_0 (ix2 v d) (ix2 d v)
    (fun b => by match b with | ⟨0, _⟩ => rfl | ⟨1, _⟩ => rfl)

/-- The transposed output matrix at (feature, word) is the matrix at (word, feature). -/
theorem tr_out_apply (a5 : FVec Ideal S128000x256 .f32) (d : Fin 256) (v : Fin 128000) :
    transpose S256x128000 [1, 0] a5 transposes_S128000x256_S256x128000_1_0 (ix2 d v) = a5 (ix2 v d) :=
  transpose_apply [1, 0] a5 transposes_S128000x256_S256x128000_1_0 (ix2 d v) (ix2 v d)
    (fun b => by match b with | ⟨0, _⟩ => rfl | ⟨1, _⟩ => rfl)

/-- The embedded question at feature `d`: the sum over the vocabulary of the question's counts times the embedding. -/
theorem qR_apply (a0 : FVec Ideal S1x128000 .f32) (a3 : FVec Ideal S256x128000 .f32) (d : Fin 256) :
    qR a0 a3 (ix2 (0 : Fin 1) d) = ∑ v : Fin 128000, a0 (ix2 (0 : Fin 1) v) * a3 (ix2 d v) := by
  unfold qR
  rw [dotq_eq, StackMember.dotGeneral_plain_apply]
  exact Finset.sum_congr rfl fun v _ => by rw [tr_emb_apply]

/-- An embedded memory at slot `i`, feature `n`: the sum over the vocabulary plus the temporal term. -/
theorem cR_apply (a1 : FVec Ideal S200x128000 .f32) (w : FVec Ideal S256x128000 .f32) (tt : FVec Ideal S200x256 .f32)
    (i : Fin 200) (n : Fin 256) :
    cR a1 w tt (ix2 i n) = (∑ v : Fin 128000, a1 (ix2 i v) * w (ix2 n v)) + tt (ix2 i n) := by
  unfold cR
  rw [addf_apply, dotc_eq, StackMember.dotGeneral_plain_apply]
  exact congrArg (· + tt (ix2 i n)) (Finset.sum_congr rfl fun v _ => by rw [tr_emb_apply])

/-- The answer score of word `v`: the sum over the features of the final query times the output matrix. -/
theorem out_apply (a0 : FVec Ideal S1x128000 .f32) (a1 : FVec Ideal S200x128000 .f32) (a2 a3 a4 : FVec Ideal S256x128000 .f32)
    (a5 : FVec Ideal S128000x256 .f32) (a6 a7 : FVec Ideal S200x256 .f32) (v : Fin 128000) :
    out a0 a1 a2 a3 a4 a5 a6 a7 (ix2 (0 : Fin 1) v)
      = ∑ d : Fin 256, Cert.Hops.hops side (qR a0 a3) (cR a1 a2 a6) (cR a1 a4 a7) (ix2 (0 : Fin 1) d) * a5 (ix2 v d) := by
  unfold out
  generalize Cert.Hops.hops side (qR a0 a3) (cR a1 a2 a6) (cR a1 a4 a7) = H
  rw [doto_eq, StackMember.dotGeneral_plain_apply]
  exact Finset.sum_congr rfl fun d _ => by rw [tr_out_apply]

end Cert.ReferenceIdeal.RefValue

end
-- ==== Proof.KI.Bridge.lean ====
import proofs.«142703_j28621662061019_2_alg».proof.Proof.KI.Run
import proofs.«142703_j28621662061019_2_alg».proof.Proof.KI.MidValue
import proofs.«142703_j28621662061019_2_alg».proof.Proof.KI.EncValue
import proofs.«142703_j28621662061019_2_alg».proof.Proof.KI.DecValue
import proofs.«142703_j28621662061019_2_alg».proof.Proof.RefValue
import proofs.«142703_j28621662061019_2_alg».proof.Proof.Spec

set_option maxRecDepth 16384

noncomputable section

namespace Cert.KernelIdeal.Bridge

open Idealize.ShloMosaic Idealize.ShloMosaic.TcCoe Idealize.ShloMosaic.ValueIdx
open Cert.KernelIdeal Cert.KernelIdeal.Gen Cert.KernelIdeal.Run

variable (m : (ℓ : Loc nD τ sig) → Buf (Elt Ideal) ℓ)

/-- Argument 0 on core `c`, as an array of extended reals. -/
abbrev a0 (c : Dev nD) : FVec Ideal S1x128000 .f32 := m ((c : Thread nD τ).loc main_arg0)
/-- Argument 1 on core `c`, as an array of extended reals. -/
abbrev a1 (c : Dev nD) : FVec Ideal S200x128000 .f32 := m ((c : Thread nD τ).loc main_arg1)
/-- Argument 2 on core `c`, as an array of extended reals. -/
abbrev a2 (c : Dev nD) : FVec Ideal S256x128000 .f32 := m ((c : Thread nD τ).loc main_arg2)
/-- Argument 3 on core `c`, as an array of extended reals. -/
abbrev a3 (c : Dev nD) : FVec Ideal S256x128000 .f32 := m ((c : Thread nD τ).loc main_arg3)
/-- Argument 4 on core `c`, as an array of extended reals. -/
abbrev a4 (c : Dev nD) : FVec Ideal S256x128000 .f32 := m ((c : Thread nD τ).loc main_arg4)
/-- Argument 5 on core `c`, as an array of extended reals. -/
abbrev a5 (c : Dev nD) : FVec Ideal S128000x256 .f32 := m ((c : Thread nD τ).loc main_arg5)
/-- Argument 6 on core `c`, as an array of extended reals. -/
abbrev a6 (c : Dev nD) : FVec Ideal S200x256 .f32 := m ((c : Thread nD τ).loc main_arg6)
/-- Argument 7 on core `c`, as an array of extended reals. -/
abbrev a7 (c : Dev nD) : FVec Ideal S200x256 .f32 := m ((c : Thread nD τ).loc main_arg7)

/-! ## The two programs' side conditions of a round are the same record -/

theorem side_eq : Cert.KernelIdeal.Mid.side = Cert.ReferenceIdeal.RefValue.side := rfl

/-! ## What the second region is entered with -/

/-- The decode weights reach the second region as launched. -/
theorem V3_main_arg5 (c : Dev nD) : V3 m c main_arg5 = m ((c : Thread nD τ).loc main_arg5) :=
  calc W3 m c (Proc.devRef .tc main_arg5)
    _ = W2 m c (Proc.devRef .tc main_arg5) := StableHlo.after_of_writes_sub main_part1_ops0 _ ops1_writes (by decide)
    _ = W1 m c (Proc.devRef .tc main_arg5) := StableHlo.after_of_writes_sub main_part0_ops0 _ ops0_writes (by decide)
    _ = W0 m c (Proc.devRef .tc main_arg5) := W1_of_ne m c main_arg5 (by decide)
    _ = m ((c : Thread nD τ).loc main_arg5) := rfl

theorem W1_main_arg6 (c : Dev nD) : W1 m c (Proc.devRef .tc main_arg6) = m ((c : Thread nD τ).loc main_arg6) :=
  W1_of_ne m c main_arg6 (by decide)
theorem W1_main_arg7 (c : Dev nD) : W1 m c (Proc.devRef .tc main_arg7) = m ((c : Thread nD τ).loc main_arg7) :=
  W1_of_ne m c main_arg7 (by decide)

/-- The query the second region reads: three rounds of addressing over the first region's partial results. -/
theorem V3_main_v62 (c : Dev nD) :
    V3 m c main_v62 = Cert.Hops.hops Cert.KernelIdeal.Mid.side
      (Cert.KernelIdeal.Mid.qK (Cert.KernelIdeal.EncValue.partQ (V0 m) c))
      (Cert.KernelIdeal.Mid.cK (Cert.KernelIdeal.EncValue.partA (V0 m) c) (a6 m c))
      (Cert.KernelIdeal.Mid.cK (Cert.KernelIdeal.EncValue.partC (V0 m) c) (a7 m c)) := by
  have h := Cert.KernelIdeal.Mid.query_after (F := Ideal) (W1 m c)
  rw [W1_arr m c 7, W1_arr m c 5, W1_arr m c 6, W1_main_arg6, W1_main_arg7] at h
  exact h

/-! ## The three embeddings: split sums against whole sums -/

/-- The query embedding: the two halves' tile-by-tile sums are the sum over all columns. -/
theorem q_eq (c : Dev nD) :
    Cert.KernelIdeal.Mid.qK (Cert.KernelIdeal.EncValue.partQ (V0 m) c)
      = Cert.ReferenceIdeal.RefValue.qR (a0 m c) (a3 m c) := by
  funext idx
  obtain ⟨u, d, rfl⟩ : ∃ (u : Fin 1) (d : Fin 256), idx = ix2 u d := ⟨idx 0, idx 1, eq_ix2 idx⟩
  obtain rfl : u = 0 := Subsingleton.elim _ _
  rw [Cert.KernelIdeal.Mid.qK_apply, Cert.ReferenceIdeal.RefValue.qR_apply,
    Cert.KernelIdeal.EncValue.arrAt0_7, Cert.KernelIdeal.EncValue.arrAt0_7]
  exact Cert.Spec.sum_halves (fun v => Cert.KernelIdeal.EncValue.qArr (V0 m) c (ix2 (0 : Fin 1) v) * Cert.KernelIdeal.EncValue.wbArr (V0 m) c (ix2 d v))

/-- The address matrix. -/
theorem cA_eq (c : Dev nD) :
    Cert.KernelIdeal.Mid.cK (Cert.KernelIdeal.EncValue.partA (V0 m) c) (a6 m c)
      = Cert.ReferenceIdeal.RefValue.cR (a1 m c) (a2 m c) (a6 m c) := by
  funext idx
  obtain ⟨i, n, rfl⟩ : ∃ (i : Fin 200) (n : Fin 256), idx = ix2 i n := ⟨idx 0, idx 1, eq_ix2 idx⟩
  rw [Cert.KernelIdeal.Mid.cK_apply, Cert.ReferenceIdeal.RefValue.cR_apply,
    Cert.KernelIdeal.EncValue.arrAt0_5, Cert.KernelIdeal.EncValue.arrAt0_5]
  exact congrArg (· + a6 m c (ix2 i n)) (Cert.Spec.sum_halves (fun v => Cert.KernelIdeal.EncValue.memArr (V0 m) c (ix2 i v) * Cert.KernelIdeal.EncValue.waArr (V0 m) c (ix2 n v)))

/-- The content matrix. -/
theorem cC_eq (c : Dev nD) :
    Cert.KernelIdeal.Mid.cK (Cert.KernelIdeal.EncValue.partC (V0 m) c) (a7 m c)
      = Cert.ReferenceIdeal.RefValue.cR (a1 m c) (a4 m c) (a7 m c) := by
  funext idx
  obtain ⟨i, n, rfl⟩ : ∃ (i : Fin 200) (n : Fin 256), idx = ix2 i n := ⟨idx 0, idx 1, eq_ix2 idx⟩
  rw [Cert.KernelIdeal.Mid.cK_apply, Cert.ReferenceIdeal.RefValue.cR_apply,
    Cert.KernelIdeal.EncValue.arrAt0_6, Cert.KernelIdeal.EncValue.arrAt0_6]
  exact congrArg (· + a7 m c (ix2 i n)) (Cert.Spec.sum_halves (fun v => Cert.KernelIdeal.EncValue.memArr (V0 m) c (ix2 i v) * Cert.KernelIdeal.EncValue.wcArr (V0 m) c (ix2 n v)))

/-! ## The result -/

/-- The reference's result, as a function of the kernel's argument arrays, is what the second region's write-backs
    leave: entry by entry both are the product of the addressed query with a row of the decode weights. -/
theorem result_eq (c : Dev nD) :
    Cert.ReferenceIdeal.RefValue.out (a0 m c) (a1 m c)
        (a2 m c) (a3 m c) (a4 m c)
        (a5 m c) (a6 m c) (a7 m c)
      = (Dec.dat1 (F := Ideal) (V3 m) c).arrAt 2 cfg1.N := by
  funext idx
  obtain ⟨u, v, rfl⟩ : ∃ (u : Fin 1) (v : Fin 128000), idx = ix2 u v := ⟨idx 0, idx 1, eq_ix2 idx⟩
  obtain rfl : u = 0 := Subsingleton.elim _ _
  refine (Cert.ReferenceIdeal.RefValue.out_apply _ _ _ _ _ _ _ _ v).trans ?_
  refine Eq.trans ?_ (Cert.KernelIdeal.DecValue.arrAt1_2 (V3 m) c v).symm
  refine Finset.sum_congr rfl fun d _ => ?_
  have hq : Cert.KernelIdeal.DecValue.qAt (V3 m) c
      = Cert.Hops.hops Cert.ReferenceIdeal.RefValue.side (Cert.ReferenceIdeal.RefValue.qR (a0 m c) (a3 m c))
          (Cert.ReferenceIdeal.RefValue.cR (a1 m c) (a2 m c) (a6 m c)) (Cert.ReferenceIdeal.RefValue.cR (a1 m c) (a4 m c) (a7 m c)) := by
    rw [← q_eq, ← cA_eq, ← cC_eq, ← side_eq]
    exact V3_main_v62 m c
  have hw : Cert.KernelIdeal.DecValue.wAt (V3 m) c = a5 m c := V3_main_arg5 m c
  rw [hq, hw]

end Cert.KernelIdeal.Bridge

end
-- ==== Proof.lean ====
/-
  The certificate of the two-stage memory-network kernel against its reference, over the extended reals.

  The kernel computes the three embeddings (query·WBᵀ, memory·WAᵀ, memory·WCᵀ) by a first pipelined region that sweeps the
  128000 columns in forty tiles of 3200, twenty per half, accumulating each half's partial products in scratch buffers
  and writing each half's sums out at its last tile; host operations add the two halves and the temporal terms and run
  three rounds of softmax addressing; a second pipelined region multiplies the addressed query with the decode
  weights, 12800 output columns per grid point. The reference does the same with three whole products, the same
  rounds, and one whole product.

  Frames (all three programs run to the end, fault nowhere, leave the arguments unchanged): the kernel's two printed
  programs through one run of their segments — region, host operations, region — stated for any float
  instance; the reference's through its run. The idealization rewrote nothing, so `preserves` is trivial. Equality of the
  results at the ideal instance: the per-half tile-by-tile sums regroup into the sum over all columns (a finite sum in
  a commutative monoid: no finiteness of the inputs is used), the rounds are the same function of equal arguments,
  and the tiled product is the whole product entry by entry.
-/
import proofs.«142703_j28621662061019_2_alg».proof.Defs
import proofs.«142703_j28621662061019_2_alg».proof.Proof.Gen.Kernel
import proofs.«142703_j28621662061019_2_alg».proof.Proof.Gen.KernelIdeal
import proofs.«142703_j28621662061019_2_alg».proof.Proof.Gen.ReferenceIdeal
import proofs.«142703_j28621662061019_2_alg».proof.Proof.Gen.Pre_finite_inputs
import proofs.«142703_j28621662061019_2_alg».proof.Proof.K.Run
import proofs.«142703_j28621662061019_2_alg».proof.Proof.KI.Run
import proofs.«142703_j28621662061019_2_alg».proof.Proof.KI.Bridge
import proofs.«142703_j28621662061019_2_alg».proof.Proof.RefValue
import Idealize.ShloMosaic.Adequacy
import Idealize.ShloMosaic.Init

noncomputable section

namespace Cert.Proof

open Idealize.ShloMosaic Idealize.SL.Sem

/-- The word-level kernel's frame. -/
theorem frame_k : Cert.frame_Kernel := fun m ρ _ =>
  (θ_run (Cert.Kernel.defs (F := Bits)) _ _).mono (fun _ h c => (h c).2) (Cert.Kernel.Run.run_result (F := Bits) m ρ)

/-- The idealized kernel's frame. -/
theorem frame_ki : Cert.frame_KernelIdeal := fun m ρ _ =>
  (θ_run (Cert.KernelIdeal.defs (F := Ideal)) _ _).mono (fun _ h c => (h c).2) (Cert.KernelIdeal.Run.run_result (F := Ideal) m ρ)

/-- The reference's frame: its run with the result dropped. -/
theorem frame_ri : Cert.frame_ReferenceIdeal := fun m ρ _ =>
  (θ_run (Cert.ReferenceIdeal.defs (F := Ideal)) _ _).mono (fun _ h c => (h c).2) (Cert.ReferenceIdeal.RefValue.run m ρ)

/-- The idealization rewrote no operation. -/
theorem preserves : Cert.preserves_Kernel_KernelIdeal := trivial

/-- Both idealized programs end with the same result array: what the second region's write-backs leave is the
    reference's function of the (agreeing) arguments. -/
theorem algebraic : Cert.algebraic_KernelIdeal_ReferenceIdeal := by
  intro m ρ m' ρ' _ hagree
  refine ⟨fun c => (Cert.KernelIdeal.Dec.dat1 (F := Ideal) (Cert.KernelIdeal.Run.V3 m) c).arrAt 2 Cert.KernelIdeal.cfg1.N,
    Cert.KernelIdeal.Run.run_result (F := Ideal) m ρ, ?_⟩
  refine (θ_run (Cert.ReferenceIdeal.defs (F := Ideal)) _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.KernelIdeal.Bridge.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
